-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1x256x256 : Shape := ⟨4, ![8, 1, 256, 256]⟩
abbrev S_ : Shape := ⟨0, ![]⟩

class Facts : Prop where
  bcast_S_S8x1x256x256 : S_.BroadcastsInDim S8x1x256x256 (![] : Fin 0 → Fin S8x1x256x256.rank)
  reducesTo_S8x1x256x256_S_d0_1_2_3 : S8x1x256x256.ReducesTo [0, 1, 2, 3] S_
  h_S_ : 0 < S_.numel

variable [Facts]

def fn {F : FTy → Type} [FloatOps F] (main_arg0 : FVec F S8x1x256x256 .f32) (main_arg1 : IVec S8x1x256x256 32) : IVec S_ 1 :=
  let main_v0 : FVec F S8x1x256x256 .f32 := Host.absf main_arg0
  let main_cst : FVec F S_ .f32 := constant S_ .f32 0x7F800000#32
  let main_v1 : FVec F S8x1x256x256 .f32 := broadcastInDim S8x1x256x256 ![] bcast_S_S8x1x256x256 main_cst
  let main_v2 : IVec S8x1x256x256 1 := cmpf .olt main_v0 main_v1
  let main_c : IVec S_ 1 := constantI S_ 1 1#1
  let main_v3 : IVec S_ 1 := (fun x v => Host.reduce IntOp.andi x v reducesTo_S8x1x256x256_S_d0_1_2_3 h_S_) main_v2 main_c
  main_v3
-- ==== Kernel.lean ====
abbrev S8x1x256x256 : Shape := ⟨4, ![8, 1, 256, 256]⟩
abbrev S1x1x256x256 : Shape := ⟨4, ![1, 1, 256, 256]⟩
abbrev S1x256x256 : Shape := ⟨3, ![1, 256, 256]⟩
abbrev S1x128 : Shape := ⟨2, ![1, 128]⟩
abbrev S256x256 : Shape := ⟨2, ![256, 256]⟩
abbrev S256x1 : Shape := ⟨2, ![256, 1]⟩
abbrev S1x256 : Shape := ⟨2, ![1, 256]⟩
abbrev S8x256 : Shape := ⟨2, ![8, 256]⟩
abbrev S8x1x256 : Shape := ⟨3, ![8, 1, 256]⟩
abbrev S8x256x256 : Shape := ⟨3, ![8, 256, 256]⟩
abbrev S256 : Shape := ⟨1, ![256]⟩
abbrev S1 : Shape := ⟨1, ![1]⟩
abbrev S1x1 : Shape := ⟨2, ![1, 1]⟩
abbrev S1x124 : Shape := ⟨2, ![1, 124]⟩
abbrev S_ : Shape := ⟨0, ![]⟩

abbrev nBuf : Space → Nat
  | .hbm => 29
  | .vmem => 12
  | .smem => 0
  | _ => 0

abbrev bufTy : (tb : Table) → Fin (tcTables nBuf tb) → BufTy
  | .hbm, ⟨0, _⟩ => ⟨S8x1x256x256, .f32⟩
  | .hbm, ⟨1, _⟩ => ⟨S8x1x256x256, .i32⟩
  | .hbm, ⟨2, _⟩ => ⟨S8x1x256x256, .f32⟩
  | .hbm, ⟨3, _⟩ => ⟨S1x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S1x1, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .local _ .vmem, ⟨0, _⟩ => ⟨S8x1x256x256, .i32⟩
  | .local _ .vmem, ⟨1, _⟩ => ⟨S8x1x256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x1x256x256, .f32⟩
  | .local _ .vmem, ⟨5, _⟩ => ⟨S1x1x256x256, .f32⟩
  | .local _ .vmem, ⟨6, _⟩ => ⟨S1x1x256x256, .i32⟩
  | .local _ .vmem, ⟨7, _⟩ => ⟨S1x1x256x256, .i32⟩
  | .local _ .vmem, ⟨8, _⟩ => ⟨S1x128, .f32⟩
  | .local _ .vmem, ⟨9, _⟩ => ⟨S1x128, .f32⟩
  | .local _ .vmem, ⟨10, _⟩ => ⟨S256x256, .f32⟩
  | .local _ .vmem, ⟨11, _⟩ => ⟨S256x256, .f32⟩
  | _, _ => ⟨S8x1x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_scratch0 : Ref sig .tc := ⟨.vmem, 9, rfl⟩
abbrev cc1_scratch1 : Ref sig .tc := ⟨.vmem, 10, rfl⟩
abbrev cc1_scratch2 : Ref sig .tc := ⟨.vmem, 11, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .vmem S8x1x256x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8x1x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![8], ![false]⟩

@[reducible] def k1_t1_loop : Scf.Loop 32 :=
  let c0_i32_14 : BitVec 32 := 0#32
  let c32_i32 : BitVec 32 := 32#32
  let v21 : BitVec 32 := Scalar.addi c0_i32_14 c32_i32
  let c1_i32 : BitVec 32 := 1#32
  ⟨c0_i32_14, v21, c1_i32⟩
def k1_mult1 (k1_t1 : Fin k1_t1_loop.trips) : BitVec 32 :=
  let c0_i32_38 : BitVec 32 := 0#32
  let c0_i32_14 : BitVec 32 := 0#32
  let c1_i32 : BitVec 32 := 1#32
  let arg8 : BitVec 32 := Scf.iv c0_i32_14 c1_i32 k1_t1
  let c1_i32_37 : BitVec 32 := 1#32
  let v59 : BitVec 32 := Scalar.muli arg8 c1_i32_37
  let v60 : BitVec 32 := Scalar.addi c0_i32_38 v59
  let c8_i32 : BitVec 32 := 8#32
  let v61 : BitVec 32 := Scalar.muli v60 c8_i32
  v61
def k1_off1 (k1_t1 : Fin k1_t1_loop.trips) : Fin 2 → Nat :=
  let c0_i32_38 : BitVec 32 := 0#32
  let c0_i32_14 : BitVec 32 := 0#32
  let c1_i32 : BitVec 32 := 1#32
  let arg8 : BitVec 32 := Scf.iv c0_i32_14 c1_i32 k1_t1
  let c1_i32_37 : BitVec 32 := 1#32
  let v59 : BitVec 32 := Scalar.muli arg8 c1_i32_37
  let v60 : BitVec 32 := Scalar.addi c0_i32_38 v59
  let c8_i32 : BitVec 32 := 8#32
  let v61 : BitVec 32 := Scalar.muli v60 c8_i32
  let v62 : BitVec 32 := v61
  let v63 : Index := Scalar.indexCast v62
  let c0_39 : Index := 0#32
  ![v63.toNat, 0]
@[reducible] def k1_t2_loop : Scf.Loop 32 :=
  let c0_i32_18 : BitVec 32 := 0#32
  let c32_i32_19 : BitVec 32 := 32#32
  let v25 : BitVec 32 := Scalar.addi c0_i32_18 c32_i32_19
  let c1_i32_20 : BitVec 32 := 1#32
  ⟨c0_i32_18, v25, c1_i32_20⟩
def k1_mult2 (k1_t2 : Fin k1_t2_loop.trips) : BitVec 32 :=
  let c0_i32_38 : BitVec 32 := 0#32
  let c0_i32_18 : BitVec 32 := 0#32
  let c1_i32_20 : BitVec 32 := 1#32
  let arg8 : BitVec 32 := Scf.iv c0_i32_18 c1_i32_20 k1_t2
  let c1_i32_37 : BitVec 32 := 1#32
  let v59 : BitVec 32 := Scalar.muli arg8 c1_i32_37
  let v60 : BitVec 32 := Scalar.addi c0_i32_38 v59
  let c8_i32 : BitVec 32 := 8#32
  let v61 : BitVec 32 := Scalar.muli v60 c8_i32
  v61
def k1_off2 (k1_t2 : Fin k1_t2_loop.trips) : Fin 2 → Nat :=
  let c0_i32_38 : BitVec 32 := 0#32
  let c0_i32_18 : BitVec 32 := 0#32
  let c1_i32_20 : BitVec 32 := 1#32
  let arg8 : BitVec 32 := Scf.iv c0_i32_18 c1_i32_20 k1_t2
  let c1_i32_37 : BitVec 32 := 1#32
  let v59 : BitVec 32 := Scalar.muli arg8 c1_i32_37
  let v60 : BitVec 32 := Scalar.addi c0_i32_38 v59
  let c8_i32 : BitVec 32 := 8#32
  let v61 : BitVec 32 := Scalar.muli v60 c8_i32
  let v62 : BitVec 32 := v61
  let v63 : Index := Scalar.indexCast v62
  let c0_39 : Index := 0#32
  ![v63.toNat, 0]
def k1_cond2 (i : grid1.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_36 : BitVec 32 := 0#32
  let v58 : BitVec 1 := Scalar.cmpi .ne v57 c0_i32_36
  v58

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1x256x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x256x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x256x256 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

class Facts₀ : Prop where
  inb_S8x1x256x256_S8x1x256x256_0_0_0_0 : ∀ a, (![0, 0, 0, 0] : Fin 4 → Nat) a + S8x1x256x256.size a ≤ S8x1x256x256.size a
  h_S8x1x256x256 : 0 < S8x1x256x256.numel
  slices_S8x1x256x256_o0_0_0_0_S1x1x256x256 : S8x1x256x256.Slices ![0, 0, 0, 0] S1x1x256x256
  shapeCasts_S1x1x256x256_S1x256x256 : S1x1x256x256.ShapeCasts S1x256x256
  slices_S8x1x256x256_o1_0_0_0_S1x1x256x256 : S8x1x256x256.Slices ![1, 0, 0, 0] S1x1x256x256
  slices_S8x1x256x256_o2_0_0_0_S1x1x256x256 : S8x1x256x256.Slices ![2, 0, 0, 0] S1x1x256x256
  slices_S8x1x256x256_o3_0_0_0_S1x1x256x256 : S8x1x256x256.Slices ![3, 0, 0, 0] S1x1x256x256
  slices_S8x1x256x256_o4_0_0_0_S1x1x256x256 : S8x1x256x256.Slices ![4, 0, 0, 0] S1x1x256x256
  slices_S8x1x256x256_o5_0_0_0_S1x1x256x256 : S8x1x256x256.Slices ![5, 0, 0, 0] S1x1x256x256
  slices_S8x1x256x256_o6_0_0_0_S1x1x256x256 : S8x1x256x256.Slices ![6, 0, 0, 0] S1x1x256x256
  slices_S8x1x256x256_o7_0_0_0_S1x1x256x256 : S8x1x256x256.Slices ![7, 0, 0, 0] S1x1x256x256
  shapeCasts_S1x256x256_S1x1x256x256 : S1x256x256.ShapeCasts S1x1x256x256
  concatenates_S1x1x256x256_S1x1x256x256_S1x1x256x256_S1x1x256x256_S1x1x256x256_S1x1x256x256_S1x1x256x256_S1x1x256x256_S8x1x256x256_d0 : Shape.Concatenates [S1x1x256x256, S1x1x256x256, S1x1x256x256, S1x1x256x256, S1x1x256x256, S1x1x256x256, S1x1x256x256, S1x1x256x256] S8x1x256x256 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  iota_S256x1_d0_w32 : S256x1.Iotas .tc 32 [0]
  iota_S1x256_d1_w32 : S1x256.Iotas .tc 32 [1]
  broadcasts_S256x1_S256x256 : S256x1.Broadcasts S256x256
  broadcasts_S1x256_S256x256 : S1x256.Broadcasts S256x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x1x256x256_S1x1x256x256_0_0_0_0 : ∀ a, (![0, 0, 0, 0] : Fin 4 → Nat) a + S1x1x256x256.size a ≤ S1x1x256x256.size a
  h_S1x1x256x256 : 0 < S1x1x256x256.numel
  shapeCasts_S1x1x256x256_S1x1x256x256 : S1x1x256x256.ShapeCasts S1x1x256x256
  shapeCasts_S1x1x256x256_S256x256 : S1x1x256x256.ShapeCasts S256x256
  transposes_S256x256_p1_0_S256x256 : S256x256.Transposes [1, 0] S256x256
  h_S8x256 : 0 < S8x256.numel
  shapeCasts_S8x256_S8x1x256 : S8x256.ShapeCasts S8x1x256
  shapeCasts_S256x256_S1x256x256 : S256x256.ShapeCasts S1x256x256
  broadcasts_S8x1x256_S8x256x256 : S8x1x256.Broadcasts S8x256x256
  broadcasts_S1x256x256_S8x256x256 : S1x256x256.Broadcasts S8x256x256
  reduces_S8x256x256_S8x256 : S8x256x256.Reduces [2] S8x256
  shapeCasts_S8x256_S8x256 : S8x256.ShapeCasts S8x256
  reduces_S256x256_S256 : S256x256.Reduces [1] S256
  shapeCasts_S256_S256x1 : S256.ShapeCasts S256x1
  reduces_S256x1_S1 : S256x1.Reduces [0] S1
  shapeCasts_S1_S1x1 : S1.ShapeCasts S1x1
  concatenates_S1x1_S1x1_S1x1_S1x1_S1x124_S1x128_d1 : Shape.Concatenates [S1x1, S1x1, S1x1, S1x1, S1x124] S1x128 1
  slices_S1x128_S1x1_0_0 : S1x128.Slices ![0, 0] S1x1
  shapeCasts_S1x1_S_ : S1x1.ShapeCasts S_
  slices_S1x128_S1x1_0_1 : S1x128.Slices ![0, 1] S1x1
  slices_S1x128_S1x1_0_2 : S1x128.Slices ![0, 2] S1x1
  slices_S1x128_S1x1_0_3 : S1x128.Slices ![0, 3] S1x1
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x1x256x256.size a ≤ S8x1x256x256.size a
  hwx0_0 : ∀ i : grid0.Coords, EltTy.bits .i32 = 32 ∨ (Rect.block (s := S8x1x256x256) S8x1x256x256.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1x256x256.size a ≤ S8x1x256x256.size a
  hwx0_1 : ∀ i : grid0.Coords, EltTy.bits .f32 = 32 ∨ (Rect.block (s := S8x1x256x256) S8x1x256x256.size (cc0_transform_1 i) (hinb0_1 i)).WholeWords (EltTy.packing .f32)
  hrank1 : 0 < grid1.rank
  k1_t1_ok : k1_t1_loop.OK
  k1_mult1_dvd : ∀ k1_t1 : Fin k1_t1_loop.trips, 8 ∣ (k1_mult1 k1_t1).toNat
  k1_off1_inb : ∀ k1_t1 : Fin k1_t1_loop.trips, ∀ a, (k1_off1 k1_t1) a + S8x256.size a ≤ S256x256.size a
  k1_t2_ok : k1_t2_loop.OK
  k1_mult2_dvd : ∀ k1_t2 : Fin k1_t2_loop.trips, 8 ∣ (k1_mult2 k1_t2).toNat
  k1_off2_inb : ∀ k1_t2 : Fin k1_t2_loop.trips, ∀ a, (k1_off2 k1_t2) a + S8x256.size a ≤ S256x256.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x256x256.size a ≤ S8x1x256x256.size a
  hwx1_0 : ∀ i : grid1.Coords, EltTy.bits .f32 = 32 ∨ (Rect.block (s := S8x1x256x256) S1x1x256x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x256x256.size a ≤ S8x1x256x256.size a
  hwx1_1 : ∀ i : grid1.Coords, EltTy.bits .f32 = 32 ∨ (Rect.block (s := S8x1x256x256) S1x1x256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x256x256.size a ≤ S8x1x256x256.size a
  hwx1_2 : ∀ i : grid1.Coords, EltTy.bits .i32 = 32 ∨ (Rect.block (s := S8x1x256x256) S1x1x256x256.size (cc1_transform_2 i) (hinb1_2 i)).WholeWords (EltTy.packing .i32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)

variable [Facts₀]

abbrev win0_0 : Pipeline.Window sig grid0 :=
  Pipeline.Window.ofSpec (Memref.whole main_arg1) S8x1x256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x1x256x256.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1x1x256x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1x256x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1x1x256x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x1x256x256 : Shape := ⟨4, ![8, 1, 256, 256]⟩
abbrev S_ : Shape := ⟨0, ![]⟩
abbrev S1x256x256x8 : Shape := ⟨4, ![1, 256, 256, 8]⟩
abbrev S8 : Shape := ⟨1, ![8]⟩
abbrev S8x1 : Shape := ⟨2, ![8, 1]⟩
abbrev S1x8 : Shape := ⟨2, ![1, 8]⟩
abbrev S8x8 : Shape := ⟨2, ![8, 8]⟩
abbrev S1x256x256x1x8 : Shape := ⟨5, ![1, 256, 256, 1, 8]⟩
abbrev S1x1x1x8x8 : Shape := ⟨5, ![1, 1, 1, 8, 8]⟩
abbrev S1x256x256x8x8 : Shape := ⟨5, ![1, 256, 256, 8, 8]⟩
abbrev S8x256x256x1 : Shape := ⟨4, ![8, 256, 256, 1]⟩
abbrev S1 : Shape := ⟨1, ![1]⟩
abbrev S1x1 : Shape := ⟨2, ![1, 1]⟩
abbrev S8x256x256x1x1 : Shape := ⟨5, ![8, 256, 256, 1, 1]⟩
abbrev S1x1x1x1x1 : Shape := ⟨5, ![1, 1, 1, 1, 1]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S8x1x256x1x256 : Shape := ⟨5, ![8, 1, 256, 1, 256]⟩
abbrev S1x1x1x256x256 : Shape := ⟨5, ![1, 1, 1, 256, 256]⟩
abbrev S8x1x256x256x256 : Shape := ⟨5, ![8, 1, 256, 256, 256]⟩

abbrev nBuf : Space → Nat
  | .hbm => 111
  | .vmem => 0
  | .smem => 0
  | _ => 0

abbrev bufTy : (tb : Table) → Fin (tcTables nBuf tb) → BufTy
  | .hbm, ⟨0, _⟩ => ⟨S8x1x256x256, .f32⟩
  | .hbm, ⟨1, _⟩ => ⟨S8x1x256x256, .i32⟩
  | .hbm, ⟨2, _⟩ => ⟨S8x1x256x256, .f32⟩
  | .hbm, ⟨3, _⟩ => ⟨S8x1x256x256, .f32⟩
  | .hbm, ⟨4, _⟩ => ⟨S_, .f32⟩
  | .hbm, ⟨5, _⟩ => ⟨S8x1x256x256, .f32⟩
  | .hbm, ⟨6, _⟩ => ⟨S8x1x256x256, .f32⟩
  | .hbm, ⟨7, _⟩ => ⟨S_, .f32⟩
  | .hbm, ⟨8, _⟩ => ⟨S8x1x256x256, .f32⟩
  | .hbm, ⟨9, _⟩ => ⟨S8x1x256x256, .f32⟩
  | .hbm, ⟨10, _⟩ => ⟨S8x1x256x256, .f32⟩
  | .hbm, ⟨11, _⟩ => ⟨S8x1x256x256, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i32⟩
  | .hbm, ⟨29, _⟩ => ⟨S8x1x256x256, .i32⟩
  | .hbm, ⟨30, _⟩ => ⟨S8x1x256x256, .i1⟩
  | .hbm, ⟨31, _⟩ => ⟨S_, .f32⟩
  | .hbm, ⟨32, _⟩ => ⟨S_, .f32⟩
  | .hbm, ⟨33, _⟩ => ⟨S8x1x256x256, .f32⟩
  | .hbm, ⟨34, _⟩ => ⟨S8x1x256x256, .f32⟩
  | .hbm, ⟨35, _⟩ => ⟨S8x1x256x256, .f32⟩
  | .hbm, ⟨36, _⟩ => ⟨S8x1x256x256, .f32⟩
  | .hbm, ⟨37, _⟩ => ⟨S1x256x256x8, .f32⟩
  | .hbm, ⟨38, _⟩ => ⟨S8, .i32⟩
  | .hbm, ⟨39, _⟩ => ⟨S8x1, .i32⟩
  | .hbm, ⟨40, _⟩ => ⟨S1x8, .i32⟩
  | .hbm, ⟨41, _⟩ => ⟨S8x8, .i32⟩
  | .hbm, ⟨42, _⟩ => ⟨S8x8, .i32⟩
  | .hbm, ⟨43, _⟩ => ⟨S8x8, .i32⟩
  | .hbm, ⟨44, _⟩ => ⟨S8x8, .i32⟩
  | .hbm, ⟨45, _⟩ => ⟨S8x8, .f32⟩
  | .hbm, ⟨46, _⟩ => ⟨S1x256x256x1x8, .f32⟩
  | .hbm, ⟨47, _⟩ => ⟨S1x1x1x8x8, .f32⟩
  | .hbm, ⟨48, _⟩ => ⟨S1x256x256x8x8, .f32⟩
  | .hbm, ⟨49, _⟩ => ⟨S1x256x256x8x8, .f32⟩
  | .hbm, ⟨50, _⟩ => ⟨S1x256x256x8x8, .f32⟩
  | .hbm, ⟨51, _⟩ => ⟨S_, .f32⟩
  | .hbm, ⟨52, _⟩ => ⟨S1x256x256x8, .f32⟩
  | .hbm, ⟨53, _⟩ => ⟨S8x1x256x256, .f32⟩
  | .hbm, ⟨54, _⟩ => ⟨S8x256x256x1, .f32⟩
  | .hbm, ⟨55, _⟩ => ⟨S1, .i32⟩
  | .hbm, ⟨56, _⟩ => ⟨S1x1, .i32⟩
  | .hbm, ⟨57, _⟩ => ⟨S1x1, .i32⟩
  | .hbm, ⟨58, _⟩ => ⟨S1x1, .i32⟩
  | .hbm, ⟨59, _⟩ => ⟨S1x1, .i32⟩
  | .hbm, ⟨60, _⟩ => ⟨S1x1, .f32⟩
  | .hbm, ⟨61, _⟩ => ⟨S8x256x256x1x1, .f32⟩
  | .hbm, ⟨62, _⟩ => ⟨S1x1x1x1x1, .f32⟩
  | .hbm, ⟨63, _⟩ => ⟨S8x256x256x1x1, .f32⟩
  | .hbm, ⟨64, _⟩ => ⟨S8x256x256x1x1, .f32⟩
  | .hbm, ⟨65, _⟩ => ⟨S_, .f32⟩
  | .hbm, ⟨66, _⟩ => ⟨S8x256x256x1, .f32⟩
  | .hbm, ⟨67, _⟩ => ⟨S8x1x256x256, .f32⟩
  | .hbm, ⟨68, _⟩ => ⟨S8x1x256x256, .f32⟩
  | .hbm, ⟨69, _⟩ => ⟨S256, .i32⟩
  | .hbm, ⟨70, _⟩ => ⟨S256x1, .i32⟩
  | .hbm, ⟨71, _⟩ => ⟨S1x256, .i32⟩
  | .hbm, ⟨72, _⟩ => ⟨S256x256, .i32⟩
  | .hbm, ⟨73, _⟩ => ⟨S256x256, .i32⟩
  | .hbm, ⟨74, _⟩ => ⟨S256x256, .i32⟩
  | .hbm, ⟨75, _⟩ => ⟨S256x256, .i32⟩
  | .hbm, ⟨76, _⟩ => ⟨S256x256, .f32⟩
  | .hbm, ⟨77, _⟩ => ⟨S8x1x256x1x256, .f32⟩
  | .hbm, ⟨78, _⟩ => ⟨S1x1x1x256x256, .f32⟩
  | .hbm, ⟨79, _⟩ => ⟨S8x1x256x256x256, .f32⟩
  | .hbm, ⟨80, _⟩ => ⟨S8x1x256x256x256, .f32⟩
  | .hbm, ⟨81, _⟩ => ⟨S8x1x256x256x256, .f32⟩
  | .hbm, ⟨82, _⟩ => ⟨S_, .f32⟩
  | .hbm, ⟨83, _⟩ => ⟨S8x1x256x256, .f32⟩
  | .hbm, ⟨84, _⟩ => ⟨S8x1x256x256, .f32⟩
  | .hbm, ⟨85, _⟩ => ⟨S256, .i32⟩
  | .hbm, ⟨86, _⟩ => ⟨S256x1, .i32⟩
  | .hbm, ⟨87, _⟩ => ⟨S1x256, .i32⟩
  | .hbm, ⟨88, _⟩ => ⟨S256x256, .i32⟩
  | .hbm, ⟨89, _⟩ => ⟨S256x256, .i32⟩
  | .hbm, ⟨90, _⟩ => ⟨S256x256, .i32⟩
  | .hbm, ⟨91, _⟩ => ⟨S256x256, .i32⟩
  | .hbm, ⟨92, _⟩ => ⟨S256x256, .f32⟩
  | .hbm, ⟨93, _⟩ => ⟨S8x1x256x1x256, .f32⟩
  | .hbm, ⟨94, _⟩ => ⟨S1x1x1x256x256, .f32⟩
  | .hbm, ⟨95, _⟩ => ⟨S8x1x256x256x256, .f32⟩
  | .hbm, ⟨96, _⟩ => ⟨S8x1x256x256x256, .f32⟩
  | .hbm, ⟨97, _⟩ => ⟨S8x1x256x256x256, .f32⟩
  | .hbm, ⟨98, _⟩ => ⟨S_, .f32⟩
  | .hbm, ⟨99, _⟩ => ⟨S8x1x256x256, .f32⟩
  | .hbm, ⟨100, _⟩ => ⟨S8x1x256x256, .f32⟩
  | .hbm, ⟨101, _⟩ => ⟨S8x1x256x256, .f32⟩
  | .hbm, ⟨102, _⟩ => ⟨S_, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S8x1x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_cst_7 : Ref sig .tc := ⟨.hbm, 26, rfl⟩
abbrev main_v16 : Ref sig .tc := ⟨.hbm, 27, rfl⟩
abbrev main_c : Ref sig .tc := ⟨.hbm, 28, rfl⟩
abbrev main_v17 : Ref sig .tc := ⟨.hbm, 29, rfl⟩
abbrev main_v18 : Ref sig .tc := ⟨.hbm, 30, rfl⟩
abbrev main_cst_8 : Ref sig .tc := ⟨.hbm, 31, rfl⟩
abbrev main_cst_9 : Ref sig .tc := ⟨.hbm, 32, rfl⟩
abbrev main_call0_v0 : Ref sig .tc := ⟨.hbm, 33, rfl⟩
abbrev main_call0_v1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_10 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_12 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_13 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_14 : Ref sig .tc := ⟨.hbm, 102, rfl⟩
abbrev main_v82 : Ref sig .tc := ⟨.hbm, 103, rfl⟩
abbrev main_cst_15 : Ref sig .tc := ⟨.hbm, 104, rfl⟩
abbrev main_v83 : Ref sig .tc := ⟨.hbm, 105, rfl⟩
abbrev main_cst_16 : Ref sig .tc := ⟨.hbm, 106, rfl⟩
abbrev main_v84 : Ref sig .tc := ⟨.hbm, 107, rfl⟩
abbrev main_cst_17 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]

class Facts₀ : Prop where
  bcast_S_S8x1x256x256 : S_.BroadcastsInDim S8x1x256x256 (![] : Fin 0 → Fin S8x1x256x256.rank)
  reducesTo_S8x1x256x256_S_d0_1_2_3 : S8x1x256x256.ReducesTo [0, 1, 2, 3] S_
  h_S_ : 0 < S_.numel
  transposes_S8x1x256x256_S1x256x256x8_1_2_3_0 : S8x1x256x256.Transposes [1, 2, 3, 0] S1x256x256x8
  bcast_S8_S8x1_0 : S8.BroadcastsInDim S8x1 (![0] : Fin 1 → Fin S8x1.rank)
  bcast_S8_S1x8_1 : S8.BroadcastsInDim S1x8 (![1] : Fin 1 → Fin S1x8.rank)
  bcast_S8x1_S8x8_0_1 : S8x1.BroadcastsInDim S8x8 (![0, 1] : Fin 2 → Fin S8x8.rank)
  bcast_S1x8_S8x8_0_1 : S1x8.BroadcastsInDim S8x8 (![0, 1] : Fin 2 → Fin S8x8.rank)
  bcast_S1x256x256x8_S1x256x256x1x8_0_1_2_4 : S1x256x256x8.BroadcastsInDim S1x256x256x1x8 (![0, 1, 2, 4] : Fin 4 → Fin S1x256x256x1x8.rank)
  bcast_S8x8_S1x1x1x8x8_3_4 : S8x8.BroadcastsInDim S1x1x1x8x8 (![3, 4] : Fin 2 → Fin S1x1x1x8x8.rank)
  bcast_S1x256x256x1x8_S1x256x256x8x8_0_1_2_3_4 : S1x256x256x1x8.BroadcastsInDim S1x256x256x8x8 (![0, 1, 2, 3, 4] : Fin 5 → Fin S1x256x256x8x8.rank)
  bcast_S1x1x1x8x8_S1x256x256x8x8_0_1_2_3_4 : S1x1x1x8x8.BroadcastsInDim S1x256x256x8x8 (![0, 1, 2, 3, 4] : Fin 5 → Fin S1x256x256x8x8.rank)
  reducesTo_S1x256x256x8x8_S1x256x256x8_d4 : S1x256x256x8x8.ReducesTo [4] S1x256x256x8
  transposes_S1x256x256x8_S8x1x256x256_3_0_1_2 : S1x256x256x8.Transposes [3, 0, 1, 2] S8x1x256x256
  transposes_S8x1x256x256_S8x256x256x1_0_2_3_1 : S8x1x256x256.Transposes [0, 2, 3, 1] S8x256x256x1
  bcast_S1_S1x1_0 : S1.BroadcastsInDim S1x1 (![0] : Fin 1 → Fin S1x1.rank)
  bcast_S1_S1x1_1 : S1.BroadcastsInDim S1x1 (![1] : Fin 1 → Fin S1x1.rank)
  bcast_S8x256x256x1_S8x256x256x1x1_0_1_2_4 : S8x256x256x1.BroadcastsInDim S8x256x256x1x1 (![0, 1, 2, 4] : Fin 4 → Fin S8x256x256x1x1.rank)
  bcast_S1x1_S1x1x1x1x1_3_4 : S1x1.BroadcastsInDim S1x1x1x1x1 (![3, 4] : Fin 2 → Fin S1x1x1x1x1.rank)
  bcast_S1x1x1x1x1_S8x256x256x1x1_0_1_2_3_4 : S1x1x1x1x1.BroadcastsInDim S8x256x256x1x1 (![0, 1, 2, 3, 4] : Fin 5 → Fin S8x256x256x1x1.rank)
  reducesTo_S8x256x256x1x1_S8x256x256x1_d4 : S8x256x256x1x1.ReducesTo [4] S8x256x256x1
  transposes_S8x256x256x1_S8x1x256x256_0_3_1_2 : S8x256x256x1.Transposes [0, 3, 1, 2] S8x1x256x256
  transposes_S8x1x256x256_S8x1x256x256_0_1_3_2 : S8x1x256x256.Transposes [0, 1, 3, 2] S8x1x256x256
  bcast_S256_S256x1_0 : S256.BroadcastsInDim S256x1 (![0] : Fin 1 → Fin S256x1.rank)
  bcast_S256_S1x256_1 : S256.BroadcastsInDim S1x256 (![1] : Fin 1 → Fin S1x256.rank)
  bcast_S256x1_S256x256_0_1 : S256x1.BroadcastsInDim S256x256 (![0, 1] : Fin 2 → Fin S256x256.rank)
  bcast_S1x256_S256x256_0_1 : S1x256.BroadcastsInDim S256x256 (![0, 1] : Fin 2 → Fin S256x256.rank)
  bcast_S8x1x256x256_S8x1x256x1x256_0_1_2_4 : S8x1x256x256.BroadcastsInDim S8x1x256x1x256 (![0, 1, 2, 4] : Fin 4 → Fin S8x1x256x1x256.rank)
  bcast_S256x256_S1x1x1x256x256_3_4 : S256x256.BroadcastsInDim S1x1x1x256x256 (![3, 4] : Fin 2 → Fin S1x1x1x256x256.rank)
  bcast_S8x1x256x1x256_S8x1x256x256x256_0_1_2_3_4 : S8x1x256x1x256.BroadcastsInDim S8x1x256x256x256 (![0, 1, 2, 3, 4] : Fin 5 → Fin S8x1x256x256x256.rank)
  bcast_S1x1x1x256x256_S8x1x256x256x256_0_1_2_3_4 : S1x1x1x256x256.BroadcastsInDim S8x1x256x256x256 (![0, 1, 2, 3, 4] : Fin 5 → Fin S8x1x256x256x256.rank)
  reducesTo_S8x1x256x256x256_S8x1x256x256_d4 : S8x1x256x256x256.ReducesTo [4] S8x1x256x256

variable [Facts₀]

class Facts : Prop extends Facts₀ where

variable [Facts]
-- ==== Proof.MixBits.lean ====
/-
  The first TensorCore region of the program: the batch-axis pass.  Its grid is one point, its input window is
  the whole label array and its output window the whole cost array, so the body's single load reads the array,
  and its single store covers the output's staging buffer.  At the buffer contents `V` found when the region is
  entered: the windows' blocks, what the body leaves in the output's staging buffer, the body's triple, the
  region's proof data and its body obligation.
-/
import proofs.«112355_j59322088292653_1_alg».proof.Proof.Gen.Kernel.Launch
import proofs.«112355_j59322088292653_1_alg».proof.Proof.Gen.Kernel.Skeleton
import proofs.«112355_j59322088292653_1_alg».proof.Proof.Gen.Kernel.Points
import Idealize.ShloMosaic.Lib.Pipeline.FrameBody
import Idealize.ShloMosaic.Lib.Exec
import Idealize.ShloMosaic.Lib.Tactic

set_option maxRecDepth 16384

noncomputable section

namespace Cert.Kernel.Mix

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's one access rectangle: the whole block -/

abbrev rAll : Rect S8x1x256x256 := Rect.unit (s := S8x1x256x256) ![0, 0, 0, 0] S8x1x256x256.size inb_S8x1x256x256_S8x1x256x256_0_0_0_0

/-! ## What the body computes from the loaded labels -/

/-- The eight cost slices `f j`, `j = 0 … 7`, of the loaded label block. -/
abbrev sl0 (v0 : Vec F S8x1x256x256 .i32) := k0_pay3 v0
abbrev sl1 (v0 : Vec F S8x1x256x256 .i32) := k0_pay4 v0
abbrev sl2 (v0 : Vec F S8x1x256x256 .i32) := k0_pay5 v0
abbrev sl3 (v0 : Vec F S8x1x256x256 .i32) := k0_pay6 v0
abbrev sl4 (v0 : Vec F S8x1x256x256 .i32) := k0_pay7 v0
abbrev sl5 (v0 : Vec F S8x1x256x256 .i32) := k0_pay8 v0
abbrev sl6 (v0 : Vec F S8x1x256x256 .i32) := k0_pay9 v0
abbrev sl7 (v0 : Vec F S8x1x256x256 .i32) := k0_pay10 v0

/-- The stored value, as a function of the loaded label block: the body's payloads composed along its parts. -/
def stored (v0 : Vec F S8x1x256x256 .i32) : FVec F S8x1x256x256 .f32 :=
  k0_pay1 (sl0 v0) (sl1 v0) (sl2 v0) (sl3 v0) (sl4 v0) (sl5 v0) (sl6 v0) (sl7 v0)
    (k0_pay13 (k0_pay11 v0) (k0_pay12 v0))
    (k0_pay14 (sl0 v0) (sl1 v0) (sl2 v0) (sl3 v0) (sl4 v0) (sl5 v0) (sl6 v0) (sl7 v0))
    (k0_pay17 (sl7 v0) (k0_pay15 (sl0 v0) (sl1 v0) (sl2 v0) (sl3 v0) (sl4 v0) (sl5 v0)) (k0_pay16 (sl6 v0)))
    (k0_pay18 (sl0 v0) (sl1 v0) (sl2 v0) (sl3 v0) (sl4 v0) (sl5 v0) (sl6 v0) (sl7 v0))
    (k0_pay21 (sl6 v0) (sl7 v0) (k0_pay19 (sl0 v0) (sl1 v0) (sl2 v0) (sl3 v0) (sl4 v0)) (k0_pay20 (sl5 v0)))
    (k0_pay22 (sl0 v0) (sl1 v0) (sl2 v0) (sl3 v0) (sl4 v0) (sl5 v0) (sl6 v0) (sl7 v0))
    (k0_pay23 (sl0 v0) (sl1 v0) (sl2 v0) (sl3 v0))
    (k0_pay24 (sl4 v0))

/-! ## What the body leaves in the output window's buffer -/

/-- The output's staging buffer after the body, from the input block: its one store as a piece. -/
def out (x0 : Vec F S8x1x256x256 .i32) : Vec F S8x1x256x256 .f32 :=
  View.canon [⟨rAll, stored (View.ld x0 rAll)⟩]

/-- The one store covers the buffer. -/
theorem cover (p0 : Vec F S8x1x256x256 .f32) (y : S8x1x256x256.Idx) :
    ∃ pc ∈ ([⟨rAll, p0⟩] : List (View.Piece (Elt F) S8x1x256x256 .f32)), y ∈ pc.1.set :=
  View.cover_of_tiled [⟨rAll, p0⟩] S8x1x256x256.size (by rfl) y

/-! ## The body's triple -/

set_option maxHeartbeats 4000000 in
/-- The kernel body on whole staging memrefs, the input's at contents `x0` and the output's at anything, runs to
    the continuation holding the input's as it was and the output's at `out x0`. -/
theorem sound_kernel (c : Dev nD) (E : Set ℕ) (i : grid0.Coords) (arg1 : Memref sig .tc .vmem S8x1x256x256 .i32) (harg1 : arg1.IsWhole)
    (arg2 : Memref sig .tc .vmem S8x1x256x256 .f32) (harg2 : arg2.IsWhole)
    (x0 : Vec F S8x1x256x256 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__mix_batch_kernel i arg1 harg1 arg2 harg2) K := by
  simp only [cc0__mix_batch_kernel_eq_skeleton]; unfold cc0__mix_batch_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-! ## The region's proof data -/

/-- The proof data of the region on core `c`: the arrays as the region finds them; after the body the input's
    buffer at its block and the output's at `out` of the input block; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out (iblk V c 0 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = out (iblk V c 0 t) := by dsimp only [dat]

theorem before_0 (c : Dev nD) (t : Fin cfg0.N) (d) : (dat V c).before 0 t d = iblk V c 0 t :=
  before_in_of V (dat V c) (dat_A V c 0) (after_0 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Mix

end
-- ==== Proof.DistDefsBits.lean ====
/-
  The second kernel's arithmetic, named once: what one grid point computes from its three input planes and
  the accumulator it finds.

  A point holds one batch element: the cost plane `p` (already mixed along the batch axis), the score plane
  and the label plane.  The gap matrix `g[i, j] = (i - j)^2` is written to a scratch first.  The height pass fills the
  row scratch eight rows at a time — band `k` holds `min over h' of (g[8k + r, h'] + p[h', w])` — and the width pass
  does the same to the result of the height pass; the accumulator then gains the point's four partial sums.
  Each pass is stated here as the function its thirty-two band stores leave behind, independent of what the
  scratch held before.
-/
import proofs.«112355_j59322088292653_1_alg».proof.Proof.Gen.Kernel.Skeleton
import Idealize.ShloMosaic.Lib.Pipeline.FrameBody

noncomputable section

namespace Cert.Kernel.Dist

open Idealize.ShloMosaic Idealize.ShloMosaic.TcCoe
open Cert.Kernel Cert.Kernel.Gen

variable {F : FTy → Type} [FloatOps F]

/-- The rows the height pass's trip `k` loads from the gap matrix and stores into the row scratch. -/
abbrev band1 (k : Fin k1_t1_loop.trips) : Rect S256x256 :=
  Rect.unit (s := S256x256) (k1_off1 k) S8x256.size (k1_off1_inb k)

/-- The same for the width pass's trip `k`. -/
abbrev band2 (k : Fin k1_t2_loop.trips) : Rect S256x256 :=
  Rect.unit (s := S256x256) (k1_off2 k) S8x256.size (k1_off2_inb k)

/-- The band stores of the height pass's trips before `k` (latest first), over the gap matrix `g` and the cost block `p`. -/
def bands1 (g : Vec F S256x256 .f32) (p : Vec F S1x1x256x256 .f32) : ℕ → List (View.Piece (Elt F) S256x256 .f32)
  | 0 => []
  | k + 1 =>
    if h : k < k1_t1_loop.trips then
      (⟨band1 ⟨k, h⟩, k1_pay6 p (View.ld g (band1 ⟨k, h⟩))⟩ : View.Piece (Elt F) S256x256 .f32) :: bands1 g p k
    else bands1 g p k

/-- The band stores of the width pass's trips before `k` (latest first), over the gap matrix `g` and the height pass's result `q`. -/
def bands2 (g : Vec F S256x256 .f32) (q : Vec F S256x256 .f32) : ℕ → List (View.Piece (Elt F) S256x256 .f32)
  | 0 => []
  | k + 1 =>
    if h : k < k1_t2_loop.trips then
      (⟨band2 ⟨k, h⟩, k1_pay7 q (View.ld g (band2 ⟨k, h⟩))⟩ : View.Piece (Elt F) S256x256 .f32) :: bands2 g q k
    else bands2 g q k

/-- The gap matrix the body writes to its scratch. -/
abbrev gapM : Vec F S256x256 .f32 := k1_pay3 (F := F)

/-- What the row scratch holds after the height pass over the cost block `p`. -/
def pass1 (p : Vec F S1x1x256x256 .f32) : Vec F S256x256 .f32 :=
  View.canon (bands1 (gapM (F := F)) p k1_t1_loop.trips)

/-- What the row scratch holds after the width pass. -/
def pass2 (p : Vec F S1x1x256x256 .f32) : Vec F S256x256 .f32 :=
  View.canon (bands2 (gapM (F := F)) (pass1 p) k1_t2_loop.trips)

/-- The accumulator after a point, from the accumulator `a` it found and the point's cost, score and label blocks. -/
def accStep (p x : Vec F S1x1x256x256 .f32) (y : Vec F S1x1x256x256 .i32) (a : Vec F S1x128 .f32) : Vec F S1x128 .f32 :=
  k1_pay1 (k1_pay4 x) (k1_pay5 y) (pass2 p) a

/-- The accumulator the first point starts from. -/
abbrev accZero : Vec F S1x128 .f32 := k1_pay2 (F := F)

/-- The accumulator after point `n`, over the points' cost, score and label blocks: the first point starts from zero,
    each later one from what the point before left. -/
def accSeq (P X : ℕ → Vec F S1x1x256x256 .f32) (Y : ℕ → Vec F S1x1x256x256 .i32) : ℕ → Vec F S1x128 .f32
  | 0 => accStep (P 0) (X 0) (Y 0) (accZero (F := F))
  | n + 1 => accStep (P (n + 1)) (X (n + 1)) (Y (n + 1)) (accSeq P X Y n)

end Cert.Kernel.Dist

end
-- ==== Proof.DistBaseBits.lean ====
/-
  The second kernel's two branches, decided over its grid of eight points: the accumulator is reset at the
  first point only, and the result block is stored at the last point only.
-/
import proofs.«112355_j59322088292653_1_alg».proof.Proof.Gen.Kernel.Launch
import proofs.«112355_j59322088292653_1_alg».proof.Proof.Gen.Kernel.Skeleton
import proofs.«112355_j59322088292653_1_alg».proof.Proof.Gen.Kernel.Points
import proofs.«112355_j59322088292653_1_alg».proof.Proof.Gen.Kernel.Loops
import proofs.«112355_j59322088292653_1_alg».proof.Proof.DistDefsBits
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The body's first branch is taken: the point is the first of the grid. -/
abbrev isFirst (i : grid1.Coords) : Prop :=
  (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- The body's second branch is taken: the point is the last of the grid. -/
abbrev isLast (i : grid1.Coords) : Prop := k1_cond2 i = 1#1
theorem isLast_iff : ∀ t : Fin cfg1.N, isLast (grid1.coords t) ↔ t.val = 7 :=
  (by decide +kernel : ∀ t : Fin grid1.N, isLast (grid1.coords t) ↔ t.val = 7)

end Cert.Kernel.Dist

end
-- ==== Proof.DistRunFirstBits.lean ====
/-
  The second kernel's body at the first point: the accumulator is reset to zero before the point's sums are added;
  nothing is stored into the result block.
-/
import proofs.«112355_j59322088292653_1_alg».proof.Proof.DistBaseBits

set_option maxRecDepth 16384

noncomputable section

namespace Cert.Kernel.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body leaves in the accumulator, the gap-matrix scratch and the row scratch (latest first), with
    the run that finds them: from the three input blocks, and the accumulator and both scratches at given contents. -/
noncomputable def runFirst (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : isFirst i) (hc1 : ¬isLast i)
    (x1 x2 : Vec F S1x1x256x256 .f32) (x3 : Vec F S1x1x256x256 .i32) (d5 : Vec F S1x128 .f32) (d6 d7 : Vec F S256x256 .f32) :
    Σ' (L5 : List (View.Piece (Elt F) S1x128 .f32)) (L6 : List (View.Piece (Elt F) S256x256 .f32)), { L7 : List (View.Piece (Elt F) S256x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg5 fullShare d5 ∗ owns (c : Thread nD τ) arg6 fullShare d6 ∗ owns (c : Thread nD τ) arg7 fullShare d7
            ∗ (iprop(owns (c : Thread nD τ) arg1 fullShare x1 ∗ owns (c : Thread nD τ) arg2 fullShare x2 ∗ owns (c : Thread nD τ) arg3 fullShare x3
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc1__dist_reduce_kernel i arg1 harg1 arg2 harg2 arg3 harg3 arg4 harg4 arg5 harg5 arg6 harg6 arg7 harg7) K } := by
  refine ⟨?_, ?_, ?_, fun E K => ?run⟩
  case run =>
    simp only [cc1__dist_reduce_kernel_eq_skeleton]; unfold cc1__dist_reduce_kernel_skel
    unfold owns
    iintro ⟨⟨%f1, %hf1, H1⟩, ⟨%f2, %hf2, H2⟩, ⟨%f3, %hf3, H3⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H5]; · iexists _; iexact H5
    isplitl [H6]; · iexists _; iexact H6
    iexists _; iexact H7

end Cert.Kernel.Dist

end
-- ==== Proof.DistRunMidBits.lean ====
/-
  The second kernel's body at a point that is neither the first nor the last: the accumulator it finds is kept and
  added to, nothing is stored into the result block.
-/
import proofs.«112355_j59322088292653_1_alg».proof.Proof.DistBaseBits

set_option maxRecDepth 16384

noncomputable section

namespace Cert.Kernel.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body leaves in the accumulator, the gap-matrix scratch and the row scratch (latest first), with
    the run that finds them: from the three input blocks, the accumulator and both scratches at given contents. -/
noncomputable def runMid (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : ¬isLast i)
    (x1 x2 : Vec F S1x1x256x256 .f32) (x3 : Vec F S1x1x256x256 .i32) (a0 : Vec F S1x128 .f32) (d6 d7 : Vec F S256x256 .f32) :
    Σ' (L5 : List (View.Piece (Elt F) S1x128 .f32)) (L6 : List (View.Piece (Elt F) S256x256 .f32)), { L7 : List (View.Piece (Elt F) S256x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg5 fullShare a0 ∗ owns (c : Thread nD τ) arg6 fullShare d6 ∗ owns (c : Thread nD τ) arg7 fullShare d7
            ∗ (iprop(owns (c : Thread nD τ) arg1 fullShare x1 ∗ owns (c : Thread nD τ) arg2 fullShare x2 ∗ owns (c : Thread nD τ) arg3 fullShare x3
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc1__dist_reduce_kernel i arg1 harg1 arg2 harg2 arg3 harg3 arg4 harg4 arg5 harg5 arg6 harg6 arg7 harg7) K } := by
  refine ⟨?_, ?_, ?_, fun E K => ?run⟩
  case run =>
    simp only [cc1__dist_reduce_kernel_eq_skeleton]; unfold cc1__dist_reduce_kernel_skel
    unfold owns
    iintro ⟨⟨%f1, %hf1, H1⟩, ⟨%f2, %hf2, H2⟩, ⟨%f3, %hf3, H3⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H5]; · iexists _; iexact H5
    isplitl [H6]; · iexists _; iexact H6
    iexists _; iexact H7

end Cert.Kernel.Dist

end
-- ==== Proof.DistRunLastBits.lean ====
/-
  The second kernel's body at the last point: the accumulator it finds is added to, and the result block receives a
  copy of the accumulator.
-/
import proofs.«112355_j59322088292653_1_alg».proof.Proof.DistBaseBits

set_option maxRecDepth 16384

noncomputable section

namespace Cert.Kernel.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The stores the body leaves in the result block, the accumulator, the gap-matrix scratch and the row scratch
    (latest first), with the run that finds them: from the three input blocks, and the result block, the accumulator
    and both scratches at given contents. -/
noncomputable def runLast (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : isLast i)
    (x1 x2 : Vec F S1x1x256x256 .f32) (x3 : Vec F S1x1x256x256 .i32) (d4 a0 : Vec F S1x128 .f32) (d6 d7 : Vec F S256x256 .f32) :
    Σ' (L4 L5 : List (View.Piece (Elt F) S1x128 .f32)) (L6 : List (View.Piece (Elt F) S256x256 .f32)), { L7 : List (View.Piece (Elt F) S256x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare d4
            ∗ owns (c : Thread nD τ) arg5 fullShare a0 ∗ owns (c : Thread nD τ) arg6 fullShare d6 ∗ owns (c : Thread nD τ) arg7 fullShare d7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc1__dist_reduce_kernel i arg1 harg1 arg2 harg2 arg3 harg3 arg4 harg4 arg5 harg5 arg6 harg6 arg7 harg7) K } := by
  refine ⟨?_, ?_, ?_, ?_, fun E K => ?run⟩
  case run =>
    simp only [cc1__dist_reduce_kernel_eq_skeleton]; unfold cc1__dist_reduce_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.Kernel.Dist

end
-- ==== Proof.DistBandsBits.lean ====
/-
  The second kernel's two row-band loops, trip by trip: each trip stores one band of eight rows, the stores of the trips
  so far are the specification's band lists, the thirty-two bands cover the row scratch, and so what the scratch
  reads after a pass does not depend on what it held before.
-/
import proofs.«112355_j59322088292653_1_alg».proof.Proof.Gen.Kernel.Loops
import proofs.«112355_j59322088292653_1_alg».proof.Proof.DistDefsBits

set_option maxRecDepth 8192

noncomputable section

namespace Cert.Kernel.Dist

open Idealize.ShloMosaic Idealize.ShloMosaic.TcCoe
open Cert.Kernel Cert.Kernel.Gen

variable {F : FTy → Type} [FloatOps F]

/-! ## The height pass -/

/-- The height pass runs all thirty-two trips. -/
theorem trips1 : k1_t1_loop.trips = 32 := by decide +kernel

/-- Trip `k` of the height pass stores one band: the rows `8k … 8k+7`, computed from the same rows of the gap matrix
    and the cost block. -/
theorem trip1_piece (𝒱 : Variants) (c : Dev nD) (bd : Option 𝒱.V) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (v13 : Vec F S1x1x256x256 .f32) (X6 : BufTy.Contents (Elt F) arg6.view.ty) (k : Fin k1_t1_loop.trips) :
    tripL_k1_t1 (F := F) 𝒱 c bd i arg1 harg1 arg2 harg2 arg3 harg3 arg4 harg4 arg5 harg5 arg6 harg6 arg7 harg7 v13 X6 k
      = [⟨band1 k, k1_pay6 v13 (View.ld (arg6.view.read (Elt F) X6) (band1 k))⟩] := by
  unfold tripL_k1_t1; unfold trip_k1_t1; dsimp only
  rfl

/-- The stores of the trips before `n` are the bands before `n`, over the gap scratch's contents. -/
theorem pb1_eq (𝒱 : Variants) (c : Dev nD) (bd : Option 𝒱.V) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (v13 : Vec F S1x1x256x256 .f32) (X6 : BufTy.Contents (Elt F) arg6.view.ty) (n : ℕ) :
    pb_k1_t1 (F := F) 𝒱 c bd i arg1 harg1 arg2 harg2 arg3 harg3 arg4 harg4 arg5 harg5 arg6 harg6 arg7 harg7 v13 X6 n = bands1 (arg6.view.read (Elt F) X6) v13 n := by
  induction n with
  | zero => rw [pb_k1_t1.eq_1, bands1.eq_1]
  | succ n ih =>
    rw [pb_k1_t1.eq_2, bands1.eq_2]; unfold pb_k1_t1Step
    by_cases h : n < k1_t1_loop.trips
    · rw [dif_pos h, dif_pos h, trip1_piece, ih]; rfl
    · rw [dif_neg h, dif_neg h, ih]

/-- Band `k` is among the bands before `n` once `k < n`. -/
theorem band1_mem (g : Vec F S256x256 .f32) (p : Vec F S1x1x256x256 .f32) (k : Fin k1_t1_loop.trips) :
    ∀ n : ℕ, k.val < n →
      (⟨band1 k, k1_pay6 p (View.ld g (band1 k))⟩ : View.Piece (Elt F) S256x256 .f32) ∈ bands1 g p n
  | 0, h => absurd h (Nat.not_lt_zero _)
  | n + 1, h => by
    rw [bands1.eq_2]
    by_cases hn : n < k1_t1_loop.trips
    · rw [dif_pos hn]
      rcases Nat.lt_succ_iff_lt_or_eq.mp h with hlt | heq
      · exact List.mem_cons_of_mem _ (band1_mem g p k n hlt)
      · have hk : k = ⟨n, hn⟩ := Fin.ext heq
        rw [hk]; exact List.mem_cons_self
    · rw [dif_neg hn]
      exact band1_mem g p k n (Nat.lt_of_lt_of_le k.isLt (Nat.le_of_not_lt hn))

/-- Every row lies in one of the thirty-two bands: row `r` in band `r / 8`. -/
theorem bands1_cover (g : Vec F S256x256 .f32) (p : Vec F S1x1x256x256 .f32) (y : S256x256.Idx) :
    ∃ pc ∈ bands1 g p k1_t1_loop.trips, y ∈ pc.1.set := by
  have hy0 : (y 0).val < 256 := (y 0).isLt
  have hy1 : (y 1).val < 256 := (y 1).isLt
  have hk : (y 0).val / 8 < k1_t1_loop.trips := by rw [trips1]; omega
  refine ⟨_, band1_mem g p ⟨(y 0).val / 8, hk⟩ k1_t1_loop.trips hk, ?_⟩
  show y ∈ (band1 ⟨(y 0).val / 8, hk⟩).set
  rw [Rect.mem_set_unit, k1_off1_eq]
  intro a
  match a with
  | ⟨0, _⟩ => exact ⟨by show 8 * ((y 0).val / 8) ≤ (y 0).val; omega, by show (y 0).val < 8 * ((y 0).val / 8) + 8; omega⟩
  | ⟨1, _⟩ => exact ⟨Nat.zero_le _, by show (y 1).val < 0 + 256; omega⟩

/-- So whatever the row scratch held before, after the height pass it reads as the bands' canonical contents. -/
theorem read_bands1 (v : View sig .tc .vmem S256x256 .f32) (f : v.ty.Contents (Elt F)) (g : Vec F S256x256 .f32)
    (p : Vec F S1x1x256x256 .f32) :
    v.read (Elt F) (v.writes (Elt F) f (bands1 g p k1_t1_loop.trips)) = View.canon (bands1 g p k1_t1_loop.trips) :=
  View.read_writes_eq_canon v f _ (bands1_cover g p)

/-! ## The width pass -/

/-- The width pass runs all thirty-two trips. -/
theorem trips2 : k1_t2_loop.trips = 32 := by decide +kernel

/-- Trip `k` of the width pass stores one band: the rows `8k … 8k+7`, computed from the same rows of the gap matrix
    and the height pass's result. -/
theorem trip2_piece (𝒱 : Variants) (c : Dev nD) (bd : Option 𝒱.V) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (v22 : Vec F S256x256 .f32) (X6 : BufTy.Contents (Elt F) arg6.view.ty) (k : Fin k1_t2_loop.trips) :
    tripL_k1_t2 (F := F) 𝒱 c bd i arg1 harg1 arg2 harg2 arg3 harg3 arg4 harg4 arg5 harg5 arg6 harg6 arg7 harg7 v22 X6 k
      = [⟨band2 k, k1_pay7 v22 (View.ld (arg6.view.read (Elt F) X6) (band2 k))⟩] := by
  unfold tripL_k1_t2; unfold trip_k1_t2; dsimp only
  rfl

/-- The stores of the trips before `n` are the bands before `n`, over the gap scratch's contents. -/
theorem pb2_eq (𝒱 : Variants) (c : Dev nD) (bd : Option 𝒱.V) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (v22 : Vec F S256x256 .f32) (X6 : BufTy.Contents (Elt F) arg6.view.ty) (n : ℕ) :
    pb_k1_t2 (F := F) 𝒱 c bd i arg1 harg1 arg2 harg2 arg3 harg3 arg4 harg4 arg5 harg5 arg6 harg6 arg7 harg7 v22 X6 n = bands2 (arg6.view.read (Elt F) X6) v22 n := by
  induction n with
  | zero => rw [pb_k1_t2.eq_1, bands2.eq_1]
  | succ n ih =>
    rw [pb_k1_t2.eq_2, bands2.eq_2]; unfold pb_k1_t2Step
    by_cases h : n < k1_t2_loop.trips
    · rw [dif_pos h, dif_pos h, trip2_piece, ih]; rfl
    · rw [dif_neg h, dif_neg h, ih]

/-- Band `k` is among the bands before `n` once `k < n`. -/
theorem band2_mem (g : Vec F S256x256 .f32) (p : Vec F S256x256 .f32) (k : Fin k1_t2_loop.trips) :
    ∀ n : ℕ, k.val < n →
      (⟨band2 k, k1_pay7 p (View.ld g (band2 k))⟩ : View.Piece (Elt F) S256x256 .f32) ∈ bands2 g p n
  | 0, h => absurd h (Nat.not_lt_zero _)
  | n + 1, h => by
    rw [bands2.eq_2]
    by_cases hn : n < k1_t2_loop.trips
    · rw [dif_pos hn]
      rcases Nat.lt_succ_iff_lt_or_eq.mp h with hlt | heq
      · exact List.mem_cons_of_mem _ (band2_mem g p k n hlt)
      · have hk : k = ⟨n, hn⟩ := Fin.ext heq
        rw [hk]; exact List.mem_cons_self
    · rw [dif_neg hn]
      exact band2_mem g p k n (Nat.lt_of_lt_of_le k.isLt (Nat.le_of_not_lt hn))

/-- Every row lies in one of the thirty-two bands: row `r` in band `r / 8`. -/
theorem bands2_cover (g : Vec F S256x256 .f32) (p : Vec F S256x256 .f32) (y : S256x256.Idx) :
    ∃ pc ∈ bands2 g p k1_t2_loop.trips, y ∈ pc.1.set := by
  have hy0 : (y 0).val < 256 := (y 0).isLt
  have hy1 : (y 1).val < 256 := (y 1).isLt
  have hk : (y 0).val / 8 < k1_t2_loop.trips := by rw [trips2]; omega
  refine ⟨_, band2_mem g p ⟨(y 0).val / 8, hk⟩ k1_t2_loop.trips hk, ?_⟩
  show y ∈ (band2 ⟨(y 0).val / 8, hk⟩).set
  rw [Rect.mem_set_unit, k1_off2_eq]
  intro a
  match a with
  | ⟨0, _⟩ => exact ⟨by show 8 * ((y 0).val / 8) ≤ (y 0).val; omega, by show (y 0).val < 8 * ((y 0).val / 8) + 8; omega⟩
  | ⟨1, _⟩ => exact ⟨Nat.zero_le _, by show (y 1).val < 0 + 256; omega⟩

/-- So whatever the row scratch held before, after the width pass it reads as the bands' canonical contents. -/
theorem read_bands2 (v : View sig .tc .vmem S256x256 .f32) (f : v.ty.Contents (Elt F)) (g : Vec F S256x256 .f32)
    (p : Vec F S256x256 .f32) :
    v.read (Elt F) (v.writes (Elt F) f (bands2 g p k1_t2_loop.trips)) = View.canon (bands2 g p k1_t2_loop.trips) :=
  View.read_writes_eq_canon v f _ (bands2_cover g p)

end Cert.Kernel.Dist

end
-- ==== Proof.DistPiecesBits.lean ====
/-
  What the second kernel's stores leave, read back: the accumulator after a point is the step function of the
  point's three blocks and the accumulator found, whatever the two scratches held before.  The gap matrix is
  stored whole before the passes; each pass's thirty-two band stores cover the row scratch, so a whole load
  after a pass reads the pass's function.
-/
import proofs.«112355_j59322088292653_1_alg».proof.Proof.DistRunFirstBits
import proofs.«112355_j59322088292653_1_alg».proof.Proof.DistRunMidBits
import proofs.«112355_j59322088292653_1_alg».proof.Proof.DistRunLastBits
import proofs.«112355_j59322088292653_1_alg».proof.Proof.DistBandsBits
import Idealize.ShloMosaic.Lib.Pipeline.Value

set_option maxRecDepth 16384

noncomputable section

namespace Cert.Kernel.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- One store of the whole accumulator row covers it. -/
theorem cover_row (w : S1x128.Idx → Elt F .f32) (L : List (View.Piece (Elt F) S1x128 .f32)) (y : S1x128.Idx) :
    ∃ pc ∈ ((⟨(Rect.unit (s := S1x128) ![0, 0] S1x128.size inb_S1x128_S1x128_0_0), w⟩ : View.Piece (Elt F) S1x128 .f32) :: L), y ∈ pc.1.set :=
  ⟨_, List.mem_cons_self, View.mem_set_unit_zero zeros2 inb_S1x128_S1x128_0_0 y⟩

/-- One store of the whole gap matrix covers its scratch. -/
theorem cover_gap (w : S256x256.Idx → Elt F .f32) (y : S256x256.Idx) :
    ∃ pc ∈ ([⟨(Rect.unit (s := S256x256) ![0, 0] S256x256.size inb_S256x256_S256x256_0_0), w⟩] : List (View.Piece (Elt F) S256x256 .f32)), y ∈ pc.1.set :=
  ⟨_, List.mem_singleton_self _, View.mem_set_unit_zero zeros2 inb_S256x256_S256x256_0_0 y⟩

/-- The gap scratch after its one whole store reads the gap matrix. -/
theorem gap_read (arg6 : Memref sig .tc .vmem S256x256 .f32) :
    arg6.view.read (Elt F) (arg6.view.writes (Elt F) arg6.view.junk [⟨(Rect.unit (s := S256x256) ![0, 0] S256x256.size inb_S256x256_S256x256_0_0), k1_pay3⟩]) = gapM (F := F) := by
  rw [View.read_writes_eq_canon _ _ _ (cover_gap _), View.canon_unit_zero zeros2]

/-- The row scratch read whole after both passes holds the second pass over the first, of the point's cost block,
    whatever it held before the passes. -/
theorem rows_read (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (x1 : Vec F S1x1x256x256 .f32)
    (f : BufTy.Contents (Elt F) arg7.view.ty) :
    (View.readAt (Elt F) arg7.view (Rect.unit (s := S256x256) ![0, 0] S256x256.size inb_S256x256_S256x256_0_0).toLoadRect (arg7.view.writes (Elt F) f ((pb_k1_t2 (F := F) Variants.none c none i arg1 harg1 arg2 harg2 arg3 harg3 arg4 harg4 arg5 harg5 arg6 harg6 arg7 harg7 (View.readAt (Elt F) arg7.view (Rect.unit (s := S256x256) ![0, 0] S256x256.size inb_S256x256_S256x256_0_0).toLoadRect (arg7.view.writes (Elt F) f (pb_k1_t1 (F := F) Variants.none c none i arg1 harg1 arg2 harg2 arg3 harg3 arg4 harg4 arg5 harg5 arg6 harg6 arg7 harg7 (View.readAt (Elt F) arg1.view (Rect.unit (s := S1x1x256x256) ![0, 0, 0, 0] S1x1x256x256.size inb_S1x1x256x256_S1x1x256x256_0_0_0_0).toLoadRect (harg1.unread x1)) (arg6.view.writes (Elt F) arg6.view.junk [⟨(Rect.unit (s := S256x256) ![0, 0] S256x256.size inb_S256x256_S256x256_0_0), k1_pay3⟩]) (Scf.trips k1_t1_loop.lb k1_t1_loop.ub k1_t1_loop.st)))) (arg6.view.writes (Elt F) arg6.view.junk [⟨(Rect.unit (s := S256x256) ![0, 0] S256x256.size inb_S256x256_S256x256_0_0), k1_pay3⟩]) (Scf.trips k1_t2_loop.lb k1_t2_loop.ub k1_t2_loop.st)) ++ (pb_k1_t1 (F := F) Variants.none c none i arg1 harg1 arg2 harg2 arg3 harg3 arg4 harg4 arg5 harg5 arg6 harg6 arg7 harg7 (View.readAt (Elt F) arg1.view (Rect.unit (s := S1x1x256x256) ![0, 0, 0, 0] S1x1x256x256.size inb_S1x1x256x256_S1x1x256x256_0_0_0_0).toLoadRect (harg1.unread x1)) (arg6.view.writes (Elt F) arg6.view.junk [⟨(Rect.unit (s := S256x256) ![0, 0] S256x256.size inb_S256x256_S256x256_0_0), k1_pay3⟩]) (Scf.trips k1_t1_loop.lb k1_t1_loop.ub k1_t1_loop.st))))) = pass2 x1 := by
  have hp : (View.readAt (Elt F) arg1.view (Rect.unit (s := S1x1x256x256) ![0, 0, 0, 0] S1x1x256x256.size inb_S1x1x256x256_S1x1x256x256_0_0_0_0).toLoadRect (harg1.unread x1)) = x1 := by
    rw [View.readAt_eq_ld, harg1.read_unread, View.ld_unit_zero (S := S1x1x256x256) zeros4]
  have e1 : (Scf.trips k1_t1_loop.lb k1_t1_loop.ub k1_t1_loop.st) = k1_t1_loop.trips := rfl
  have e12 : k1_t2_loop.trips = k1_t1_loop.trips := trips2.trans trips1.symm
  have r2 : ∀ (v : View sig .tc .vmem S256x256 .f32) (f : v.ty.Contents (Elt F)) (g q : Vec F S256x256 .f32),
      v.read (Elt F) (v.writes (Elt F) f (bands2 g q k1_t1_loop.trips)) = View.canon (bands2 g q k1_t1_loop.trips) := by
    intro v f g q; rw [← e12]; exact read_bands2 v f g q
  rw [hp, e1]
  simp only [View.readAt_eq_ld, View.ld_unit_zero (S := S256x256) zeros2, View.writes_append, pb1_eq, pb2_eq, gap_read,
    read_bands1, r2]
  rw [pass2, pass1, e12]
  rw [show View.read (Elt F) arg6.view (arg6.view.writes (Elt F) arg6.view.junk
      [⟨Rect.unit (s := S256x256) ![0, 0] ![256, 256] inb_S256x256_S256x256_0_0, k1_pay3⟩]) = gapM (F := F) from gap_read arg6]

/-- After a middle point the accumulator holds the step of what it held. -/
theorem mid_acc (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : ¬isLast i)
    (x1 x2 : Vec F S1x1x256x256 .f32) (x3 : Vec F S1x1x256x256 .i32) (a0 : Vec F S1x128 .f32) (d6 d7 : Vec F S256x256 .f32)
    (f : BufTy.Contents (Elt F) arg5.view.ty) :
    arg5.view.read (Elt F) (arg5.view.writes (Elt F) f (runMid c i arg1 harg1 arg2 harg2 arg3 harg3 arg4 harg4 arg5 harg5 arg6 harg6 arg7 harg7 hc0 hc1 x1 x2 x3 a0 d6 d7).1)
      = accStep x1 x2 x3 a0 := by
  unfold runMid; dsimp only; sl_unfold_run_names
  rw [View.read_writes_eq_canon _ _ _ (cover_row _ _), View.canon_unit_zero zeros2]
  rw [rows_read]
  simp only [View.readAt_eq_ld, harg2.read_unread, harg3.read_unread, harg5.read_unread,
    View.ld_unit_zero (S := S1x1x256x256) zeros4, View.ld_unit_zero (S := S1x128) zeros2]
  rfl

/-- After the first point the accumulator holds the step of zero. -/
theorem first_acc (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : isFirst i) (hc1 : ¬isLast i)
    (x1 x2 : Vec F S1x1x256x256 .f32) (x3 : Vec F S1x1x256x256 .i32) (d5 : Vec F S1x128 .f32) (d6 d7 : Vec F S256x256 .f32)
    (f : BufTy.Contents (Elt F) arg5.view.ty) :
    arg5.view.read (Elt F) (arg5.view.writes (Elt F) f (runFirst c i arg1 harg1 arg2 harg2 arg3 harg3 arg4 harg4 arg5 harg5 arg6 harg6 arg7 harg7 hc0 hc1 x1 x2 x3 d5 d6 d7).1)
      = accStep x1 x2 x3 (accZero (F := F)) := by
  unfold runFirst; dsimp only; sl_unfold_run_names
  rw [View.read_writes_eq_canon _ _ _ (cover_row _ _), View.canon_cons_unit_zero zeros2]
  rw [rows_read]
  simp only [View.readAt_eq_ld, harg2.read_unread, harg3.read_unread, View.readCov_unit_zero (S := S1x128) _ zeros2,
    View.ld_unit_zero (S := S1x1x256x256) zeros4]
  rfl

/-- After the last point the accumulator holds the step of what it held, -/
theorem last_acc (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : isLast i)
    (x1 x2 : Vec F S1x1x256x256 .f32) (x3 : Vec F S1x1x256x256 .i32) (d4 a0 : Vec F S1x128 .f32) (d6 d7 : Vec F S256x256 .f32)
    (f : BufTy.Contents (Elt F) arg5.view.ty) :
    arg5.view.read (Elt F) (arg5.view.writes (Elt F) f (runLast c i arg1 harg1 arg2 harg2 arg3 harg3 arg4 harg4 arg5 harg5 arg6 harg6 arg7 harg7 hc0 hc1 x1 x2 x3 d4 a0 d6 d7).2.1)
      = accStep x1 x2 x3 a0 := by
  unfold runLast; dsimp only; sl_unfold_run_names
  rw [View.read_writes_eq_canon _ _ _ (cover_row _ _), View.canon_unit_zero zeros2]
  rw [rows_read]
  simp only [View.readAt_eq_ld, harg2.read_unread, harg3.read_unread, harg5.read_unread,
    View.ld_unit_zero (S := S1x1x256x256) zeros4, View.ld_unit_zero (S := S1x128) zeros2]
  rfl

/-- and the result block holds a copy of it. -/
theorem last_out (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : isLast i)
    (x1 x2 : Vec F S1x1x256x256 .f32) (x3 : Vec F S1x1x256x256 .i32) (d4 a0 : Vec F S1x128 .f32) (d6 d7 : Vec F S256x256 .f32)
    (f : BufTy.Contents (Elt F) arg4.view.ty) :
    arg4.view.read (Elt F) (arg4.view.writes (Elt F) f (runLast c i arg1 harg1 arg2 harg2 arg3 harg3 arg4 harg4 arg5 harg5 arg6 harg6 arg7 harg7 hc0 hc1 x1 x2 x3 d4 a0 d6 d7).1)
      = accStep x1 x2 x3 a0 := by
  unfold runLast; dsimp only; sl_unfold_run_names
  rw [View.read_writes_eq_canon _ _ _ (cover_row _ _), View.canon_unit_zero zeros2]
  rw [View.readCov_unit_zero (S := S1x128) _ zeros2]
  rw [rows_read]
  simp only [View.readAt_eq_ld, harg2.read_unread, harg3.read_unread, harg5.read_unread,
    View.ld_unit_zero (S := S1x1x256x256) zeros4, View.ld_unit_zero (S := S1x128) zeros2]
  rfl

end Cert.Kernel.Dist

end
-- ==== Proof.DistFrameBits.lean ====
/-
  The second kernel's proof data over its eight points.  The three input windows hold their blocks; the result
  window is idle until the last point, where it receives the accumulator; between points the accumulator scratch
  holds the running sums of the points so far, and the two other scratches hold anything.
-/
import proofs.«112355_j59322088292653_1_alg».proof.Proof.DistPiecesBits

set_option maxRecDepth 16384

noncomputable section

namespace Cert.Kernel.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data over these arrays whose body
    leaves the block in place. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are live -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Before the last point the result window is idle and is not written back. -/
theorem out_idle : ∀ t : Fin cfg1.N, ¬isLast (grid1.coords t) → cfg1.idle 3 (grid1.coords t) = true := by decide +kernel
theorem out_kept : ∀ t : Fin cfg1.N, ¬isLast (grid1.coords t) → (cfg1.win 3).flush t = false := by decide +kernel
/-- At the last point it is live. -/
theorem out_live : ∀ t : Fin cfg1.N, isLast (grid1.coords t) → cfg1.idle 3 (grid1.coords t) = false := by decide +kernel

/-! ## The memrefs the body is called with -/

abbrev mP (t : Fin cfg1.N) : Memref sig .tc .vmem S1x1x256x256 .f32 := win1_0.stage (cfg1.slots t 0)
abbrev hP (t : Fin cfg1.N) : (mP t).IsWhole := hstage1_0 ((cfg1.slots t 0).cast nbuf1_0)
abbrev mX (t : Fin cfg1.N) : Memref sig .tc .vmem S1x1x256x256 .f32 := win1_1.stage (cfg1.slots t 1)
abbrev hX (t : Fin cfg1.N) : (mX t).IsWhole := hstage1_1 ((cfg1.slots t 1).cast nbuf1_1)
abbrev mY (t : Fin cfg1.N) : Memref sig .tc .vmem S1x1x256x256 .i32 := win1_2.stage (cfg1.slots t 2)
abbrev hY (t : Fin cfg1.N) : (mY t).IsWhole := hstage1_2 ((cfg1.slots t 2).cast nbuf1_2)
abbrev mO (t : Fin cfg1.N) : Memref sig .tc .vmem S1x128 .f32 := win1_3.stage (cfg1.slots t 3)
abbrev hO (t : Fin cfg1.N) : (mO t).IsWhole := hstage1_3 ((cfg1.slots t 3).cast nbuf1_3)
/-- The accumulator, the gap-matrix scratch and the row scratch. -/
abbrev accM : Memref sig .tc .vmem S1x128 .f32 := Memref.whole cc1_scratch0
abbrev gapS : Memref sig .tc .vmem S256x256 .f32 := Memref.whole cc1_scratch1
abbrev rowS : Memref sig .tc .vmem S256x256 .f32 := Memref.whole cc1_scratch2

/-- The other call's staging buffers, which this region carries unopened. -/
abbrev others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f))

/-- The region's invariant as the launch hands it over: the other call's staging buffers and the three scratches at some
    contents, and the generator register. -/
theorem phiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) accM fullShare d) ∗ (∃ d, owns (c : Thread nD τ) gapS fullShare d)
          ∗ (∃ d, owns (c : Thread nD τ) rowS fullShare d)) ∗ (∃ r, prngReg c r)) := by
  unfold Pipeline.ΦA; rw [scopedRest1_eq]; simp only [accM, gapS, rowS, owns_whole]; try rfl

/-! ## The accumulator point by point -/

theorem pts : cfg1.N = 8 := N_1
/-- Point `n` of the grid (taken modulo eight, so that it is defined at every number). -/
def pt (n : ℕ) : Fin cfg1.N := ⟨n % 8, lt_of_lt_of_eq (Nat.mod_lt _ (by decide)) pts.symm⟩
theorem pt_val (t : Fin cfg1.N) : pt t.val = t :=
  Fin.ext (Nat.mod_eq_of_lt (lt_of_lt_of_eq t.isLt pts))

/-- The cost, score and label blocks of point `n`. -/
def blkP (c : Dev nD) (n : ℕ) : Vec F S1x1x256x256 .f32 := iblk V c 0 (pt n)
def blkX (c : Dev nD) (n : ℕ) : Vec F S1x1x256x256 .f32 := iblk V c 1 (pt n)
def blkY (c : Dev nD) (n : ℕ) : Vec F S1x1x256x256 .i32 := iblk V c 2 (pt n)

/-- The accumulator after point `n`. -/
def accAt (c : Dev nD) (n : ℕ) : Vec F S1x128 .f32 := accSeq (blkP V c) (blkX V c) (blkY V c) n

theorem accAt_zero (c : Dev nD) : accAt V c 0 = accStep (blkP V c 0) (blkX V c 0) (blkY V c 0) (accZero (F := F)) := rfl
theorem accAt_succ (c : Dev nD) (n : ℕ) :
    accAt V c (n + 1) = accStep (blkP V c (n + 1)) (blkX V c (n + 1)) (blkY V c (n + 1)) (accAt V c n) := rfl

/-- The region invariant before point `n`: at the start what the launch hands over; afterwards the same with the
    accumulator at the running sums of the points before `n`. -/
def PhiS (c : Dev nD) : ℕ → sProp 𝕄
  | 0 => Pipeline.ΦA spec1 c
  | n + 1 => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) accM fullShare (accAt V c n) ∗ (∃ d, owns (c : Thread nD τ) gapS fullShare d)
          ∗ (∃ d, owns (c : Thread nD τ) rowS fullShare d)) ∗ (∃ r, prngReg c r))

/-- The second pipeline's proof data on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => accAt V c t.val
  Φ t := PhiS V c t.val
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = accAt V c t.val := by dsimp only [dat]
theorem before_0 (c : Dev nD) (t : Fin cfg1.N) (d) : (dat V c).before 0 t d = iblk V c 0 t :=
  before_in0 V (dat V c) (dat_A V c 0) (after_0 V c) t d
theorem before_1 (c : Dev nD) (t : Fin cfg1.N) (d) : (dat V c).before 1 t d = iblk V c 1 t :=
  before_in1 V (dat V c) (dat_A V c 1) (after_1 V c) t d
theorem before_2 (c : Dev nD) (t : Fin cfg1.N) (d) : (dat V c).before 2 t d = iblk V c 2 t :=
  before_in2 V (dat V c) (dat_A V c 2) (after_2 V c) t d
theorem phi_start (c : Dev nD) (t : Fin cfg1.N) : (dat V c).Φ t.castSucc = PhiS V c t.val := by
  dsimp only [dat]; simp only [Fin.coe_castSucc]
theorem phi_next (c : Dev nD) (t : Fin cfg1.N) : (dat V c).Φ t.succ = PhiS V c (t.val + 1) := rfl

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mP t) fullShare ((dat V c).before 0 t d))
    ∗ (∃ d, owns (c : Thread nD τ) (mX t) fullShare ((dat V c).before 1 t d))
    ∗ (∃ d, owns (c : Thread nD τ) (mY t) fullShare ((dat V c).before 2 t d))
    ∗ (∃ d, owns (c : Thread nD τ) (mO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The accumulator after the first point, over that point's blocks. -/
theorem accAt_first (c : Dev nD) (t : Fin cfg1.N) (h0 : t.val = 0) :
    accAt V c t.val = accStep (iblk V c 0 t) (iblk V c 1 t) (iblk V c 2 t) (accZero (F := F)) := by
  have hp : pt 0 = t := by rw [← h0]; exact pt_val t
  rw [h0, accAt_zero]; unfold blkP blkX blkY; rw [hp]

/-- The accumulator after a later point, over that point's blocks and what the point before left. -/
theorem accAt_later (c : Dev nD) (t : Fin cfg1.N) (h0 : t.val ≠ 0) :
    accAt V c t.val = accStep (iblk V c 0 t) (iblk V c 1 t) (iblk V c 2 t) (accAt V c (t.val - 1)) := by
  obtain ⟨n, hn⟩ : ∃ n, t.val = n + 1 := ⟨t.val - 1, by omega⟩
  have hp : pt (n + 1) = t := by rw [← hn]; exact pt_val t
  rw [hn, accAt_succ]; unfold blkP blkX blkY; rw [hp, Nat.add_sub_cancel]

/-- Before a point that is not the first the accumulator holds what the point before left. -/
theorem PhiS_pos (c : Dev nD) (n : ℕ) (hz : n ≠ 0) :
    PhiS V c n = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) accM fullShare (accAt V c (n - 1)) ∗ (∃ d, owns (c : Thread nD τ) gapS fullShare d)
          ∗ (∃ d, owns (c : Thread nD τ) rowS fullShare d)) ∗ (∃ r, prngReg c r)) := by
  cases n with
  | zero => exact absurd rfl hz
  | succ n => rfl

set_option maxHeartbeats 4000000 in
/-- The body at any point: the input windows hold their blocks; the grid position says which of the three cases the
    point is; the invariant hands the body its scratches (the accumulator at what the point before left, or at anything
    before the first point) and takes the accumulator back at this point's running sums. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [phi_next, phi_start]
  rw [show (dat V c).leavesExact 0 t = owns (c : Thread nD τ) (mP t) fullShare ((dat V c).after 0 t) from by
    unfold Dat.leavesExact; rw [live0 t], after_0]
  rw [show (dat V c).leavesExact 1 t = owns (c : Thread nD τ) (mX t) fullShare ((dat V c).after 1 t) from by
    unfold Dat.leavesExact; rw [live1 t], after_1]
  rw [show (dat V c).leavesExact 2 t = owns (c : Thread nD τ) (mY t) fullShare ((dat V c).after 2 t) from by
    unfold Dat.leavesExact; rw [live2 t], after_2]
  rw [show PhiS V c (t.val + 1) = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) accM fullShare (accAt V c t.val) ∗ (∃ d, owns (c : Thread nD τ) gapS fullShare d)
          ∗ (∃ d, owns (c : Thread nD τ) rowS fullShare d)) ∗ (∃ r, prngReg c r)) from rfl]
  have hN : t.val < 8 := lt_of_lt_of_eq t.isLt pts
  by_cases h0 : t.val = 0
  · have hF : isFirst (grid1.coords t) := (isFirst_iff t).mpr h0
    have hL : ¬isLast (grid1.coords t) := fun h => by have := (isLast_iff t).mp h; omega
    rw [Dat.leavesExact_idle (dat V c) 3 t (out_idle t hL) (out_kept t hL)]
    rw [show PhiS V c t.val = Pipeline.ΦA spec1 c from by rw [h0]; rfl, phiA_eq]
    iintro ⟨⟨⟨HA, HB, ⟨%d5, HS⟩, ⟨%d6, HG⟩, ⟨%d7, HR⟩⟩, Hg⟩, Ho, ⟨%e0, H0⟩, ⟨%e1, H1⟩, ⟨%e2, H2⟩, H3⟩
    iapply ((runFirst c (grid1.coords t) (mP t) (hP t) (mX t) (hX t) (mY t) (hY t) (mO t) (hO t) accM (Memref.isWhole_whole _) gapS (Memref.isWhole_whole _) rowS (Memref.isWhole_whole _) hF hL (iblk V c 0 t) (iblk V c 1 t) (iblk V c 2 t) d5 d6 d7).2.2.2 Set.univ _)
    isplitl [H0]; · iexact H0
    isplitl [H1]; · iexact H1
    isplitl [H2]; · iexact H2
    isplitl [HS]; · iexact HS
    isplitl [HG]; · iexact HG
    isplitl [HR]; · iexact HR
    iintro ⟨H0, H1, H2, ⟨%f5, HS⟩, ⟨%f6, HG⟩, ⟨%f7, HR⟩⟩
    isplitl [HA HB HS HG HR Hg]
    · isplitl [HA HB HS HG HR]
      · isplitl [HA]; · iexact HA
        isplitl [HB]; · iexact HB
        isplitl [HS]
        · unfold owns; iexists _; isplitr
          swap; · iexact HS
          ipureintro
          rw [first_acc, accAt_first V c t h0]
        isplitl [HG]
        · iexists _; unfold owns; iexists _; isplitr
          swap; · iexact HG
          ipureintro; rfl
        iexists _; unfold owns; iexists _; isplitr
        swap; · iexact HR
        ipureintro; rfl
      iexact Hg
    isplitl [Ho]; · iexact Ho
    isplitl [H0]; · iexact H0
    isplitl [H1]; · iexact H1
    isplitl [H2]; · iexact H2
    iexact H3
  · by_cases h7 : t.val = 7
    · have hF : ¬isFirst (grid1.coords t) := fun h => h0 ((isFirst_iff t).mp h)
      have hL : isLast (grid1.coords t) := (isLast_iff t).mpr h7
      rw [show (dat V c).leavesExact 3 t = owns (c : Thread nD τ) (mO t) fullShare ((dat V c).after 3 t) from by
        unfold Dat.leavesExact; rw [out_live t hL], after_3]
      rw [PhiS_pos V c _ h0]
      iintro ⟨⟨⟨HA, HB, HS, ⟨%d6, HG⟩, ⟨%d7, HR⟩⟩, Hg⟩, Ho, ⟨%e0, H0⟩, ⟨%e1, H1⟩, ⟨%e2, H2⟩, ⟨%e3, H3⟩⟩
      iapply ((runLast c (grid1.coords t) (mP t) (hP t) (mX t) (hX t) (mY t) (hY t) (mO t) (hO t) accM (Memref.isWhole_whole _) gapS (Memref.isWhole_whole _) rowS (Memref.isWhole_whole _) hF hL (iblk V c 0 t) (iblk V c 1 t) (iblk V c 2 t) ((dat V c).before 3 t e3) (accAt V c (t.val - 1)) d6 d7).2.2.2.2 Set.univ _)
      isplitl [H0]; · iexact H0
      isplitl [H1]; · iexact H1
      isplitl [H2]; · iexact H2
      isplitl [H3]; · iexact H3
      isplitl [HS]; · iexact HS
      isplitl [HG]; · iexact HG
      isplitl [HR]; · iexact HR
      iintro ⟨H0, H1, H2, ⟨%f4, H3⟩, ⟨%f5, HS⟩, ⟨%f6, HG⟩, ⟨%f7, HR⟩⟩
      isplitl [HA HB HS HG HR Hg]
      · isplitl [HA HB HS HG HR]
        · isplitl [HA]; · iexact HA
          isplitl [HB]; · iexact HB
          isplitl [HS]
          · unfold owns; iexists _; isplitr
            swap; · iexact HS
            ipureintro
            rw [last_acc, accAt_later V c t h0]
          isplitl [HG]
          · iexists _; unfold owns; iexists _; isplitr
            swap; · iexact HG
            ipureintro; rfl
          iexists _; unfold owns; iexists _; isplitr
          swap; · iexact HR
          ipureintro; rfl
        iexact Hg
      isplitl [Ho]; · iexact Ho
      isplitl [H0]; · iexact H0
      isplitl [H1]; · iexact H1
      isplitl [H2]; · iexact H2
      unfold owns; iexists _; isplitr
      swap; · iexact H3
      ipureintro
      rw [last_out, accAt_later V c t h0]
    · have hF : ¬isFirst (grid1.coords t) := fun h => h0 ((isFirst_iff t).mp h)
      have hL : ¬isLast (grid1.coords t) := fun h => h7 ((isLast_iff t).mp h)
      rw [Dat.leavesExact_idle (dat V c) 3 t (out_idle t hL) (out_kept t hL)]
      rw [PhiS_pos V c _ h0]
      iintro ⟨⟨⟨HA, HB, HS, ⟨%d6, HG⟩, ⟨%d7, HR⟩⟩, Hg⟩, Ho, ⟨%e0, H0⟩, ⟨%e1, H1⟩, ⟨%e2, H2⟩, H3⟩
      iapply ((runMid c (grid1.coords t) (mP t) (hP t) (mX t) (hX t) (mY t) (hY t) (mO t) (hO t) accM (Memref.isWhole_whole _) gapS (Memref.isWhole_whole _) rowS (Memref.isWhole_whole _) hF hL (iblk V c 0 t) (iblk V c 1 t) (iblk V c 2 t) (accAt V c (t.val - 1)) d6 d7).2.2.2 Set.univ _)
      isplitl [H0]; · iexact H0
      isplitl [H1]; · iexact H1
      isplitl [H2]; · iexact H2
      isplitl [HS]; · iexact HS
      isplitl [HG]; · iexact HG
      isplitl [HR]; · iexact HR
      iintro ⟨H0, H1, H2, ⟨%f5, HS⟩, ⟨%f6, HG⟩, ⟨%f7, HR⟩⟩
      isplitl [HA HB HS HG HR Hg]
      · isplitl [HA HB HS HG HR]
        · isplitl [HA]; · iexact HA
          isplitl [HB]; · iexact HB
          isplitl [HS]
          · unfold owns; iexists _; isplitr
            swap; · iexact HS
            ipureintro
            rw [mid_acc, accAt_later V c t h0]
          isplitl [HG]
          · iexists _; unfold owns; iexists _; isplitr
            swap; · iexact HG
            ipureintro; rfl
          iexists _; unfold owns; iexists _; isplitr
          swap; · iexact HR
          ipureintro; rfl
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem phi_in (c : Dev nD) : Pipeline.ΦA spec1 c ⊢ (dat V c).Φ 0 := by
  rw [show (dat V c).Φ 0 = PhiS V c 0 from rfl]
  exact Idealize.SL.BI.Entails.refl _

/-- After the last point the invariant gives it back, the accumulator's contents forgotten. -/
theorem phi_out (c : Dev nD) : (dat V c).Φ (Fin.last cfg1.N) ⊢ Pipeline.ΦA spec1 c := by
  rw [show (dat V c).Φ (Fin.last cfg1.N) = PhiS V c 8 from by
    show PhiS V c (Fin.last cfg1.N).val = _; rw [Fin.val_last, pts]]
  rw [show PhiS V c 8 = PhiS V c (7 + 1) from rfl, PhiS, phiA_eq]
  iintro ⟨⟨HA, HB, HS, HG, HR⟩, Hg⟩
  isplitl [HA HB HS HG HR]
  · isplitl [HA]; · iexact HA
    isplitl [HB]; · iexact HB
    isplitl [HS]; · iexists _; iexact HS
    isplitl [HG]; · iexact HG
    iexact HR
  iexact Hg

end

end Cert.Kernel.Dist

end
-- ==== Proof.WholeBits.lean ====
/-
  The whole run of @main: the batch-axis region, the distance-and-totals region, then the closing host
  operations.  The buffer contents at each boundary are a fold from the launch memory: a region leaves its arrays
  at what its write-backs fold to and every other buffer as entered; the host stretch leaves what its operations
  compute.  Each region is a segment over the thread state "every unscoped buffer at the boundary's contents, the
  generator register at some state, nothing owed", and the run's post reads every unscoped buffer at the last
  boundary's contents.
-/
import proofs.«112355_j59322088292653_1_alg».proof.Proof.MixBits
import proofs.«112355_j59322088292653_1_alg».proof.Proof.DistFrameBits
import proofs.«112355_j59322088292653_1_alg».proof.Proof.Gen.Kernel.Launch
import proofs.«112355_j59322088292653_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev E0 : Dev nD → Valuation τ sig (Elt F) := fun c b => m (c, b)
/-- The same read at the TensorCore's references (what the first region's proof data take). -/
abbrev U0 : (c : Dev nD) → (b : Ref sig .tc) → Buf (Elt F) ((c : Thread nD τ).loc b) := fun c b => E0 m c b
/-- After the first region: its arrays at what the pipeline leaves, every other buffer as entered. -/
def E1 (c : Dev nD) : Valuation τ sig (Elt F) :=
  Pipeline.withArrays spec0 c (E0 m c) fun w => (Mix.dat (U0 m) c).arrAt w cfg0.N
theorem E1_arr (c : Dev nD) (w : Fin cfg0.W) :
    E1 m c (Proc.devRef .tc (Pipeline.arrRef spec0 w)) = (Mix.dat (U0 m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
/-- The same read at the TensorCore's references (the second region's entry contents). -/
abbrev U1 : (c : Dev nD) → (b : Ref sig .tc) → Buf (Elt F) ((c : Thread nD τ).loc b) := fun c b => E1 m c b
theorem arrs0 (c : Dev nD) (w : Fin cfg0.W) : (Mix.dat (U0 m) c).arrAt w cfg0.N = U1 m c (Pipeline.arrRef spec0 w) :=
  (E1_arr m c w).symm
theorem rest0 (c : Dev nD) : ∀ b, b ∉ Finset.univ.image (Pipeline.arrRef spec0) → U1 m c b = U0 m c b :=
  fun b hb => E1_of_ne m c b fun w e => hb (Finset.mem_image.mpr ⟨w, Finset.mem_univ _, e⟩)

/-- After the second region: its arrays at what the pipeline leaves, every other buffer as entered. -/
def E2 (c : Dev nD) : Valuation τ sig (Elt F) :=
  Pipeline.withArrays spec1 c (E1 m c) fun w => (Dist.dat (U1 m) c).arrAt w cfg1.N
theorem E2_arr (c : Dev nD) (w : Fin cfg1.W) :
    E2 m c (Proc.devRef .tc (Pipeline.arrRef spec1 w)) = (Dist.dat (U1 m) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
/-- The same read at the TensorCore's references (the second region's exit contents). -/
abbrev U2 : (c : Dev nD) → (b : Ref sig .tc) → Buf (Elt F) ((c : Thread nD τ).loc b) := fun c b => E2 m c b
theorem arrs1 (c : Dev nD) (w : Fin cfg1.W) : (Dist.dat (U1 m) c).arrAt w cfg1.N = U2 m c (Pipeline.arrRef spec1 w) :=
  (E2_arr m c w).symm
theorem rest1 (c : Dev nD) : ∀ b, b ∉ Finset.univ.image (Pipeline.arrRef spec1) → U2 m c b = U1 m c b :=
  fun b hb => E2_of_ne m c b fun w e => hb (Finset.mem_image.mpr ⟨w, Finset.mem_univ _, e⟩)

/-- After the closing host operations: the end of @main. -/
abbrev E3 : Dev nD → Valuation τ sig (Elt F) := fun c => StableHlo.after hostOps2 (E2 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Mix.dat (U0 m) c
  | ⟨1, _⟩ => fun c => Dist.dat (U1 m) c
abbrev 𝒱₀ : Variants := Variants.none
/-- No core owes another anything: no level is assigned. -/
abbrev noL : GSem nD τ sig → Finset Unit := fun _ => ∅
abbrev noLv : GSem nD τ sig → Unit → ℕ := fun _ _ => 0
/-- What rides beside the buffers through every segment: the core's generator register at some state and its
    `owes`, at nothing. -/
abbrev rider (c : Dev nD) : sProp 𝕄 := iprop((∃ r, prngReg c r) ∗ ∃ W, owes (c : Thread nD τ) (0 : CellTallies nD τ sig Unit) W)
/-- The thread state at a boundary: every unscoped buffer at the boundary's contents, beside the rider. -/
abbrev stateAt (W : Dev nD → Valuation τ sig (Elt F)) (c : Dev nD) : sProp 𝕄 :=
  iprop(StableHlo.held (c : Thread nD τ) (Pipeline.ucRefs τ sig) (W c) ∗ rider c)
/-- The closing host operations as a segment from the second region's exit contents. -/
abbrev tailSeg : Pipeline.HostSeg (Name := ℕ) (U := UR sig nD τ) (pcfgs (F := F)) defs₀ 𝒱₀ noL noLv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (E2 m) rider
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev lastState (c : Dev nD) : sProp 𝕄 := iprop(StableHlo.held (c : Thread nD τ) (Pipeline.ucRefs τ sig) (E3 m c) ∗ ∃ r, prngReg c r)

/-! ## The regions as segments -/

set_option backward.isDefEq.respectTransparency.types false in
/-- The first region over the thread state: entered from every unscoped buffer at `E0`, left at `E1`. -/
def reg0 : Pipeline.RegionSeg (pcfgs (F := F)) adm (pdats m) () defs₀ 𝒱₀ noL noLv 0 where
  win := launch0.win.to₀
  block_pos := launch0.block_pos
  stage_whole := launch0.stage_whole
  K := PEmpty
  osem k := k.elim
  ho := Pipeline.OwnSemFacts.none _
  hbody c := (Mix.body_obligation (U0 m) c).loose
  hwaits := Pipeline.hwaits_of_owed_zero _ _ _ _ noL noLv 0 fun _ _ => rfl
  pre c := stateAt (E0 m) c
  post c := stateAt (E1 m) c
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `E1`, left at `E2`.  Its
    invariant is made from, and gives back, the scoped rest and the generator register. -/
def reg1 : Pipeline.RegionSeg (pcfgs (F := F)) adm (pdats m) () defs₀ 𝒱₀ noL noLv 1 where
  win := launch1.win.to₀
  block_pos := launch1.block_pos
  stage_whole := launch1.stage_whole
  K := PEmpty
  osem k := k.elim
  ho := Pipeline.OwnSemFacts.none _
  hbody c := (Dist.body_obligation (U1 m) c).loose
  hwaits := Pipeline.hwaits_of_owed_zero _ _ _ _ noL noLv 1 fun _ _ => rfl
  pre c := stateAt (E1 m) c
  post c := stateAt (E2 m) c
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Dist.phi_in (U1 m) c)
    unfold Pipeline.ΦA
    iintro ⟨Hp, -, Hr⟩
    isplitl [Hr]; · iexact Hr
    iexact Hp
  hout c := by
    rw [Pipeline.ownSems0_none]
    refine (Dist.phi_out (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (arrs1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order: the two regions, then the closing host operations. -/
abbrev items : List (Pipeline.Seg (pcfgs (F := F)) adm (pdats m) () defs₀ 𝒱₀ noL noLv) :=
  [ .region (reg0 m), .region (reg1 m), .host (tailSeg m) ]
/-- @main is the run of the segments. -/
theorem main_run (c : Dev nD) : main (F := F) c = Pipeline.Seg.run (items m) :=
  main_segs adm (pdats m) () 𝒱₀ noL noLv (tailSeg m) (reg0 m) (reg1 m) rfl c

set_option backward.isDefEq.respectTransparency.types false in
/-- THE RUN: from any memory with zero counters, every weakly fair execution of @main on the TensorCores terminates,
    nothing faulting, and every final state has every unscoped buffer at the last boundary's contents `E3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E3 m c b) :=
  Pipeline.θ_run_regions_kit (pcfgs (F := F)) adm (pdats m) () cellOf_inj emb₁ defs₀ 𝒱₀ noL noLv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt (E0 m)) (Tₙ := lastState m)
    (hch := ⟨fun _ => .rfl, fun _ => .rfl, fun _ => .rfl, fun c => by
      show iprop(StableHlo.held (c : Thread nD τ) (Pipeline.ucRefs τ sig) (E3 m c) ∗ rider c)
        ⊢ iprop(lastState m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noL noLv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m c b)
    (hfin := fun c s' => by
      iintro ⟨⟨Hh, -⟩, HSI⟩
      unfold StableHlo.held
      imodintro
      iapply (pointsTo_read_all (Pipeline.ucRefs τ sig) (fun b => (((c : Thread nD τ)).1, b)) (E3 m c) s')
      isplitl [Hh] <;> iassumption)
    (hQ := fun s h c => h c)

/-! ## The arguments end as launched -/

/-- No host operation writes the score array, the second region only reads it, the first bypasses it. -/
theorem end_arg0 (c : Dev nD) : E3 m c (Proc.devRef .tc main_arg0) = m ((c : Thread nD τ).loc main_arg0) :=
  calc E3 m c (Proc.devRef .tc main_arg0)
    _ = E2 m c (Proc.devRef .tc main_arg0) := StableHlo.after_of_writes_sub hostOps2 _ hostOps2_writes (by decide)
    _ = E1 m c (Proc.devRef .tc main_arg0) := (E2_arr m c 1).trans (((Dist.dat (U1 m) c).arrAt_in 1 rfl _).trans (Dist.dat_A (U1 m) c 1))
    _ = E0 m c (Proc.devRef .tc main_arg0) := E1_of_ne m c main_arg0 (by decide)
    _ = m ((c : Thread nD τ).loc main_arg0) := rfl

/-- No host operation writes the label array and both regions only read it. -/
theorem end_arg1 (c : Dev nD) : E3 m c (Proc.devRef .tc main_arg1) = m ((c : Thread nD τ).loc main_arg1) :=
  calc E3 m c (Proc.devRef .tc main_arg1)
    _ = E2 m c (Proc.devRef .tc main_arg1) := StableHlo.after_of_writes_sub hostOps2 _ hostOps2_writes (by decide)
    _ = E1 m c (Proc.devRef .tc main_arg1) := (E2_arr m c 2).trans (((Dist.dat (U1 m) c).arrAt_in 2 rfl _).trans (Dist.dat_A (U1 m) c 2))
    _ = E0 m c (Proc.devRef .tc main_arg1) := (E1_arr m c 0).trans (((Mix.dat (U0 m) c).arrAt_in 0 rfl _).trans (Mix.dat_A (U0 m) c 0))
    _ = m ((c : Thread nD τ).loc main_arg1) := rfl

/-- THE FRAME: every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (end_arg0 m c), (h c _ (mem_uc main_arg1 (by decide))).trans (end_arg1 m c)⟩)
    (run_all m ρ)

/-! ## The regions' outputs at the boundaries -/

/-- The cost array as the second region finds it: what the first region's write-back folds to. -/
theorem mid_v0 (c : Dev nD) : E1 m c (Proc.devRef .tc main_v0) = (Mix.dat (U0 m) c).arrAt 1 cfg0.N := E1_arr m c 1

/-- The totals array as the host operations find it: what the second region's write-back folds to. -/
theorem mid_v1 (c : Dev nD) : E2 m c (Proc.devRef .tc main_v1) = (Dist.dat (U1 m) c).arrAt 3 cfg1.N := E2_arr m c 3

end Cert.Kernel.Whole

end
-- ==== Proof.MixIdeal.lean ====
/-
  The first TensorCore region of the program: the batch-axis pass.  Its grid is one point, its input window is
  the whole label array and its output window the whole cost array, so the body's single load reads the array,
  and its single store covers the output's staging buffer.  At the buffer contents `V` found when the region is
  entered: the windows' blocks, what the body leaves in the output's staging buffer, the body's triple, the
  region's proof data and its body obligation.
-/
import proofs.«112355_j59322088292653_1_alg».proof.Proof.Gen.KernelIdeal.Launch
import proofs.«112355_j59322088292653_1_alg».proof.Proof.Gen.KernelIdeal.Skeleton
import proofs.«112355_j59322088292653_1_alg».proof.Proof.Gen.KernelIdeal.Points
import Idealize.ShloMosaic.Lib.Pipeline.FrameBody
import Idealize.ShloMosaic.Lib.Exec
import Idealize.ShloMosaic.Lib.Tactic

set_option maxRecDepth 16384

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data whose array is
    `V`'s and whose body leaves the block in place. -/
theorem before_in_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The body's one access rectangle: the whole block -/

abbrev rAll : Rect S8x1x256x256 := Rect.unit (s := S8x1x256x256) ![0, 0, 0, 0] S8x1x256x256.size inb_S8x1x256x256_S8x1x256x256_0_0_0_0

/-! ## What the body computes from the loaded labels -/

/-- The eight cost slices `f j`, `j = 0 … 7`, of the loaded label block. -/
abbrev sl0 (v0 : Vec F S8x1x256x256 .i32) := k0_pay3 v0
abbrev sl1 (v0 : Vec F S8x1x256x256 .i32) := k0_pay4 v0
abbrev sl2 (v0 : Vec F S8x1x256x256 .i32) := k0_pay5 v0
abbrev sl3 (v0 : Vec F S8x1x256x256 .i32) := k0_pay6 v0
abbrev sl4 (v0 : Vec F S8x1x256x256 .i32) := k0_pay7 v0
abbrev sl5 (v0 : Vec F S8x1x256x256 .i32) := k0_pay8 v0
abbrev sl6 (v0 : Vec F S8x1x256x256 .i32) := k0_pay9 v0
abbrev sl7 (v0 : Vec F S8x1x256x256 .i32) := k0_pay10 v0

/-- The stored value, as a function of the loaded label block: the body's payloads composed along its parts. -/
def stored (v0 : Vec F S8x1x256x256 .i32) : FVec F S8x1x256x256 .f32 :=
  k0_pay1 (sl0 v0) (sl1 v0) (sl2 v0) (sl3 v0) (sl4 v0) (sl5 v0) (sl6 v0) (sl7 v0)
    (k0_pay13 (k0_pay11 v0) (k0_pay12 v0))
    (k0_pay14 (sl0 v0) (sl1 v0) (sl2 v0) (sl3 v0) (sl4 v0) (sl5 v0) (sl6 v0) (sl7 v0))
    (k0_pay17 (sl7 v0) (k0_pay15 (sl0 v0) (sl1 v0) (sl2 v0) (sl3 v0) (sl4 v0) (sl5 v0)) (k0_pay16 (sl6 v0)))
    (k0_pay18 (sl0 v0) (sl1 v0) (sl2 v0) (sl3 v0) (sl4 v0) (sl5 v0) (sl6 v0) (sl7 v0))
    (k0_pay21 (sl6 v0) (sl7 v0) (k0_pay19 (sl0 v0) (sl1 v0) (sl2 v0) (sl3 v0) (sl4 v0)) (k0_pay20 (sl5 v0)))
    (k0_pay22 (sl0 v0) (sl1 v0) (sl2 v0) (sl3 v0) (sl4 v0) (sl5 v0) (sl6 v0) (sl7 v0))
    (k0_pay23 (sl0 v0) (sl1 v0) (sl2 v0) (sl3 v0))
    (k0_pay24 (sl4 v0))

/-! ## What the body leaves in the output window's buffer -/

/-- The output's staging buffer after the body, from the input block: its one store as a piece. -/
def out (x0 : Vec F S8x1x256x256 .i32) : Vec F S8x1x256x256 .f32 :=
  View.canon [⟨rAll, stored (View.ld x0 rAll)⟩]

/-- The one store covers the buffer. -/
theorem cover (p0 : Vec F S8x1x256x256 .f32) (y : S8x1x256x256.Idx) :
    ∃ pc ∈ ([⟨rAll, p0⟩] : List (View.Piece (Elt F) S8x1x256x256 .f32)), y ∈ pc.1.set :=
  View.cover_of_tiled [⟨rAll, p0⟩] S8x1x256x256.size (by rfl) y

/-! ## The body's triple -/

set_option maxHeartbeats 4000000 in
/-- The kernel body on whole staging memrefs, the input's at contents `x0` and the output's at anything, runs to
    the continuation holding the input's as it was and the output's at `out x0`. -/
theorem sound_kernel (c : Dev nD) (E : Set ℕ) (i : grid0.Coords) (arg1 : Memref sig .tc .vmem S8x1x256x256 .i32) (harg1 : arg1.IsWhole)
    (arg2 : Memref sig .tc .vmem S8x1x256x256 .f32) (harg2 : arg2.IsWhole)
    (x0 : Vec F S8x1x256x256 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out x0)) -∗ K ⟨⟩))
      ⊢ wp frame (wpE (defs₀ (F := F)) Variants.none c none) E (cc0__mix_batch_kernel i arg1 harg1 arg2 harg2) K := by
  simp only [cc0__mix_batch_kernel_eq_skeleton]; unfold cc0__mix_batch_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover _)

/-! ## The region's proof data -/

/-- The proof data of the region on core `c`: the arrays as the region finds them; after the body the input's
    buffer at its block and the output's at `out` of the input block; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => out (iblk V c 0 t)
  Φ _ := Pipeline.ΦA spec0 c
  q _ := fullShare
  owed _ := 0

theorem dat_A (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = out (iblk V c 0 t) := by dsimp only [dat]

theorem before_0 (c : Dev nD) (t : Fin cfg0.N) (d) : (dat V c).before 0 t d = iblk V c 0 t :=
  before_in_of V (dat V c) (dat_A V c 0) (after_0 V c) t d

/-! ## The body obligation -/

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).Φ t.succ = (dat V c).Φ t.castSucc from rfl,
    show (dat V c).owesAt () t.succ = (dat V c).owesAt () t.castSucc from rfl,
    after_0, after_1]
  iintro ⟨HΦ, Ho, ⟨%d0, H0⟩, ⟨%d1, H1⟩⟩
  iapply (sound_kernel c Set.univ _ _ _ _ _ (iblk V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Mix

end
-- ==== Proof.DistDefsIdeal.lean ====
/-
  The second kernel's arithmetic, named once: what one grid point computes from its three input planes and
  the accumulator it finds.

  A point holds one batch element: the cost plane `p` (already mixed along the batch axis), the score plane
  and the label plane.  The gap matrix `g[i, j] = (i - j)^2` is written to a scratch first.  The height pass fills the
  row scratch eight rows at a time — band `k` holds `min over h' of (g[8k + r, h'] + p[h', w])` — and the width pass
  does the same to the result of the height pass; the accumulator then gains the point's four partial sums.
  Each pass is stated here as the function its thirty-two band stores leave behind, independent of what the
  scratch held before.
-/
import proofs.«112355_j59322088292653_1_alg».proof.Proof.Gen.KernelIdeal.Skeleton
import Idealize.ShloMosaic.Lib.Pipeline.FrameBody

noncomputable section

namespace Cert.KernelIdeal.Dist

open Idealize.ShloMosaic Idealize.ShloMosaic.TcCoe
open Cert.KernelIdeal Cert.KernelIdeal.Gen

variable {F : FTy → Type} [FloatOps F]

/-- The rows the height pass's trip `k` loads from the gap matrix and stores into the row scratch. -/
abbrev band1 (k : Fin k1_t1_loop.trips) : Rect S256x256 :=
  Rect.unit (s := S256x256) (k1_off1 k) S8x256.size (k1_off1_inb k)

/-- The same for the width pass's trip `k`. -/
abbrev band2 (k : Fin k1_t2_loop.trips) : Rect S256x256 :=
  Rect.unit (s := S256x256) (k1_off2 k) S8x256.size (k1_off2_inb k)

/-- The band stores of the height pass's trips before `k` (latest first), over the gap matrix `g` and the cost block `p`. -/
def bands1 (g : Vec F S256x256 .f32) (p : Vec F S1x1x256x256 .f32) : ℕ → List (View.Piece (Elt F) S256x256 .f32)
  | 0 => []
  | k + 1 =>
    if h : k < k1_t1_loop.trips then
      (⟨band1 ⟨k, h⟩, k1_pay6 p (View.ld g (band1 ⟨k, h⟩))⟩ : View.Piece (Elt F) S256x256 .f32) :: bands1 g p k
    else bands1 g p k

/-- The band stores of the width pass's trips before `k` (latest first), over the gap matrix `g` and the height pass's result `q`. -/
def bands2 (g : Vec F S256x256 .f32) (q : Vec F S256x256 .f32) : ℕ → List (View.Piece (Elt F) S256x256 .f32)
  | 0 => []
  | k + 1 =>
    if h : k < k1_t2_loop.trips then
      (⟨band2 ⟨k, h⟩, k1_pay7 q (View.ld g (band2 ⟨k, h⟩))⟩ : View.Piece (Elt F) S256x256 .f32) :: bands2 g q k
    else bands2 g q k

/-- The gap matrix the body writes to its scratch. -/
abbrev gapM : Vec F S256x256 .f32 := k1_pay3 (F := F)

/-- What the row scratch holds after the height pass over the cost block `p`. -/
def pass1 (p : Vec F S1x1x256x256 .f32) : Vec F S256x256 .f32 :=
  View.canon (bands1 (gapM (F := F)) p k1_t1_loop.trips)

/-- What the row scratch holds after the width pass. -/
def pass2 (p : Vec F S1x1x256x256 .f32) : Vec F S256x256 .f32 :=
  View.canon (bands2 (gapM (F := F)) (pass1 p) k1_t2_loop.trips)

/-- The accumulator after a point, from the accumulator `a` it found and the point's cost, score and label blocks. -/
def accStep (p x : Vec F S1x1x256x256 .f32) (y : Vec F S1x1x256x256 .i32) (a : Vec F S1x128 .f32) : Vec F S1x128 .f32 :=
  k1_pay1 (k1_pay4 x) (k1_pay5 y) (pass2 p) a

/-- The accumulator the first point starts from. -/
abbrev accZero : Vec F S1x128 .f32 := k1_pay2 (F := F)

/-- The accumulator after point `n`, over the points' cost, score and label blocks: the first point starts from zero,
    each later one from what the point before left. -/
def accSeq (P X : ℕ → Vec F S1x1x256x256 .f32) (Y : ℕ → Vec F S1x1x256x256 .i32) : ℕ → Vec F S1x128 .f32
  | 0 => accStep (P 0) (X 0) (Y 0) (accZero (F := F))
  | n + 1 => accStep (P (n + 1)) (X (n + 1)) (Y (n + 1)) (accSeq P X Y n)

end Cert.KernelIdeal.Dist

end
-- ==== Proof.DistBaseIdeal.lean ====
/-
  The second kernel's two branches, decided over its grid of eight points: the accumulator is reset at the
  first point only, and the result block is stored at the last point only.
-/
import proofs.«112355_j59322088292653_1_alg».proof.Proof.Gen.KernelIdeal.Launch
import proofs.«112355_j59322088292653_1_alg».proof.Proof.Gen.KernelIdeal.Skeleton
import proofs.«112355_j59322088292653_1_alg».proof.Proof.Gen.KernelIdeal.Points
import proofs.«112355_j59322088292653_1_alg».proof.Proof.Gen.KernelIdeal.Loops
import proofs.«112355_j59322088292653_1_alg».proof.Proof.DistDefsIdeal
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch is taken: the point is the first of the grid. -/
abbrev isFirst (i : grid1.Coords) : Prop :=
  (Scalar.cmpi .ne (Scalar.extui (Scalar.cmpi .eq (BitVec.ofNat 32 (i 0).val) 0#32)) 0#32) = 1#1
theorem isFirst_iff : ∀ t : Fin cfg1.N, isFirst (grid1.coords t) ↔ t.val = 0 :=
  (by decide +kernel : ∀ t : Fin grid1.N, isFirst (grid1.coords t) ↔ t.val = 0)

/-- The body's second branch is taken: the point is the last of the grid. -/
abbrev isLast (i : grid1.Coords) : Prop := k1_cond2 i = 1#1
theorem isLast_iff : ∀ t : Fin cfg1.N, isLast (grid1.coords t) ↔ t.val = 7 :=
  (by decide +kernel : ∀ t : Fin grid1.N, isLast (grid1.coords t) ↔ t.val = 7)

end Cert.KernelIdeal.Dist

end
-- ==== Proof.DistRunFirstIdeal.lean ====
/-
  The second kernel's body at the first point: the accumulator is reset to zero before the point's sums are added;
  nothing is stored into the result block.
-/
import proofs.«112355_j59322088292653_1_alg».proof.Proof.DistBaseIdeal

set_option maxRecDepth 16384

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the accumulator, the gap-matrix scratch and the row scratch (latest first), with
    the run that finds them: from the three input blocks, and the accumulator and both scratches at given contents. -/
noncomputable def runFirst (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : isFirst i) (hc1 : ¬isLast i)
    (x1 x2 : Vec F S1x1x256x256 .f32) (x3 : Vec F S1x1x256x256 .i32) (d5 : Vec F S1x128 .f32) (d6 d7 : Vec F S256x256 .f32) :
    Σ' (L5 : List (View.Piece (Elt F) S1x128 .f32)) (L6 : List (View.Piece (Elt F) S256x256 .f32)), { L7 : List (View.Piece (Elt F) S256x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg5 fullShare d5 ∗ owns (c : Thread nD τ) arg6 fullShare d6 ∗ owns (c : Thread nD τ) arg7 fullShare d7
            ∗ (iprop(owns (c : Thread nD τ) arg1 fullShare x1 ∗ owns (c : Thread nD τ) arg2 fullShare x2 ∗ owns (c : Thread nD τ) arg3 fullShare x3
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc1__dist_reduce_kernel i arg1 harg1 arg2 harg2 arg3 harg3 arg4 harg4 arg5 harg5 arg6 harg6 arg7 harg7) K } := by
  refine ⟨?_, ?_, ?_, fun E K => ?run⟩
  case run =>
    simp only [cc1__dist_reduce_kernel_eq_skeleton]; unfold cc1__dist_reduce_kernel_skel
    unfold owns
    iintro ⟨⟨%f1, %hf1, H1⟩, ⟨%f2, %hf2, H2⟩, ⟨%f3, %hf3, H3⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H5]; · iexists _; iexact H5
    isplitl [H6]; · iexists _; iexact H6
    iexists _; iexact H7

end Cert.KernelIdeal.Dist

end
-- ==== Proof.DistRunMidIdeal.lean ====
/-
  The second kernel's body at a point that is neither the first nor the last: the accumulator it finds is kept and
  added to, nothing is stored into the result block.
-/
import proofs.«112355_j59322088292653_1_alg».proof.Proof.DistBaseIdeal

set_option maxRecDepth 16384

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the accumulator, the gap-matrix scratch and the row scratch (latest first), with
    the run that finds them: from the three input blocks, the accumulator and both scratches at given contents. -/
noncomputable def runMid (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : ¬isLast i)
    (x1 x2 : Vec F S1x1x256x256 .f32) (x3 : Vec F S1x1x256x256 .i32) (a0 : Vec F S1x128 .f32) (d6 d7 : Vec F S256x256 .f32) :
    Σ' (L5 : List (View.Piece (Elt F) S1x128 .f32)) (L6 : List (View.Piece (Elt F) S256x256 .f32)), { L7 : List (View.Piece (Elt F) S256x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg5 fullShare a0 ∗ owns (c : Thread nD τ) arg6 fullShare d6 ∗ owns (c : Thread nD τ) arg7 fullShare d7
            ∗ (iprop(owns (c : Thread nD τ) arg1 fullShare x1 ∗ owns (c : Thread nD τ) arg2 fullShare x2 ∗ owns (c : Thread nD τ) arg3 fullShare x3
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc1__dist_reduce_kernel i arg1 harg1 arg2 harg2 arg3 harg3 arg4 harg4 arg5 harg5 arg6 harg6 arg7 harg7) K } := by
  refine ⟨?_, ?_, ?_, fun E K => ?run⟩
  case run =>
    simp only [cc1__dist_reduce_kernel_eq_skeleton]; unfold cc1__dist_reduce_kernel_skel
    unfold owns
    iintro ⟨⟨%f1, %hf1, H1⟩, ⟨%f2, %hf2, H2⟩, ⟨%f3, %hf3, H3⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H5]; · iexists _; iexact H5
    isplitl [H6]; · iexists _; iexact H6
    iexists _; iexact H7

end Cert.KernelIdeal.Dist

end
-- ==== Proof.DistRunLastIdeal.lean ====
/-
  The second kernel's body at the last point: the accumulator it finds is added to, and the result block receives a
  copy of the accumulator.
-/
import proofs.«112355_j59322088292653_1_alg».proof.Proof.DistBaseIdeal

set_option maxRecDepth 16384

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The stores the body leaves in the result block, the accumulator, the gap-matrix scratch and the row scratch
    (latest first), with the run that finds them: from the three input blocks, and the result block, the accumulator
    and both scratches at given contents. -/
noncomputable def runLast (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : isLast i)
    (x1 x2 : Vec F S1x1x256x256 .f32) (x3 : Vec F S1x1x256x256 .i32) (d4 a0 : Vec F S1x128 .f32) (d6 d7 : Vec F S256x256 .f32) :
    Σ' (L4 L5 : List (View.Piece (Elt F) S1x128 .f32)) (L6 : List (View.Piece (Elt F) S256x256 .f32)), { L7 : List (View.Piece (Elt F) S256x256 .f32) //
      ∀ (E : Set ℕ) (K : PUnit → sProp 𝕄),
        iprop(owns (c : Thread nD τ) arg1 fullShare x1 ∗ owns (c : Thread nD τ) arg2 fullShare x2 ∗ owns (c : Thread nD τ) arg3 fullShare x3
            ∗ owns (c : Thread nD τ) arg4 fullShare d4
            ∗ owns (c : Thread nD τ) arg5 fullShare a0 ∗ owns (c : Thread nD τ) arg6 fullShare d6 ∗ owns (c : Thread nD τ) arg7 fullShare d7
            ∗ (iprop(owns (c : Thread nD τ) arg1 fullShare x1 ∗ owns (c : Thread nD τ) arg2 fullShare x2 ∗ owns (c : Thread nD τ) arg3 fullShare x3
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)
                ∗ (∃ f, arg7.view.loc (c : Thread nD τ) ↦[arg7.view.set]{fullShare} arg7.view.writes (Elt F) f L7)) -∗ K ⟨⟩))
          ⊢ wp frame (wpE (defs₀ (F := F)) Variants.none c none) E (cc1__dist_reduce_kernel i arg1 harg1 arg2 harg2 arg3 harg3 arg4 harg4 arg5 harg5 arg6 harg6 arg7 harg7) K } := by
  refine ⟨?_, ?_, ?_, ?_, fun E K => ?run⟩
  case run =>
    simp only [cc1__dist_reduce_kernel_eq_skeleton]; unfold cc1__dist_reduce_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := harg1.eq_unread hf1; obtain rfl := harg2.eq_unread hf2; obtain rfl := harg3.eq_unread hf3
    obtain rfl := harg4.eq_unread hf4
    obtain rfl := harg5.eq_unread hf5; obtain rfl := harg6.eq_unread hf6; obtain rfl := harg7.eq_unread hf7
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]; · iexists _; iexact H4
    isplitl [H5]; · iexists _; iexact H5
    isplitl [H6]; · iexists _; iexact H6
    iexists _; iexact H7

end Cert.KernelIdeal.Dist

end
-- ==== Proof.DistBandsIdeal.lean ====
/-
  The second kernel's two row-band loops, trip by trip: each trip stores one band of eight rows, the stores of the trips
  so far are the specification's band lists, the thirty-two bands cover the row scratch, and so what the scratch
  reads after a pass does not depend on what it held before.
-/
import proofs.«112355_j59322088292653_1_alg».proof.Proof.Gen.KernelIdeal.Loops
import proofs.«112355_j59322088292653_1_alg».proof.Proof.DistDefsIdeal

set_option maxRecDepth 8192

noncomputable section

namespace Cert.KernelIdeal.Dist

open Idealize.ShloMosaic Idealize.ShloMosaic.TcCoe
open Cert.KernelIdeal Cert.KernelIdeal.Gen

variable {F : FTy → Type} [FloatOps F]

/-! ## The height pass -/

/-- The height pass runs all thirty-two trips. -/
theorem trips1 : k1_t1_loop.trips = 32 := by decide +kernel

/-- Trip `k` of the height pass stores one band: the rows `8k … 8k+7`, computed from the same rows of the gap matrix
    and the cost block. -/
theorem trip1_piece (𝒱 : Variants) (c : Dev nD) (bd : Option 𝒱.V) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (v13 : Vec F S1x1x256x256 .f32) (X6 : BufTy.Contents (Elt F) arg6.view.ty) (k : Fin k1_t1_loop.trips) :
    tripL_k1_t1 (F := F) 𝒱 c bd i arg1 harg1 arg2 harg2 arg3 harg3 arg4 harg4 arg5 harg5 arg6 harg6 arg7 harg7 v13 X6 k
      = [⟨band1 k, k1_pay6 v13 (View.ld (arg6.view.read (Elt F) X6) (band1 k))⟩] := by
  unfold tripL_k1_t1; unfold trip_k1_t1; dsimp only
  rfl

/-- The stores of the trips before `n` are the bands before `n`, over the gap scratch's contents. -/
theorem pb1_eq (𝒱 : Variants) (c : Dev nD) (bd : Option 𝒱.V) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (v13 : Vec F S1x1x256x256 .f32) (X6 : BufTy.Contents (Elt F) arg6.view.ty) (n : ℕ) :
    pb_k1_t1 (F := F) 𝒱 c bd i arg1 harg1 arg2 harg2 arg3 harg3 arg4 harg4 arg5 harg5 arg6 harg6 arg7 harg7 v13 X6 n = bands1 (arg6.view.read (Elt F) X6) v13 n := by
  induction n with
  | zero => rw [pb_k1_t1.eq_1, bands1.eq_1]
  | succ n ih =>
    rw [pb_k1_t1.eq_2, bands1.eq_2]; unfold pb_k1_t1Step
    by_cases h : n < k1_t1_loop.trips
    · rw [dif_pos h, dif_pos h, trip1_piece, ih]; rfl
    · rw [dif_neg h, dif_neg h, ih]

/-- Band `k` is among the bands before `n` once `k < n`. -/
theorem band1_mem (g : Vec F S256x256 .f32) (p : Vec F S1x1x256x256 .f32) (k : Fin k1_t1_loop.trips) :
    ∀ n : ℕ, k.val < n →
      (⟨band1 k, k1_pay6 p (View.ld g (band1 k))⟩ : View.Piece (Elt F) S256x256 .f32) ∈ bands1 g p n
  | 0, h => absurd h (Nat.not_lt_zero _)
  | n + 1, h => by
    rw [bands1.eq_2]
    by_cases hn : n < k1_t1_loop.trips
    · rw [dif_pos hn]
      rcases Nat.lt_succ_iff_lt_or_eq.mp h with hlt | heq
      · exact List.mem_cons_of_mem _ (band1_mem g p k n hlt)
      · have hk : k = ⟨n, hn⟩ := Fin.ext heq
        rw [hk]; exact List.mem_cons_self
    · rw [dif_neg hn]
      exact band1_mem g p k n (Nat.lt_of_lt_of_le k.isLt (Nat.le_of_not_lt hn))

/-- Every row lies in one of the thirty-two bands: row `r` in band `r / 8`. -/
theorem bands1_cover (g : Vec F S256x256 .f32) (p : Vec F S1x1x256x256 .f32) (y : S256x256.Idx) :
    ∃ pc ∈ bands1 g p k1_t1_loop.trips, y ∈ pc.1.set := by
  have hy0 : (y 0).val < 256 := (y 0).isLt
  have hy1 : (y 1).val < 256 := (y 1).isLt
  have hk : (y 0).val / 8 < k1_t1_loop.trips := by rw [trips1]; omega
  refine ⟨_, band1_mem g p ⟨(y 0).val / 8, hk⟩ k1_t1_loop.trips hk, ?_⟩
  show y ∈ (band1 ⟨(y 0).val / 8, hk⟩).set
  rw [Rect.mem_set_unit, k1_off1_eq]
  intro a
  match a with
  | ⟨0, _⟩ => exact ⟨by show 8 * ((y 0).val / 8) ≤ (y 0).val; omega, by show (y 0).val < 8 * ((y 0).val / 8) + 8; omega⟩
  | ⟨1, _⟩ => exact ⟨Nat.zero_le _, by show (y 1).val < 0 + 256; omega⟩

/-- So whatever the row scratch held before, after the height pass it reads as the bands' canonical contents. -/
theorem read_bands1 (v : View sig .tc .vmem S256x256 .f32) (f : v.ty.Contents (Elt F)) (g : Vec F S256x256 .f32)
    (p : Vec F S1x1x256x256 .f32) :
    v.read (Elt F) (v.writes (Elt F) f (bands1 g p k1_t1_loop.trips)) = View.canon (bands1 g p k1_t1_loop.trips) :=
  View.read_writes_eq_canon v f _ (bands1_cover g p)

/-! ## The width pass -/

/-- The width pass runs all thirty-two trips. -/
theorem trips2 : k1_t2_loop.trips = 32 := by decide +kernel

/-- Trip `k` of the width pass stores one band: the rows `8k … 8k+7`, computed from the same rows of the gap matrix
    and the height pass's result. -/
theorem trip2_piece (𝒱 : Variants) (c : Dev nD) (bd : Option 𝒱.V) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (v22 : Vec F S256x256 .f32) (X6 : BufTy.Contents (Elt F) arg6.view.ty) (k : Fin k1_t2_loop.trips) :
    tripL_k1_t2 (F := F) 𝒱 c bd i arg1 harg1 arg2 harg2 arg3 harg3 arg4 harg4 arg5 harg5 arg6 harg6 arg7 harg7 v22 X6 k
      = [⟨band2 k, k1_pay7 v22 (View.ld (arg6.view.read (Elt F) X6) (band2 k))⟩] := by
  unfold tripL_k1_t2; unfold trip_k1_t2; dsimp only
  rfl

/-- The stores of the trips before `n` are the bands before `n`, over the gap scratch's contents. -/
theorem pb2_eq (𝒱 : Variants) (c : Dev nD) (bd : Option 𝒱.V) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (v22 : Vec F S256x256 .f32) (X6 : BufTy.Contents (Elt F) arg6.view.ty) (n : ℕ) :
    pb_k1_t2 (F := F) 𝒱 c bd i arg1 harg1 arg2 harg2 arg3 harg3 arg4 harg4 arg5 harg5 arg6 harg6 arg7 harg7 v22 X6 n = bands2 (arg6.view.read (Elt F) X6) v22 n := by
  induction n with
  | zero => rw [pb_k1_t2.eq_1, bands2.eq_1]
  | succ n ih =>
    rw [pb_k1_t2.eq_2, bands2.eq_2]; unfold pb_k1_t2Step
    by_cases h : n < k1_t2_loop.trips
    · rw [dif_pos h, dif_pos h, trip2_piece, ih]; rfl
    · rw [dif_neg h, dif_neg h, ih]

/-- Band `k` is among the bands before `n` once `k < n`. -/
theorem band2_mem (g : Vec F S256x256 .f32) (p : Vec F S256x256 .f32) (k : Fin k1_t2_loop.trips) :
    ∀ n : ℕ, k.val < n →
      (⟨band2 k, k1_pay7 p (View.ld g (band2 k))⟩ : View.Piece (Elt F) S256x256 .f32) ∈ bands2 g p n
  | 0, h => absurd h (Nat.not_lt_zero _)
  | n + 1, h => by
    rw [bands2.eq_2]
    by_cases hn : n < k1_t2_loop.trips
    · rw [dif_pos hn]
      rcases Nat.lt_succ_iff_lt_or_eq.mp h with hlt | heq
      · exact List.mem_cons_of_mem _ (band2_mem g p k n hlt)
      · have hk : k = ⟨n, hn⟩ := Fin.ext heq
        rw [hk]; exact List.mem_cons_self
    · rw [dif_neg hn]
      exact band2_mem g p k n (Nat.lt_of_lt_of_le k.isLt (Nat.le_of_not_lt hn))

/-- Every row lies in one of the thirty-two bands: row `r` in band `r / 8`. -/
theorem bands2_cover (g : Vec F S256x256 .f32) (p : Vec F S256x256 .f32) (y : S256x256.Idx) :
    ∃ pc ∈ bands2 g p k1_t2_loop.trips, y ∈ pc.1.set := by
  have hy0 : (y 0).val < 256 := (y 0).isLt
  have hy1 : (y 1).val < 256 := (y 1).isLt
  have hk : (y 0).val / 8 < k1_t2_loop.trips := by rw [trips2]; omega
  refine ⟨_, band2_mem g p ⟨(y 0).val / 8, hk⟩ k1_t2_loop.trips hk, ?_⟩
  show y ∈ (band2 ⟨(y 0).val / 8, hk⟩).set
  rw [Rect.mem_set_unit, k1_off2_eq]
  intro a
  match a with
  | ⟨0, _⟩ => exact ⟨by show 8 * ((y 0).val / 8) ≤ (y 0).val; omega, by show (y 0).val < 8 * ((y 0).val / 8) + 8; omega⟩
  | ⟨1, _⟩ => exact ⟨Nat.zero_le _, by show (y 1).val < 0 + 256; omega⟩

/-- So whatever the row scratch held before, after the width pass it reads as the bands' canonical contents. -/
theorem read_bands2 (v : View sig .tc .vmem S256x256 .f32) (f : v.ty.Contents (Elt F)) (g : Vec F S256x256 .f32)
    (p : Vec F S256x256 .f32) :
    v.read (Elt F) (v.writes (Elt F) f (bands2 g p k1_t2_loop.trips)) = View.canon (bands2 g p k1_t2_loop.trips) :=
  View.read_writes_eq_canon v f _ (bands2_cover g p)

end Cert.KernelIdeal.Dist

end
-- ==== Proof.DistPiecesIdeal.lean ====
/-
  What the second kernel's stores leave, read back: the accumulator after a point is the step function of the
  point's three blocks and the accumulator found, whatever the two scratches held before.  The gap matrix is
  stored whole before the passes; each pass's thirty-two band stores cover the row scratch, so a whole load
  after a pass reads the pass's function.
-/
import proofs.«112355_j59322088292653_1_alg».proof.Proof.DistRunFirstIdeal
import proofs.«112355_j59322088292653_1_alg».proof.Proof.DistRunMidIdeal
import proofs.«112355_j59322088292653_1_alg».proof.Proof.DistRunLastIdeal
import proofs.«112355_j59322088292653_1_alg».proof.Proof.DistBandsIdeal
import Idealize.ShloMosaic.Lib.Pipeline.Value

set_option maxRecDepth 16384

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem zeros2 : (![0, 0] : Fin 2 → Nat) = fun _ => 0 := funext fun a => by fin_cases a <;> rfl
theorem zeros4 : (![0, 0, 0, 0] : Fin 4 → Nat) = fun _ => 0 := funext fun a => by fin_cases a <;> rfl

/-- One store of the whole accumulator row covers it. -/
theorem cover_row (w : S1x128.Idx → Elt F .f32) (L : List (View.Piece (Elt F) S1x128 .f32)) (y : S1x128.Idx) :
    ∃ pc ∈ ((⟨(Rect.unit (s := S1x128) ![0, 0] S1x128.size inb_S1x128_S1x128_0_0), w⟩ : View.Piece (Elt F) S1x128 .f32) :: L), y ∈ pc.1.set :=
  ⟨_, List.mem_cons_self, View.mem_set_unit_zero zeros2 inb_S1x128_S1x128_0_0 y⟩

/-- One store of the whole gap matrix covers its scratch. -/
theorem cover_gap (w : S256x256.Idx → Elt F .f32) (y : S256x256.Idx) :
    ∃ pc ∈ ([⟨(Rect.unit (s := S256x256) ![0, 0] S256x256.size inb_S256x256_S256x256_0_0), w⟩] : List (View.Piece (Elt F) S256x256 .f32)), y ∈ pc.1.set :=
  ⟨_, List.mem_singleton_self _, View.mem_set_unit_zero zeros2 inb_S256x256_S256x256_0_0 y⟩

/-- The gap scratch after its one whole store reads the gap matrix. -/
theorem gap_read (arg6 : Memref sig .tc .vmem S256x256 .f32) :
    arg6.view.read (Elt F) (arg6.view.writes (Elt F) arg6.view.junk [⟨(Rect.unit (s := S256x256) ![0, 0] S256x256.size inb_S256x256_S256x256_0_0), k1_pay3⟩]) = gapM (F := F) := by
  rw [View.read_writes_eq_canon _ _ _ (cover_gap _), View.canon_unit_zero zeros2]

/-- The row scratch read whole after both passes holds the second pass over the first, of the point's cost block,
    whatever it held before the passes. -/
theorem rows_read (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (x1 : Vec F S1x1x256x256 .f32)
    (f : BufTy.Contents (Elt F) arg7.view.ty) :
    (View.readAt (Elt F) arg7.view (Rect.unit (s := S256x256) ![0, 0] S256x256.size inb_S256x256_S256x256_0_0).toLoadRect (arg7.view.writes (Elt F) f ((pb_k1_t2 (F := F) Variants.none c none i arg1 harg1 arg2 harg2 arg3 harg3 arg4 harg4 arg5 harg5 arg6 harg6 arg7 harg7 (View.readAt (Elt F) arg7.view (Rect.unit (s := S256x256) ![0, 0] S256x256.size inb_S256x256_S256x256_0_0).toLoadRect (arg7.view.writes (Elt F) f (pb_k1_t1 (F := F) Variants.none c none i arg1 harg1 arg2 harg2 arg3 harg3 arg4 harg4 arg5 harg5 arg6 harg6 arg7 harg7 (View.readAt (Elt F) arg1.view (Rect.unit (s := S1x1x256x256) ![0, 0, 0, 0] S1x1x256x256.size inb_S1x1x256x256_S1x1x256x256_0_0_0_0).toLoadRect (harg1.unread x1)) (arg6.view.writes (Elt F) arg6.view.junk [⟨(Rect.unit (s := S256x256) ![0, 0] S256x256.size inb_S256x256_S256x256_0_0), k1_pay3⟩]) (Scf.trips k1_t1_loop.lb k1_t1_loop.ub k1_t1_loop.st)))) (arg6.view.writes (Elt F) arg6.view.junk [⟨(Rect.unit (s := S256x256) ![0, 0] S256x256.size inb_S256x256_S256x256_0_0), k1_pay3⟩]) (Scf.trips k1_t2_loop.lb k1_t2_loop.ub k1_t2_loop.st)) ++ (pb_k1_t1 (F := F) Variants.none c none i arg1 harg1 arg2 harg2 arg3 harg3 arg4 harg4 arg5 harg5 arg6 harg6 arg7 harg7 (View.readAt (Elt F) arg1.view (Rect.unit (s := S1x1x256x256) ![0, 0, 0, 0] S1x1x256x256.size inb_S1x1x256x256_S1x1x256x256_0_0_0_0).toLoadRect (harg1.unread x1)) (arg6.view.writes (Elt F) arg6.view.junk [⟨(Rect.unit (s := S256x256) ![0, 0] S256x256.size inb_S256x256_S256x256_0_0), k1_pay3⟩]) (Scf.trips k1_t1_loop.lb k1_t1_loop.ub k1_t1_loop.st))))) = pass2 x1 := by
  have hp : (View.readAt (Elt F) arg1.view (Rect.unit (s := S1x1x256x256) ![0, 0, 0, 0] S1x1x256x256.size inb_S1x1x256x256_S1x1x256x256_0_0_0_0).toLoadRect (harg1.unread x1)) = x1 := by
    rw [View.readAt_eq_ld, harg1.read_unread, View.ld_unit_zero (S := S1x1x256x256) zeros4]
  have e1 : (Scf.trips k1_t1_loop.lb k1_t1_loop.ub k1_t1_loop.st) = k1_t1_loop.trips := rfl
  have e12 : k1_t2_loop.trips = k1_t1_loop.trips := trips2.trans trips1.symm
  have r2 : ∀ (v : View sig .tc .vmem S256x256 .f32) (f : v.ty.Contents (Elt F)) (g q : Vec F S256x256 .f32),
      v.read (Elt F) (v.writes (Elt F) f (bands2 g q k1_t1_loop.trips)) = View.canon (bands2 g q k1_t1_loop.trips) := by
    intro v f g q; rw [← e12]; exact read_bands2 v f g q
  rw [hp, e1]
  simp only [View.readAt_eq_ld, View.ld_unit_zero (S := S256x256) zeros2, View.writes_append, pb1_eq, pb2_eq, gap_read,
    read_bands1, r2]
  rw [pass2, pass1, e12]
  rw [show View.read (Elt F) arg6.view (arg6.view.writes (Elt F) arg6.view.junk
      [⟨Rect.unit (s := S256x256) ![0, 0] ![256, 256] inb_S256x256_S256x256_0_0, k1_pay3⟩]) = gapM (F := F) from gap_read arg6]

/-- After a middle point the accumulator holds the step of what it held. -/
theorem mid_acc (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : ¬isLast i)
    (x1 x2 : Vec F S1x1x256x256 .f32) (x3 : Vec F S1x1x256x256 .i32) (a0 : Vec F S1x128 .f32) (d6 d7 : Vec F S256x256 .f32)
    (f : BufTy.Contents (Elt F) arg5.view.ty) :
    arg5.view.read (Elt F) (arg5.view.writes (Elt F) f (runMid c i arg1 harg1 arg2 harg2 arg3 harg3 arg4 harg4 arg5 harg5 arg6 harg6 arg7 harg7 hc0 hc1 x1 x2 x3 a0 d6 d7).1)
      = accStep x1 x2 x3 a0 := by
  unfold runMid; dsimp only; sl_unfold_run_names
  rw [View.read_writes_eq_canon _ _ _ (cover_row _ _), View.canon_unit_zero zeros2]
  rw [rows_read]
  simp only [View.readAt_eq_ld, harg2.read_unread, harg3.read_unread, harg5.read_unread,
    View.ld_unit_zero (S := S1x1x256x256) zeros4, View.ld_unit_zero (S := S1x128) zeros2]
  rfl

/-- After the first point the accumulator holds the step of zero. -/
theorem first_acc (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : isFirst i) (hc1 : ¬isLast i)
    (x1 x2 : Vec F S1x1x256x256 .f32) (x3 : Vec F S1x1x256x256 .i32) (d5 : Vec F S1x128 .f32) (d6 d7 : Vec F S256x256 .f32)
    (f : BufTy.Contents (Elt F) arg5.view.ty) :
    arg5.view.read (Elt F) (arg5.view.writes (Elt F) f (runFirst c i arg1 harg1 arg2 harg2 arg3 harg3 arg4 harg4 arg5 harg5 arg6 harg6 arg7 harg7 hc0 hc1 x1 x2 x3 d5 d6 d7).1)
      = accStep x1 x2 x3 (accZero (F := F)) := by
  unfold runFirst; dsimp only; sl_unfold_run_names
  rw [View.read_writes_eq_canon _ _ _ (cover_row _ _), View.canon_cons_unit_zero zeros2]
  rw [rows_read]
  simp only [View.readAt_eq_ld, harg2.read_unread, harg3.read_unread, View.readCov_unit_zero (S := S1x128) _ zeros2,
    View.ld_unit_zero (S := S1x1x256x256) zeros4]
  rfl

/-- After the last point the accumulator holds the step of what it held, -/
theorem last_acc (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : isLast i)
    (x1 x2 : Vec F S1x1x256x256 .f32) (x3 : Vec F S1x1x256x256 .i32) (d4 a0 : Vec F S1x128 .f32) (d6 d7 : Vec F S256x256 .f32)
    (f : BufTy.Contents (Elt F) arg5.view.ty) :
    arg5.view.read (Elt F) (arg5.view.writes (Elt F) f (runLast c i arg1 harg1 arg2 harg2 arg3 harg3 arg4 harg4 arg5 harg5 arg6 harg6 arg7 harg7 hc0 hc1 x1 x2 x3 d4 a0 d6 d7).2.1)
      = accStep x1 x2 x3 a0 := by
  unfold runLast; dsimp only; sl_unfold_run_names
  rw [View.read_writes_eq_canon _ _ _ (cover_row _ _), View.canon_unit_zero zeros2]
  rw [rows_read]
  simp only [View.readAt_eq_ld, harg2.read_unread, harg3.read_unread, harg5.read_unread,
    View.ld_unit_zero (S := S1x1x256x256) zeros4, View.ld_unit_zero (S := S1x128) zeros2]
  rfl

/-- and the result block holds a copy of it. -/
theorem last_out (c : Dev nD) (i : grid1.Coords) (arg1 : Memref sig .tc .vmem S1x1x256x256 .f32) (harg1 : arg1.IsWhole) (arg2 : Memref sig .tc .vmem S1x1x256x256 .f32) (harg2 : arg2.IsWhole) (arg3 : Memref sig .tc .vmem S1x1x256x256 .i32) (harg3 : arg3.IsWhole) (arg4 : Memref sig .tc .vmem S1x128 .f32) (harg4 : arg4.IsWhole) (arg5 : Memref sig .tc .vmem S1x128 .f32) (harg5 : arg5.IsWhole) (arg6 : Memref sig .tc .vmem S256x256 .f32) (harg6 : arg6.IsWhole) (arg7 : Memref sig .tc .vmem S256x256 .f32) (harg7 : arg7.IsWhole) (hc0 : ¬isFirst i) (hc1 : isLast i)
    (x1 x2 : Vec F S1x1x256x256 .f32) (x3 : Vec F S1x1x256x256 .i32) (d4 a0 : Vec F S1x128 .f32) (d6 d7 : Vec F S256x256 .f32)
    (f : BufTy.Contents (Elt F) arg4.view.ty) :
    arg4.view.read (Elt F) (arg4.view.writes (Elt F) f (runLast c i arg1 harg1 arg2 harg2 arg3 harg3 arg4 harg4 arg5 harg5 arg6 harg6 arg7 harg7 hc0 hc1 x1 x2 x3 d4 a0 d6 d7).1)
      = accStep x1 x2 x3 a0 := by
  unfold runLast; dsimp only; sl_unfold_run_names
  rw [View.read_writes_eq_canon _ _ _ (cover_row _ _), View.canon_unit_zero zeros2]
  rw [View.readCov_unit_zero (S := S1x128) _ zeros2]
  rw [rows_read]
  simp only [View.readAt_eq_ld, harg2.read_unread, harg3.read_unread, harg5.read_unread,
    View.ld_unit_zero (S := S1x1x256x256) zeros4, View.ld_unit_zero (S := S1x128) zeros2]
  rfl

end Cert.KernelIdeal.Dist

end
-- ==== Proof.DistFrameIdeal.lean ====
/-
  The second kernel's proof data over its eight points.  The three input windows hold their blocks; the result
  window is idle until the last point, where it receives the accumulator; between points the accumulator scratch
  holds the running sums of the points so far, and the two other scratches hold anything.
-/
import proofs.«112355_j59322088292653_1_alg».proof.Proof.DistPiecesIdeal

set_option maxRecDepth 16384

noncomputable section

namespace Cert.KernelIdeal.Dist

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, for any proof data over these arrays whose body
    leaves the block in place. -/
theorem before_in0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## Where the windows are live -/

theorem live0 : ∀ t : Fin cfg1.N, cfg1.idle 0 (grid1.coords t) = false := by decide +kernel
theorem live1 : ∀ t : Fin cfg1.N, cfg1.idle 1 (grid1.coords t) = false := by decide +kernel
theorem live2 : ∀ t : Fin cfg1.N, cfg1.idle 2 (grid1.coords t) = false := by decide +kernel
/-- Before the last point the result window is idle and is not written back. -/
theorem out_idle : ∀ t : Fin cfg1.N, ¬isLast (grid1.coords t) → cfg1.idle 3 (grid1.coords t) = true := by decide +kernel
theorem out_kept : ∀ t : Fin cfg1.N, ¬isLast (grid1.coords t) → (cfg1.win 3).flush t = false := by decide +kernel
/-- At the last point it is live. -/
theorem out_live : ∀ t : Fin cfg1.N, isLast (grid1.coords t) → cfg1.idle 3 (grid1.coords t) = false := by decide +kernel

/-! ## The memrefs the body is called with -/

abbrev mP (t : Fin cfg1.N) : Memref sig .tc .vmem S1x1x256x256 .f32 := win1_0.stage (cfg1.slots t 0)
abbrev hP (t : Fin cfg1.N) : (mP t).IsWhole := hstage1_0 ((cfg1.slots t 0).cast nbuf1_0)
abbrev mX (t : Fin cfg1.N) : Memref sig .tc .vmem S1x1x256x256 .f32 := win1_1.stage (cfg1.slots t 1)
abbrev hX (t : Fin cfg1.N) : (mX t).IsWhole := hstage1_1 ((cfg1.slots t 1).cast nbuf1_1)
abbrev mY (t : Fin cfg1.N) : Memref sig .tc .vmem S1x1x256x256 .i32 := win1_2.stage (cfg1.slots t 2)
abbrev hY (t : Fin cfg1.N) : (mY t).IsWhole := hstage1_2 ((cfg1.slots t 2).cast nbuf1_2)
abbrev mO (t : Fin cfg1.N) : Memref sig .tc .vmem S1x128 .f32 := win1_3.stage (cfg1.slots t 3)
abbrev hO (t : Fin cfg1.N) : (mO t).IsWhole := hstage1_3 ((cfg1.slots t 3).cast nbuf1_3)
/-- The accumulator, the gap-matrix scratch and the row scratch. -/
abbrev accM : Memref sig .tc .vmem S1x128 .f32 := Memref.whole cc1_scratch0
abbrev gapS : Memref sig .tc .vmem S256x256 .f32 := Memref.whole cc1_scratch1
abbrev rowS : Memref sig .tc .vmem S256x256 .f32 := Memref.whole cc1_scratch2

/-- The other call's staging buffers, which this region carries unopened. -/
abbrev others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f))

/-- The region's invariant as the launch hands it over: the other call's staging buffers and the three scratches at some
    contents, and the generator register. -/
theorem phiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ (∃ d, owns (c : Thread nD τ) accM fullShare d) ∗ (∃ d, owns (c : Thread nD τ) gapS fullShare d)
          ∗ (∃ d, owns (c : Thread nD τ) rowS fullShare d)) ∗ (∃ r, prngReg c r)) := by
  unfold Pipeline.ΦA; rw [scopedRest1_eq]; simp only [accM, gapS, rowS, owns_whole]; try rfl

/-! ## The accumulator point by point -/

theorem pts : cfg1.N = 8 := N_1
/-- Point `n` of the grid (taken modulo eight, so that it is defined at every number). -/
def pt (n : ℕ) : Fin cfg1.N := ⟨n % 8, lt_of_lt_of_eq (Nat.mod_lt _ (by decide)) pts.symm⟩
theorem pt_val (t : Fin cfg1.N) : pt t.val = t :=
  Fin.ext (Nat.mod_eq_of_lt (lt_of_lt_of_eq t.isLt pts))

/-- The cost, score and label blocks of point `n`. -/
def blkP (c : Dev nD) (n : ℕ) : Vec F S1x1x256x256 .f32 := iblk V c 0 (pt n)
def blkX (c : Dev nD) (n : ℕ) : Vec F S1x1x256x256 .f32 := iblk V c 1 (pt n)
def blkY (c : Dev nD) (n : ℕ) : Vec F S1x1x256x256 .i32 := iblk V c 2 (pt n)

/-- The accumulator after point `n`. -/
def accAt (c : Dev nD) (n : ℕ) : Vec F S1x128 .f32 := accSeq (blkP V c) (blkX V c) (blkY V c) n

theorem accAt_zero (c : Dev nD) : accAt V c 0 = accStep (blkP V c 0) (blkX V c 0) (blkY V c 0) (accZero (F := F)) := rfl
theorem accAt_succ (c : Dev nD) (n : ℕ) :
    accAt V c (n + 1) = accStep (blkP V c (n + 1)) (blkX V c (n + 1)) (blkY V c (n + 1)) (accAt V c n) := rfl

/-- The region invariant before point `n`: at the start what the launch hands over; afterwards the same with the
    accumulator at the running sums of the points before `n`. -/
def PhiS (c : Dev nD) : ℕ → sProp 𝕄
  | 0 => Pipeline.ΦA spec1 c
  | n + 1 => iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) accM fullShare (accAt V c n) ∗ (∃ d, owns (c : Thread nD τ) gapS fullShare d)
          ∗ (∃ d, owns (c : Thread nD τ) rowS fullShare d)) ∗ (∃ r, prngReg c r))

/-- The second pipeline's proof data on core `c`. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => accAt V c t.val
  Φ t := PhiS V c t.val
  q _ := fullShare
  owed _ := 0

theorem dat_A (c : Dev nD) (w : Fin cfg1.W) : (dat V c).A w = V c (Pipeline.arrRef spec1 w) := by dsimp only [dat]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = accAt V c t.val := by dsimp only [dat]
theorem before_0 (c : Dev nD) (t : Fin cfg1.N) (d) : (dat V c).before 0 t d = iblk V c 0 t :=
  before_in0 V (dat V c) (dat_A V c 0) (after_0 V c) t d
theorem before_1 (c : Dev nD) (t : Fin cfg1.N) (d) : (dat V c).before 1 t d = iblk V c 1 t :=
  before_in1 V (dat V c) (dat_A V c 1) (after_1 V c) t d
theorem before_2 (c : Dev nD) (t : Fin cfg1.N) (d) : (dat V c).before 2 t d = iblk V c 2 t :=
  before_in2 V (dat V c) (dat_A V c 2) (after_2 V c) t d
theorem phi_start (c : Dev nD) (t : Fin cfg1.N) : (dat V c).Φ t.castSucc = PhiS V c t.val := by
  dsimp only [dat]; simp only [Fin.coe_castSucc]
theorem phi_next (c : Dev nD) (t : Fin cfg1.N) : (dat V c).Φ t.succ = PhiS V c (t.val + 1) := rfl

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mP t) fullShare ((dat V c).before 0 t d))
    ∗ (∃ d, owns (c : Thread nD τ) (mX t) fullShare ((dat V c).before 1 t d))
    ∗ (∃ d, owns (c : Thread nD τ) (mY t) fullShare ((dat V c).before 2 t d))
    ∗ (∃ d, owns (c : Thread nD τ) (mO t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t ∗ (dat V c).leavesExact 3 t)

/-- The accumulator after the first point, over that point's blocks. -/
theorem accAt_first (c : Dev nD) (t : Fin cfg1.N) (h0 : t.val = 0) :
    accAt V c t.val = accStep (iblk V c 0 t) (iblk V c 1 t) (iblk V c 2 t) (accZero (F := F)) := by
  have hp : pt 0 = t := by rw [← h0]; exact pt_val t
  rw [h0, accAt_zero]; unfold blkP blkX blkY; rw [hp]

/-- The accumulator after a later point, over that point's blocks and what the point before left. -/
theorem accAt_later (c : Dev nD) (t : Fin cfg1.N) (h0 : t.val ≠ 0) :
    accAt V c t.val = accStep (iblk V c 0 t) (iblk V c 1 t) (iblk V c 2 t) (accAt V c (t.val - 1)) := by
  obtain ⟨n, hn⟩ : ∃ n, t.val = n + 1 := ⟨t.val - 1, by omega⟩
  have hp : pt (n + 1) = t := by rw [← hn]; exact pt_val t
  rw [hn, accAt_succ]; unfold blkP blkX blkY; rw [hp, Nat.add_sub_cancel]

/-- Before a point that is not the first the accumulator holds what the point before left. -/
theorem PhiS_pos (c : Dev nD) (n : ℕ) (hz : n ≠ 0) :
    PhiS V c n = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) accM fullShare (accAt V c (n - 1)) ∗ (∃ d, owns (c : Thread nD τ) gapS fullShare d)
          ∗ (∃ d, owns (c : Thread nD τ) rowS fullShare d)) ∗ (∃ r, prngReg c r)) := by
  cases n with
  | zero => exact absurd rfl hz
  | succ n => rfl

set_option maxHeartbeats 4000000 in
/-- The body at any point: the input windows hold their blocks; the grid position says which of the three cases the
    point is; the invariant hands the body its scratches (the accumulator at what the point before left, or at anything
    before the first point) and takes the accumulator back at this point's running sums. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [phi_next, phi_start]
  rw [show (dat V c).leavesExact 0 t = owns (c : Thread nD τ) (mP t) fullShare ((dat V c).after 0 t) from by
    unfold Dat.leavesExact; rw [live0 t], after_0]
  rw [show (dat V c).leavesExact 1 t = owns (c : Thread nD τ) (mX t) fullShare ((dat V c).after 1 t) from by
    unfold Dat.leavesExact; rw [live1 t], after_1]
  rw [show (dat V c).leavesExact 2 t = owns (c : Thread nD τ) (mY t) fullShare ((dat V c).after 2 t) from by
    unfold Dat.leavesExact; rw [live2 t], after_2]
  rw [show PhiS V c (t.val + 1) = iprop(iprop((∃ f : Buf (Elt F) ((c : Thread nD τ).loc cc0_stg0_0), ((c : Thread nD τ).loc cc0_stg0_0) ↦{fullShare} f)
          ∗ (∃ f : Buf (Elt F) ((c : Thread nD τ).loc cc0_stg1_0), ((c : Thread nD τ).loc cc0_stg1_0) ↦{fullShare} f)
          ∗ owns (c : Thread nD τ) accM fullShare (accAt V c t.val) ∗ (∃ d, owns (c : Thread nD τ) gapS fullShare d)
          ∗ (∃ d, owns (c : Thread nD τ) rowS fullShare d)) ∗ (∃ r, prngReg c r)) from rfl]
  have hN : t.val < 8 := lt_of_lt_of_eq t.isLt pts
  by_cases h0 : t.val = 0
  · have hF : isFirst (grid1.coords t) := (isFirst_iff t).mpr h0
    have hL : ¬isLast (grid1.coords t) := fun h => by have := (isLast_iff t).mp h; omega
    rw [Dat.leavesExact_idle (dat V c) 3 t (out_idle t hL) (out_kept t hL)]
    rw [show PhiS V c t.val = Pipeline.ΦA spec1 c from by rw [h0]; rfl, phiA_eq]
    iintro ⟨⟨⟨HA, HB, ⟨%d5, HS⟩, ⟨%d6, HG⟩, ⟨%d7, HR⟩⟩, Hg⟩, Ho, ⟨%e0, H0⟩, ⟨%e1, H1⟩, ⟨%e2, H2⟩, H3⟩
    iapply ((runFirst c (grid1.coords t) (mP t) (hP t) (mX t) (hX t) (mY t) (hY t) (mO t) (hO t) accM (Memref.isWhole_whole _) gapS (Memref.isWhole_whole _) rowS (Memref.isWhole_whole _) hF hL (iblk V c 0 t) (iblk V c 1 t) (iblk V c 2 t) d5 d6 d7).2.2.2 Set.univ _)
    isplitl [H0]; · iexact H0
    isplitl [H1]; · iexact H1
    isplitl [H2]; · iexact H2
    isplitl [HS]; · iexact HS
    isplitl [HG]; · iexact HG
    isplitl [HR]; · iexact HR
    iintro ⟨H0, H1, H2, ⟨%f5, HS⟩, ⟨%f6, HG⟩, ⟨%f7, HR⟩⟩
    isplitl [HA HB HS HG HR Hg]
    · isplitl [HA HB HS HG HR]
      · isplitl [HA]; · iexact HA
        isplitl [HB]; · iexact HB
        isplitl [HS]
        · unfold owns; iexists _; isplitr
          swap; · iexact HS
          ipureintro
          rw [first_acc, accAt_first V c t h0]
        isplitl [HG]
        · iexists _; unfold owns; iexists _; isplitr
          swap; · iexact HG
          ipureintro; rfl
        iexists _; unfold owns; iexists _; isplitr
        swap; · iexact HR
        ipureintro; rfl
      iexact Hg
    isplitl [Ho]; · iexact Ho
    isplitl [H0]; · iexact H0
    isplitl [H1]; · iexact H1
    isplitl [H2]; · iexact H2
    iexact H3
  · by_cases h7 : t.val = 7
    · have hF : ¬isFirst (grid1.coords t) := fun h => h0 ((isFirst_iff t).mp h)
      have hL : isLast (grid1.coords t) := (isLast_iff t).mpr h7
      rw [show (dat V c).leavesExact 3 t = owns (c : Thread nD τ) (mO t) fullShare ((dat V c).after 3 t) from by
        unfold Dat.leavesExact; rw [out_live t hL], after_3]
      rw [PhiS_pos V c _ h0]
      iintro ⟨⟨⟨HA, HB, HS, ⟨%d6, HG⟩, ⟨%d7, HR⟩⟩, Hg⟩, Ho, ⟨%e0, H0⟩, ⟨%e1, H1⟩, ⟨%e2, H2⟩, ⟨%e3, H3⟩⟩
      iapply ((runLast c (grid1.coords t) (mP t) (hP t) (mX t) (hX t) (mY t) (hY t) (mO t) (hO t) accM (Memref.isWhole_whole _) gapS (Memref.isWhole_whole _) rowS (Memref.isWhole_whole _) hF hL (iblk V c 0 t) (iblk V c 1 t) (iblk V c 2 t) ((dat V c).before 3 t e3) (accAt V c (t.val - 1)) d6 d7).2.2.2.2 Set.univ _)
      isplitl [H0]; · iexact H0
      isplitl [H1]; · iexact H1
      isplitl [H2]; · iexact H2
      isplitl [H3]; · iexact H3
      isplitl [HS]; · iexact HS
      isplitl [HG]; · iexact HG
      isplitl [HR]; · iexact HR
      iintro ⟨H0, H1, H2, ⟨%f4, H3⟩, ⟨%f5, HS⟩, ⟨%f6, HG⟩, ⟨%f7, HR⟩⟩
      isplitl [HA HB HS HG HR Hg]
      · isplitl [HA HB HS HG HR]
        · isplitl [HA]; · iexact HA
          isplitl [HB]; · iexact HB
          isplitl [HS]
          · unfold owns; iexists _; isplitr
            swap; · iexact HS
            ipureintro
            rw [last_acc, accAt_later V c t h0]
          isplitl [HG]
          · iexists _; unfold owns; iexists _; isplitr
            swap; · iexact HG
            ipureintro; rfl
          iexists _; unfold owns; iexists _; isplitr
          swap; · iexact HR
          ipureintro; rfl
        iexact Hg
      isplitl [Ho]; · iexact Ho
      isplitl [H0]; · iexact H0
      isplitl [H1]; · iexact H1
      isplitl [H2]; · iexact H2
      unfold owns; iexists _; isplitr
      swap; · iexact H3
      ipureintro
      rw [last_out, accAt_later V c t h0]
    · have hF : ¬isFirst (grid1.coords t) := fun h => h0 ((isFirst_iff t).mp h)
      have hL : ¬isLast (grid1.coords t) := fun h => h7 ((isLast_iff t).mp h)
      rw [Dat.leavesExact_idle (dat V c) 3 t (out_idle t hL) (out_kept t hL)]
      rw [PhiS_pos V c _ h0]
      iintro ⟨⟨⟨HA, HB, HS, ⟨%d6, HG⟩, ⟨%d7, HR⟩⟩, Hg⟩, Ho, ⟨%e0, H0⟩, ⟨%e1, H1⟩, ⟨%e2, H2⟩, H3⟩
      iapply ((runMid c (grid1.coords t) (mP t) (hP t) (mX t) (hX t) (mY t) (hY t) (mO t) (hO t) accM (Memref.isWhole_whole _) gapS (Memref.isWhole_whole _) rowS (Memref.isWhole_whole _) hF hL (iblk V c 0 t) (iblk V c 1 t) (iblk V c 2 t) (accAt V c (t.val - 1)) d6 d7).2.2.2 Set.univ _)
      isplitl [H0]; · iexact H0
      isplitl [H1]; · iexact H1
      isplitl [H2]; · iexact H2
      isplitl [HS]; · iexact HS
      isplitl [HG]; · iexact HG
      isplitl [HR]; · iexact HR
      iintro ⟨H0, H1, H2, ⟨%f5, HS⟩, ⟨%f6, HG⟩, ⟨%f7, HR⟩⟩
      isplitl [HA HB HS HG HR Hg]
      · isplitl [HA HB HS HG HR]
        · isplitl [HA]; · iexact HA
          isplitl [HB]; · iexact HB
          isplitl [HS]
          · unfold owns; iexists _; isplitr
            swap; · iexact HS
            ipureintro
            rw [mid_acc, accAt_later V c t h0]
          isplitl [HG]
          · iexists _; unfold owns; iexists _; isplitr
            swap; · iexact HG
            ipureintro; rfl
          iexists _; unfold owns; iexists _; isplitr
          swap; · iexact HR
          ipureintro; rfl
        iexact Hg
      isplitl [Ho]; · iexact Ho
      isplitl [H0]; · iexact H0
      isplitl [H1]; · iexact H1
      isplitl [H2]; · iexact H2
      iexact H3

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem phi_in (c : Dev nD) : Pipeline.ΦA spec1 c ⊢ (dat V c).Φ 0 := by
  rw [show (dat V c).Φ 0 = PhiS V c 0 from rfl]
  exact Idealize.SL.BI.Entails.refl _

/-- After the last point the invariant gives it back, the accumulator's contents forgotten. -/
theorem phi_out (c : Dev nD) : (dat V c).Φ (Fin.last cfg1.N) ⊢ Pipeline.ΦA spec1 c := by
  rw [show (dat V c).Φ (Fin.last cfg1.N) = PhiS V c 8 from by
    show PhiS V c (Fin.last cfg1.N).val = _; rw [Fin.val_last, pts]]
  rw [show PhiS V c 8 = PhiS V c (7 + 1) from rfl, PhiS, phiA_eq]
  iintro ⟨⟨HA, HB, HS, HG, HR⟩, Hg⟩
  isplitl [HA HB HS HG HR]
  · isplitl [HA]; · iexact HA
    isplitl [HB]; · iexact HB
    isplitl [HS]; · iexists _; iexact HS
    isplitl [HG]; · iexact HG
    iexact HR
  iexact Hg

end

end Cert.KernelIdeal.Dist

end
-- ==== Proof.Spec.lean ====
/-
  The function both programs compute, stated once over the argument arrays.

  From the label array `y` the cost field is `0` where `y > 0` and the large finite cost `C` elsewhere.  Three
  min-plus passes follow, one per axis that has more than one position (batch, height, width):
  `(pass f) p = min over q of (f q + (p - q)^2)`, the exact one-dimensional squared distance transform.  The
  distance is the square root of the result, `σ` is the logistic function of `x`, and the four totals
  `Σ σ·y`, `Σ σ`, `Σ y`, `Σ σ·dist` over all `8·256·256` positions enter the closing scalar formula
  `1·(1 - (2·s₁ + ε)/((s₂ + s₃) + ε)) + ½·(s₄ / 524288)`.
-/
import Idealize.ShloMosaic.PureOps
import Idealize.ShloMosaic.PureOps.Ideal
import Idealize.ShloMosaic.Lib.ValueIdx

noncomputable section

namespace Cert.EDT

open Idealize.ShloMosaic Idealize.ShloMosaic.ValueIdx

/-- The arguments' shape, `[8, 1, 256, 256]`. -/
abbrev SArg : Shape := ⟨4, ![8, 1, 256, 256]⟩
/-- A scalar's shape. -/
abbrev S0 : Shape := ⟨0, ![]⟩

/-- The squared gap `(i - j)^2` of two positions of an axis, as an extended real: the 32-bit integer chain
    `(i - j) * (i - j)` read signed, which is how both programs spell it. -/
def gap2 {n : Nat} (i j : Fin n) : EReal :=
  (((IntOp.muli (IntOp.subi (BitVec.ofNat 32 i.val) (BitVec.ofNat 32 j.val))
      (IntOp.subi (BitVec.ofNat 32 i.val) (BitVec.ofNat 32 j.val))).toInt : ℝ) : EReal)

/-- The cost field before any pass: `0` on the marked positions (`y > 0`, signed), the large finite cost elsewhere. -/
def cost0 (y : SArg.Idx → BitVec 32) (b : Fin 8) (h w : Fin 256) : EReal :=
  Scalar.select (IntOp.cmpi .sgt (y (ix4 b (0 : Fin 1) h w)) 0#32)
    (Ideal.ofBits .f32 0x00000000#32) (Ideal.ofBits .f32 0x5368D4A5#32)

/-- After the pass along the batch axis. -/
def cost1 (y : SArg.Idx → BitVec 32) (b : Fin 8) (h w : Fin 256) : EReal :=
  Finset.univ.inf fun j : Fin 8 => cost0 y j h w + gap2 b j

/-- After the pass along the height axis. -/
def cost2 (y : SArg.Idx → BitVec 32) (b : Fin 8) (h w : Fin 256) : EReal :=
  Finset.univ.inf fun h' : Fin 256 => cost1 y b h' w + gap2 h h'

/-- After the pass along the width axis: the squared distance to the nearest marked position. -/
def cost3 (y : SArg.Idx → BitVec 32) (b : Fin 8) (h w : Fin 256) : EReal :=
  Finset.univ.inf fun w' : Fin 256 => cost2 y b h w' + gap2 w w'

/-- The distance. -/
def dist (y : SArg.Idx → BitVec 32) (b : Fin 8) (h w : Fin 256) : EReal := Ideal.sqrt (cost3 y b h w)

/-- The logistic function of the score. -/
def sig (x : SArg.Idx → EReal) (b : Fin 8) (h w : Fin 256) : EReal := Ideal.logistic (x (ix4 b (0 : Fin 1) h w))

/-- The label as a number. -/
def lab (y : SArg.Idx → BitVec 32) (b : Fin 8) (h w : Fin 256) : EReal := (((y (ix4 b (0 : Fin 1) h w)).toInt : ℝ) : EReal)

/-- The total of a field over every position. -/
def total (g : Fin 8 → Fin 256 → Fin 256 → EReal) : EReal := ∑ b : Fin 8, ∑ h : Fin 256, ∑ w : Fin 256, g b h w

/-- The closing scalar formula, on scalars as rank-0 arrays, in the host operations both programs end with. -/
def closing (s1 s2 s3 s4 : FVec Ideal S0 .f32) : FVec Ideal S0 .f32 :=
  addf
    (mulf (constant (F := Ideal) S0 .f32 0x3F800000#32)
      (subf (constant (F := Ideal) S0 .f32 0x3F800000#32)
        (Host.divf (F := Ideal)
          (addf (mulf (constant (F := Ideal) S0 .f32 0x40000000#32) s1) (constant (F := Ideal) S0 .f32 0x3727C5AC#32))
          (addf (addf s2 s3) (constant (F := Ideal) S0 .f32 0x3727C5AC#32)))))
    (mulf (constant (F := Ideal) S0 .f32 0x3F000000#32)
      (Host.divf (F := Ideal) s4 (constant (F := Ideal) S0 .f32 0x49000000#32)))

/-- The four totals. -/
def tot1 (x : SArg.Idx → EReal) (y : SArg.Idx → BitVec 32) : EReal := total fun b h w => sig x b h w * lab y b h w
def tot2 (x : SArg.Idx → EReal) : EReal := total fun b h w => sig x b h w
def tot3 (y : SArg.Idx → BitVec 32) : EReal := total fun b h w => lab y b h w
def tot4 (x : SArg.Idx → EReal) (y : SArg.Idx → BitVec 32) : EReal := total fun b h w => sig x b h w * dist y b h w

/-- The loss. -/
def loss (x : SArg.Idx → EReal) (y : SArg.Idx → BitVec 32) : FVec Ideal S0 .f32 :=
  closing (fun _ => tot1 x y) (fun _ => tot2 x) (fun _ => tot3 y) (fun _ => tot4 x y)

end Cert.EDT

end
-- ==== Proof.TailIdeal.lean ====
/-
  The closing host operations: four totals cut out of the totals array, then the scalar formula.
-/
import proofs.«112355_j59322088292653_1_alg».proof.Proof.Gen.KernelIdeal.Launch
import proofs.«112355_j59322088292653_1_alg».proof.Proof.Spec
import Idealize.ShloMosaic.Lib.StableHlo.Run
import Idealize.ShloMosaic.Lib.Pipeline.Value
import Idealize.ShloMosaic.Lib.ValueIdx

noncomputable section

namespace Cert.KernelIdeal.Whole

open Idealize.ShloMosaic Idealize.ShloMosaic.TcCoe Idealize.ShloMosaic.ValueIdx
open Cert.KernelIdeal Cert.KernelIdeal.Gen

variable {F : FTy → Type} [FloatOps F]

/-- Total `k` of the totals array, as a scalar: the `[0:1, k:k+1]` slice reshaped to rank 0. -/
def totalAt (s : (⟨S1x128, .f32⟩ : BufTy).Contents (Elt F)) (off : Fin 2 → Nat) (h : S1x128.Slices off S1x1) :
    (⟨S_, .f32⟩ : BufTy).Contents (Elt F) :=
  shapeCast S_ (extractStridedSlice S1x1 off s h) shapeCasts_S1x1_S_

/-- The closing scalar formula on the four totals: `1·(1 − (2·s₁ + ε)/((s₂ + s₃) + ε)) + ½·(s₄ / 524288)`. -/
def closingOf (s1 s2 s3 s4 : (⟨S_, .f32⟩ : BufTy).Contents (Elt F)) : (⟨S_, .f32⟩ : BufTy).Contents (Elt F) :=
  addf
    (mulf (constant S_ .f32 0x3F800000#32)
      (subf (constant S_ .f32 0x3F800000#32)
        (Host.divf
          (addf (mulf (constant S_ .f32 0x40000000#32) s1) (constant S_ .f32 0x3727C5AC#32))
          (addf (addf s2 s3) (constant S_ .f32 0x3727C5AC#32)))))
    (mulf (constant S_ .f32 0x3F000000#32)
      (Host.divf s4 (constant S_ .f32 0x49000000#32)))

/-- What the closing host operations leave in the result buffer, from the totals array. -/
def tailOf (s : (⟨S1x128, .f32⟩ : BufTy).Contents (Elt F)) : (⟨S_, .f32⟩ : BufTy).Contents (Elt F) :=
  closingOf (totalAt s ![0, 0] slices_S1x128_S1x1_0_0) (totalAt s ![0, 1] slices_S1x128_S1x1_0_1)
    (totalAt s ![0, 2] slices_S1x128_S1x1_0_2) (totalAt s ![0, 3] slices_S1x128_S1x1_0_3)

/-- The result buffer after the closing host operations, from any contents: `tailOf` of the totals array. -/
theorem tail_after (W : Valuation τ sig (Elt F)) :
    StableHlo.after hostOps2 W (Proc.devRef .tc main_v19) = tailOf (W (Proc.devRef .tc main_v1)) := by
  unfold tailOf closingOf totalAt
  open Idealize.ShloMosaic.StableHlo in after_results
  rfl

/-! ## The totals read at their positions -/

/-- Total `k` is the totals array at position `(0, k)`. -/
theorem totalAt_eq (s : (⟨S1x128, .f32⟩ : BufTy).Contents (Elt F)) (off : Fin 2 → Nat) (h : S1x128.Slices off S1x1) (k : Fin 128)
    (h0 : off 0 = 0) (h1 : off 1 = k.val) : totalAt s off h = fun _ => s (ix2 (0 : Fin 1) k) := by
  funext i
  unfold totalAt
  refine (shapeCast_apply _ _ i (ix2 (0 : Fin 1) (0 : Fin 1)) ?_).trans ?_
  · exact (Nat.lt_one_iff.mp (S1x1.rowMajor _).isLt).trans (Nat.lt_one_iff.mp (S_.rowMajor i).isLt).symm
  · exact extractStridedSlice_apply _ _ _ _ (ix2 (0 : Fin 1) k) (fun a => by
      match a with
      | ⟨0, _⟩ => show (0 : Nat) = off 0 + 0; rw [h0]
      | ⟨1, _⟩ => show k.val = off 1 + 0; rw [h1]; rfl)

/-- At the ideal numbers the closing host operations are the specification's closing formula on the four totals. -/
theorem tail_ideal (s : (⟨S1x128, .f32⟩ : BufTy).Contents (Elt Ideal)) :
    tailOf (F := Ideal) s = Cert.EDT.closing (fun _ => s (ix2 (0 : Fin 1) (0 : Fin 128))) (fun _ => s (ix2 (0 : Fin 1) (1 : Fin 128)))
      (fun _ => s (ix2 (0 : Fin 1) (2 : Fin 128))) (fun _ => s (ix2 (0 : Fin 1) (3 : Fin 128))) := by
  unfold tailOf
  rw [totalAt_eq s _ _ 0 rfl rfl, totalAt_eq s _ _ 1 rfl rfl, totalAt_eq s _ _ 2 rfl rfl, totalAt_eq s _ _ 3 rfl rfl]
  rfl

end Cert.KernelIdeal.Whole

end
-- ==== Proof.WholeIdeal.lean ====
/-
  The whole run of @main: the batch-axis region, the distance-and-totals region, then the closing host
  operations.  The buffer contents at each boundary are a fold from the launch memory: a region leaves its arrays
  at what its write-backs fold to and every other buffer as entered; the host stretch leaves what its operations
  compute.  Each region is a segment over the thread state "every unscoped buffer at the boundary's contents, the
  generator register at some state, nothing owed", and the run's post reads every unscoped buffer at the last
  boundary's contents.
-/
import proofs.«112355_j59322088292653_1_alg».proof.Proof.MixIdeal
import proofs.«112355_j59322088292653_1_alg».proof.Proof.DistFrameIdeal
import proofs.«112355_j59322088292653_1_alg».proof.Proof.Gen.KernelIdeal.Launch
import proofs.«112355_j59322088292653_1_alg».proof.Proof.Gen.KernelIdeal.Regions
import proofs.«112355_j59322088292653_1_alg».proof.Proof.TailIdeal
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (the first region's entry). -/
abbrev E0 : Dev nD → Valuation τ sig (Elt F) := fun c b => m (c, b)
/-- The same read at the TensorCore's references (what the first region's proof data take). -/
abbrev U0 : (c : Dev nD) → (b : Ref sig .tc) → Buf (Elt F) ((c : Thread nD τ).loc b) := fun c b => E0 m c b
/-- After the first region: its arrays at what the pipeline leaves, every other buffer as entered. -/
def E1 (c : Dev nD) : Valuation τ sig (Elt F) :=
  Pipeline.withArrays spec0 c (E0 m c) fun w => (Mix.dat (U0 m) c).arrAt w cfg0.N
theorem E1_arr (c : Dev nD) (w : Fin cfg0.W) :
    E1 m c (Proc.devRef .tc (Pipeline.arrRef spec0 w)) = (Mix.dat (U0 m) c).arrAt w cfg0.N := by
  unfold E1; exact Pipeline.withArrays_arr spec0 launch0.win.arr_inj c _ _ w
theorem E1_of_ne (c : Dev nD) (b : Ref sig .tc) (hb : ∀ w, Pipeline.arrRef spec0 w ≠ b) :
    E1 m c (Proc.devRef .tc b) = E0 m c (Proc.devRef .tc b) := by
  unfold E1; exact Pipeline.withArrays_of_ne spec0 c _ _ b hb
/-- The same read at the TensorCore's references (the second region's entry contents). -/
abbrev U1 : (c : Dev nD) → (b : Ref sig .tc) → Buf (Elt F) ((c : Thread nD τ).loc b) := fun c b => E1 m c b
theorem arrs0 (c : Dev nD) (w : Fin cfg0.W) : (Mix.dat (U0 m) c).arrAt w cfg0.N = U1 m c (Pipeline.arrRef spec0 w) :=
  (E1_arr m c w).symm
theorem rest0 (c : Dev nD) : ∀ b, b ∉ Finset.univ.image (Pipeline.arrRef spec0) → U1 m c b = U0 m c b :=
  fun b hb => E1_of_ne m c b fun w e => hb (Finset.mem_image.mpr ⟨w, Finset.mem_univ _, e⟩)

/-- After the second region: its arrays at what the pipeline leaves, every other buffer as entered. -/
def E2 (c : Dev nD) : Valuation τ sig (Elt F) :=
  Pipeline.withArrays spec1 c (E1 m c) fun w => (Dist.dat (U1 m) c).arrAt w cfg1.N
theorem E2_arr (c : Dev nD) (w : Fin cfg1.W) :
    E2 m c (Proc.devRef .tc (Pipeline.arrRef spec1 w)) = (Dist.dat (U1 m) c).arrAt w cfg1.N := by
  unfold E2; exact Pipeline.withArrays_arr spec1 launch1.win.arr_inj c _ _ w
theorem E2_of_ne (c : Dev nD) (b : Ref sig .tc) (hb : ∀ w, Pipeline.arrRef spec1 w ≠ b) :
    E2 m c (Proc.devRef .tc b) = E1 m c (Proc.devRef .tc b) := by
  unfold E2; exact Pipeline.withArrays_of_ne spec1 c _ _ b hb
/-- The same read at the TensorCore's references (the second region's exit contents). -/
abbrev U2 : (c : Dev nD) → (b : Ref sig .tc) → Buf (Elt F) ((c : Thread nD τ).loc b) := fun c b => E2 m c b
theorem arrs1 (c : Dev nD) (w : Fin cfg1.W) : (Dist.dat (U1 m) c).arrAt w cfg1.N = U2 m c (Pipeline.arrRef spec1 w) :=
  (E2_arr m c w).symm
theorem rest1 (c : Dev nD) : ∀ b, b ∉ Finset.univ.image (Pipeline.arrRef spec1) → U2 m c b = U1 m c b :=
  fun b hb => E2_of_ne m c b fun w e => hb (Finset.mem_image.mpr ⟨w, Finset.mem_univ _, e⟩)

/-- After the closing host operations: the end of @main. -/
abbrev E3 : Dev nD → Valuation τ sig (Elt F) := fun c => StableHlo.after hostOps2 (E2 m c)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => Mix.dat (U0 m) c
  | ⟨1, _⟩ => fun c => Dist.dat (U1 m) c
abbrev 𝒱₀ : Variants := Variants.none
/-- No core owes another anything: no level is assigned. -/
abbrev noL : GSem nD τ sig → Finset Unit := fun _ => ∅
abbrev noLv : GSem nD τ sig → Unit → ℕ := fun _ _ => 0
/-- What rides beside the buffers through every segment: the core's generator register at some state and its
    `owes`, at nothing. -/
abbrev rider (c : Dev nD) : sProp 𝕄 := iprop((∃ r, prngReg c r) ∗ ∃ W, owes (c : Thread nD τ) (0 : CellTallies nD τ sig Unit) W)
/-- The thread state at a boundary: every unscoped buffer at the boundary's contents, beside the rider. -/
abbrev stateAt (W : Dev nD → Valuation τ sig (Elt F)) (c : Dev nD) : sProp 𝕄 :=
  iprop(StableHlo.held (c : Thread nD τ) (Pipeline.ucRefs τ sig) (W c) ∗ rider c)
/-- The closing host operations as a segment from the second region's exit contents. -/
abbrev tailSeg : Pipeline.HostSeg (Name := ℕ) (U := UR sig nD τ) (pcfgs (F := F)) defs₀ 𝒱₀ noL noLv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (E2 m) rider
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev lastState (c : Dev nD) : sProp 𝕄 := iprop(StableHlo.held (c : Thread nD τ) (Pipeline.ucRefs τ sig) (E3 m c) ∗ ∃ r, prngReg c r)

/-! ## The regions as segments -/

set_option backward.isDefEq.respectTransparency.types false in
/-- The first region over the thread state: entered from every unscoped buffer at `E0`, left at `E1`. -/
def reg0 : Pipeline.RegionSeg (pcfgs (F := F)) adm (pdats m) () defs₀ 𝒱₀ noL noLv 0 where
  win := launch0.win.to₀
  block_pos := launch0.block_pos
  stage_whole := launch0.stage_whole
  K := PEmpty
  osem k := k.elim
  ho := Pipeline.OwnSemFacts.none _
  hbody c := (Mix.body_obligation (U0 m) c).loose
  hwaits := Pipeline.hwaits_of_owed_zero _ _ _ _ noL noLv 0 fun _ _ => rfl
  pre c := stateAt (E0 m) c
  post c := stateAt (E1 m) c
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (arrs0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at `E1`, left at `E2`.  Its
    invariant is made from, and gives back, the scoped rest and the generator register. -/
def reg1 : Pipeline.RegionSeg (pcfgs (F := F)) adm (pdats m) () defs₀ 𝒱₀ noL noLv 1 where
  win := launch1.win.to₀
  block_pos := launch1.block_pos
  stage_whole := launch1.stage_whole
  K := PEmpty
  osem k := k.elim
  ho := Pipeline.OwnSemFacts.none _
  hbody c := (Dist.body_obligation (U1 m) c).loose
  hwaits := Pipeline.hwaits_of_owed_zero _ _ _ _ noL noLv 1 fun _ _ => rfl
  pre c := stateAt (E1 m) c
  post c := stateAt (E2 m) c
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Dist.phi_in (U1 m) c)
    unfold Pipeline.ΦA
    iintro ⟨Hp, -, Hr⟩
    isplitl [Hr]; · iexact Hr
    iexact Hp
  hout c := by
    rw [Pipeline.ownSems0_none]
    refine (Dist.phi_out (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (arrs1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's three segments in order: the two regions, then the closing host operations. -/
abbrev items : List (Pipeline.Seg (pcfgs (F := F)) adm (pdats m) () defs₀ 𝒱₀ noL noLv) :=
  [ .region (reg0 m), .region (reg1 m), .host (tailSeg m) ]
/-- @main is the run of the segments. -/
theorem main_run (c : Dev nD) : main (F := F) c = Pipeline.Seg.run (items m) :=
  main_segs adm (pdats m) () 𝒱₀ noL noLv (tailSeg m) (reg0 m) (reg1 m) rfl c

set_option backward.isDefEq.respectTransparency.types false in
/-- THE RUN: from any memory with zero counters, every weakly fair execution of @main on the TensorCores terminates,
    nothing faulting, and every final state has every unscoped buffer at the last boundary's contents `E3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = E3 m c b) :=
  Pipeline.θ_run_regions_kit (pcfgs (F := F)) adm (pdats m) () cellOf_inj emb₁ defs₀ 𝒱₀ noL noLv m ρ main (items m)
    (fun c Q => by rw [main_run m c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := stateAt (E0 m)) (Tₙ := lastState m)
    (hch := ⟨fun _ => .rfl, fun _ => .rfl, fun _ => .rfl, fun c => by
      show iprop(StableHlo.held (c : Thread nD τ) (Pipeline.ucRefs τ sig) (E3 m c) ∗ rider c)
        ⊢ iprop(lastState m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach noL noLv fun c => ?_
      rw [show unscopedBufs c (fun b => m ((c : Thread nD τ).loc b)) = StableHlo.held (c : Thread nD τ) (Pipeline.ucRefs τ sig) (E0 m c)
        from Pipeline.unscopedBufs_held c (E0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m c b)
    (hfin := fun c s' => by
      iintro ⟨⟨Hh, -⟩, HSI⟩
      unfold StableHlo.held
      imodintro
      iapply (pointsTo_read_all (Pipeline.ucRefs τ sig) (fun b => (((c : Thread nD τ)).1, b)) (E3 m c) s')
      isplitl [Hh] <;> iassumption)
    (hQ := fun s h c => h c)

/-! ## The arguments end as launched -/

/-- No host operation writes the score array, the second region only reads it, the first bypasses it. -/
theorem end_arg0 (c : Dev nD) : E3 m c (Proc.devRef .tc main_arg0) = m ((c : Thread nD τ).loc main_arg0) :=
  calc E3 m c (Proc.devRef .tc main_arg0)
    _ = E2 m c (Proc.devRef .tc main_arg0) := StableHlo.after_of_writes_sub hostOps2 _ hostOps2_writes (by decide)
    _ = E1 m c (Proc.devRef .tc main_arg0) := (E2_arr m c 1).trans (((Dist.dat (U1 m) c).arrAt_in 1 rfl _).trans (Dist.dat_A (U1 m) c 1))
    _ = E0 m c (Proc.devRef .tc main_arg0) := E1_of_ne m c main_arg0 (by decide)
    _ = m ((c : Thread nD τ).loc main_arg0) := rfl

/-- No host operation writes the label array and both regions only read it. -/
theorem end_arg1 (c : Dev nD) : E3 m c (Proc.devRef .tc main_arg1) = m ((c : Thread nD τ).loc main_arg1) :=
  calc E3 m c (Proc.devRef .tc main_arg1)
    _ = E2 m c (Proc.devRef .tc main_arg1) := StableHlo.after_of_writes_sub hostOps2 _ hostOps2_writes (by decide)
    _ = E1 m c (Proc.devRef .tc main_arg1) := (E2_arr m c 2).trans (((Dist.dat (U1 m) c).arrAt_in 2 rfl _).trans (Dist.dat_A (U1 m) c 2))
    _ = E0 m c (Proc.devRef .tc main_arg1) := (E1_arr m c 0).trans (((Mix.dat (U0 m) c).arrAt_in 0 rfl _).trans (Mix.dat_A (U0 m) c 0))
    _ = m ((c : Thread nD τ).loc main_arg1) := rfl

/-- THE FRAME: every final state has the argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (end_arg0 m c), (h c _ (mem_uc main_arg1 (by decide))).trans (end_arg1 m c)⟩)
    (run_all m ρ)

/-! ## The regions' outputs at the boundaries -/

/-- The cost array as the second region finds it: what the first region's write-back folds to. -/
theorem mid_v0 (c : Dev nD) : E1 m c (Proc.devRef .tc main_v0) = (Mix.dat (U0 m) c).arrAt 1 cfg0.N := E1_arr m c 1

/-- The totals array as the host operations find it: what the second region's write-back folds to. -/
theorem mid_v1 (c : Dev nD) : E2 m c (Proc.devRef .tc main_v1) = (Dist.dat (U1 m) c).arrAt 3 cfg1.N := E2_arr m c 3

/-- The result buffer at the end of @main: the closing host operations applied to the totals array as the second
    region leaves it. -/
theorem end_out (c : Dev nD) : E3 m c (Proc.devRef .tc main_v19) = tailOf (E2 m c (Proc.devRef .tc main_v1)) :=
  tail_after (E2 m c)

end Cert.KernelIdeal.Whole

end
-- ==== Proof.MixMath.lean ====
/-
  The arithmetic of one min-plus pass along an axis of eight positions: the float words the programs spell for the
  squared gaps, read as extended reals, and the left-nested chain of seven minima as the infimum over the axis.
-/
import proofs.«112355_j59322088292653_1_alg».proof.Proof.Spec

noncomputable section

namespace Cert.EDT

open Idealize.ShloMosaic

/-! ## The squared gaps' float words -/

theorem ofBits_sq0 : Ideal.ofBits .f32 0x00000000#32 = ((0 : ℝ) : EReal) := by
  simp [Ideal.ofBits, Ideal.ieee]
theorem ofBits_sq1 : Ideal.ofBits .f32 0x3F800000#32 = ((1 : ℝ) : EReal) := by
  simp [Ideal.ofBits, Ideal.ieee, -EReal.coe_mul]; norm_num
theorem ofBits_sq2 : Ideal.ofBits .f32 0x40800000#32 = ((4 : ℝ) : EReal) := by
  simp [Ideal.ofBits, Ideal.ieee, -EReal.coe_mul]; norm_num
theorem ofBits_sq3 : Ideal.ofBits .f32 0x41100000#32 = ((9 : ℝ) : EReal) := by
  simp [Ideal.ofBits, Ideal.ieee, -EReal.coe_mul]; norm_num
theorem ofBits_sq4 : Ideal.ofBits .f32 0x41800000#32 = ((16 : ℝ) : EReal) := by
  simp [Ideal.ofBits, Ideal.ieee, -EReal.coe_mul]; norm_num
theorem ofBits_sq5 : Ideal.ofBits .f32 0x41C80000#32 = ((25 : ℝ) : EReal) := by
  simp [Ideal.ofBits, Ideal.ieee, -EReal.coe_mul]; norm_num
theorem ofBits_sq6 : Ideal.ofBits .f32 0x42100000#32 = ((36 : ℝ) : EReal) := by
  simp [Ideal.ofBits, Ideal.ieee, -EReal.coe_mul]; norm_num
theorem ofBits_sq7 : Ideal.ofBits .f32 0x42440000#32 = ((49 : ℝ) : EReal) := by
  simp [Ideal.ofBits, Ideal.ieee, -EReal.coe_mul]; norm_num

/-- The distance `|i - j|` of two of the eight positions. -/
def gapAbs (i j : Fin 8) : Fin 8 := ⟨(i.val - j.val) + (j.val - i.val), by omega⟩

/-- The float word of `d * d`, `d = 0 … 7`. -/
def sqWord : Fin 8 → BitVec 32 :=
  ![0x00000000#32, 0x3F800000#32, 0x40800000#32, 0x41100000#32, 0x41800000#32, 0x41C80000#32, 0x42100000#32, 0x42440000#32]

/-- It denotes the real `d * d`. -/
theorem ofBits_sqWord (d : Fin 8) : Ideal.ofBits .f32 (sqWord d) = ((((d.val : ℤ) * (d.val : ℤ) : ℤ) : ℝ) : EReal) := by
  match d with
  | ⟨0, _⟩ => exact ofBits_sq0.trans (by norm_num)
  | ⟨1, _⟩ => exact ofBits_sq1.trans (by norm_num)
  | ⟨2, _⟩ => exact ofBits_sq2.trans (by norm_num)
  | ⟨3, _⟩ => exact ofBits_sq3.trans (by norm_num)
  | ⟨4, _⟩ => exact ofBits_sq4.trans (by norm_num)
  | ⟨5, _⟩ => exact ofBits_sq5.trans (by norm_num)
  | ⟨6, _⟩ => exact ofBits_sq6.trans (by norm_num)
  | ⟨7, _⟩ => exact ofBits_sq7.trans (by norm_num)

/-- The squared gap of two of the eight positions, as an integer: the 32-bit chain does not wrap. -/
theorem gap2_int (i j : Fin 8) :
    (IntOp.muli (IntOp.subi (BitVec.ofNat 32 i.val) (BitVec.ofNat 32 j.val))
      (IntOp.subi (BitVec.ofNat 32 i.val) (BitVec.ofNat 32 j.val))).toInt = ((gapAbs i j).val : ℤ) * ((gapAbs i j).val : ℤ) := by
  revert i j; decide

/-- The squared gap is what the float word of its distance denotes. -/
theorem gap2_eq_word (i j : Fin 8) : gap2 i j = Ideal.ofBits .f32 (sqWord (gapAbs i j)) := by
  unfold gap2; rw [gap2_int, ofBits_sqWord]

/-! ## Seven minima, left-nested, are the infimum over the eight positions -/

theorem inf_fin8 (x : Fin 8 → EReal) :
    Finset.univ.inf x = min (min (min (min (min (min (min (x 0) (x 1)) (x 2)) (x 3)) (x 4)) (x 5)) (x 6)) (x 7) := by
  apply le_antisymm
  · simp only [le_min_iff]
    refine ⟨⟨⟨⟨⟨⟨⟨?_, ?_⟩, ?_⟩, ?_⟩, ?_⟩, ?_⟩, ?_⟩, ?_⟩ <;> exact Finset.inf_le (Finset.mem_univ _)
  · refine Finset.le_inf fun j _ => ?_
    fin_cases j <;> simp [min_le_iff]

/-- One output position of the pass: the chain the programs spell, each term a cost plus the float word of a
    squared gap, is the infimum of cost plus squared gap over the axis. -/
theorem minPlus_row (i : Fin 8) (a : Fin 8 → EReal) :
    min (min (min (min (min (min (min
        (a 0 + Ideal.ofBits .f32 (sqWord (gapAbs i 0))) (a 1 + Ideal.ofBits .f32 (sqWord (gapAbs i 1))))
        (a 2 + Ideal.ofBits .f32 (sqWord (gapAbs i 2)))) (a 3 + Ideal.ofBits .f32 (sqWord (gapAbs i 3))))
        (a 4 + Ideal.ofBits .f32 (sqWord (gapAbs i 4)))) (a 5 + Ideal.ofBits .f32 (sqWord (gapAbs i 5))))
        (a 6 + Ideal.ofBits .f32 (sqWord (gapAbs i 6)))) (a 7 + Ideal.ofBits .f32 (sqWord (gapAbs i 7)))
      = Finset.univ.inf fun j : Fin 8 => a j + gap2 i j := by
  rw [inf_fin8]; simp only [gap2_eq_word]

end Cert.EDT

end
-- ==== Proof.MixValue.lean ====
/-
  The value of the first region at the ideal numbers: the stored block read at a position is the cost field after
  the min-plus pass along the batch axis, and the region's one block is the whole output array.
-/
import proofs.«112355_j59322088292653_1_alg».proof.Proof.MixIdeal
import proofs.«112355_j59322088292653_1_alg».proof.Proof.MixMath
import Idealize.ShloMosaic.Lib.Pipeline.Value
import Idealize.ShloMosaic.Lib.ValueLayout
import Idealize.ShloMosaic.Lib.ValueIdx

set_option maxRecDepth 16384

noncomputable section

namespace Cert.KernelIdeal.Mix

open Cert.KernelIdeal Cert.KernelIdeal.Gen
open Idealize.ShloMosaic Idealize.ShloMosaic.TcCoe Idealize.SL.Sem
open Idealize.ShloMosaic.ValueIdx
open Idealize.ShloMosaic.Pipeline (Dat)
open Cert.EDT

/-- The cost slice `j` of the loaded labels at a position is the cost field there. -/
theorem pay2_apply (y : SArg.Idx → BitVec 32) (j : Fin 8) (h w : Fin 256) :
    k0_pay2 (F := Ideal) y (ix4 j (0 : Fin 1) h w) = cost0 y j h w := rfl

theorem sl0_apply (y : SArg.Idx → BitVec 32) (h w : Fin 256) :
    sl0 (F := Ideal) y (ix3 (0 : Fin 1) h w) = cost0 y 0 h w := by
  unfold sl0 k0_pay3
  rw [shapeCast_1abc_abc_apply]
  exact extractStridedSlice_apply _ _ _ _ (ix4 (0 : Fin 8) (0 : Fin 1) h w) (fun a => by
    match a with
    | ⟨0, _⟩ => rfl
    | ⟨1, _⟩ => exact (Nat.zero_add _).symm
    | ⟨2, _⟩ => exact (Nat.zero_add _).symm
    | ⟨3, _⟩ => exact (Nat.zero_add _).symm)

theorem sl1_apply (y : SArg.Idx → BitVec 32) (h w : Fin 256) :
    sl1 (F := Ideal) y (ix3 (0 : Fin 1) h w) = cost0 y 1 h w := by
  unfold sl1 k0_pay4
  rw [shapeCast_1abc_abc_apply]
  exact extractStridedSlice_apply _ _ _ _ (ix4 (1 : Fin 8) (0 : Fin 1) h w) (fun a => by
    match a with
    | ⟨0, _⟩ => rfl
    | ⟨1, _⟩ => exact (Nat.zero_add _).symm
    | ⟨2, _⟩ => exact (Nat.zero_add _).symm
    | ⟨3, _⟩ => exact (Nat.zero_add _).symm)

theorem sl2_apply (y : SArg.Idx → BitVec 32) (h w : Fin 256) :
    sl2 (F := Ideal) y (ix3 (0 : Fin 1) h w) = cost0 y 2 h w := by
  unfold sl2 k0_pay5
  rw [shapeCast_1abc_abc_apply]
  exact extractStridedSlice_apply _ _ _ _ (ix4 (2 : Fin 8) (0 : Fin 1) h w) (fun a => by
    match a with
    | ⟨0, _⟩ => rfl
    | ⟨1, _⟩ => exact (Nat.zero_add _).symm
    | ⟨2, _⟩ => exact (Nat.zero_add _).symm
    | ⟨3, _⟩ => exact (Nat.zero_add _).symm)

theorem sl3_apply (y : SArg.Idx → BitVec 32) (h w : Fin 256) :
    sl3 (F := Ideal) y (ix3 (0 : Fin 1) h w) = cost0 y 3 h w := by
  unfold sl3 k0_pay6
  rw [shapeCast_1abc_abc_apply]
  exact extractStridedSlice_apply _ _ _ _ (ix4 (3 : Fin 8) (0 : Fin 1) h w) (fun a => by
    match a with
    | ⟨0, _⟩ => rfl
    | ⟨1, _⟩ => exact (Nat.zero_add _).symm
    | ⟨2, _⟩ => exact (Nat.zero_add _).symm
    | ⟨3, _⟩ => exact (Nat.zero_add _).symm)

theorem sl4_apply (y : SArg.Idx → BitVec 32) (h w : Fin 256) :
    sl4 (F := Ideal) y (ix3 (0 : Fin 1) h w) = cost0 y 4 h w := by
  unfold sl4 k0_pay7
  rw [shapeCast_1abc_abc_apply]
  exact extractStridedSlice_apply _ _ _ _ (ix4 (4 : Fin 8) (0 : Fin 1) h w) (fun a => by
    match a with
    | ⟨0, _⟩ => rfl
    | ⟨1, _⟩ => exact (Nat.zero_add _).symm
    | ⟨2, _⟩ => exact (Nat.zero_add _).symm
    | ⟨3, _⟩ => exact (Nat.zero_add _).symm)

theorem sl5_apply (y : SArg.Idx → BitVec 32) (h w : Fin 256) :
    sl5 (F := Ideal) y (ix3 (0 : Fin 1) h w) = cost0 y 5 h w := by
  unfold sl5 k0_pay8
  rw [shapeCast_1abc_abc_apply]
  exact extractStridedSlice_apply _ _ _ _ (ix4 (5 : Fin 8) (0 : Fin 1) h w) (fun a => by
    match a with
    | ⟨0, _⟩ => rfl
    | ⟨1, _⟩ => exact (Nat.zero_add _).symm
    | ⟨2, _⟩ => exact (Nat.zero_add _).symm
    | ⟨3, _⟩ => exact (Nat.zero_add _).symm)

theorem sl6_apply (y : SArg.Idx → BitVec 32) (h w : Fin 256) :
    sl6 (F := Ideal) y (ix3 (0 : Fin 1) h w) = cost0 y 6 h w := by
  unfold sl6 k0_pay9
  rw [shapeCast_1abc_abc_apply]
  exact extractStridedSlice_apply _ _ _ _ (ix4 (6 : Fin 8) (0 : Fin 1) h w) (fun a => by
    match a with
    | ⟨0, _⟩ => rfl
    | ⟨1, _⟩ => exact (Nat.zero_add _).symm
    | ⟨2, _⟩ => exact (Nat.zero_add _).symm
    | ⟨3, _⟩ => exact (Nat.zero_add _).symm)

theorem sl7_apply (y : SArg.Idx → BitVec 32) (h w : Fin 256) :
    sl7 (F := Ideal) y (ix3 (0 : Fin 1) h w) = cost0 y 7 h w := by
  unfold sl7 k0_pay10
  rw [shapeCast_1abc_abc_apply]
  exact extractStridedSlice_apply _ _ _ _ (ix4 (7 : Fin 8) (0 : Fin 1) h w) (fun a => by
    match a with
    | ⟨0, _⟩ => rfl
    | ⟨1, _⟩ => exact (Nat.zero_add _).symm
    | ⟨2, _⟩ => exact (Nat.zero_add _).symm
    | ⟨3, _⟩ => exact (Nat.zero_add _).symm)

/-- Eight unit slabs stacked along the batch axis, read at batch position `k`: slab `k` at the rest of the index. -/
theorem stack8_apply {α : Type} (x0 x1 x2 x3 x4 x5 x6 x7 : S1x1x256x256.Idx → α)
    (hc : Shape.Concatenates [S1x1x256x256, S1x1x256x256, S1x1x256x256, S1x1x256x256, S1x1x256x256, S1x1x256x256, S1x1x256x256, S1x1x256x256] S8x1x256x256 0)
    (k : Nat) (hk : k < 8) (xk : S1x1x256x256.Idx → α)
    (hxk : ([⟨S1x1x256x256, x0⟩, ⟨S1x1x256x256, x1⟩, ⟨S1x1x256x256, x2⟩, ⟨S1x1x256x256, x3⟩, ⟨S1x1x256x256, x4⟩, ⟨S1x1x256x256, x5⟩,
      ⟨S1x1x256x256, x6⟩, ⟨S1x1x256x256, x7⟩] : List ((s : Shape) × (s.Idx → α)))[k]'hk = ⟨S1x1x256x256, xk⟩)
    (h w : Fin 256) :
    concatenate S8x1x256x256 0 [⟨S1x1x256x256, x0⟩, ⟨S1x1x256x256, x1⟩, ⟨S1x1x256x256, x2⟩, ⟨S1x1x256x256, x3⟩, ⟨S1x1x256x256, x4⟩,
      ⟨S1x1x256x256, x5⟩, ⟨S1x1x256x256, x6⟩, ⟨S1x1x256x256, x7⟩] hc (ix4 (⟨k, hk⟩ : Fin 8) (0 : Fin 1) h w)
      = xk (ix4 (0 : Fin 1) (0 : Fin 1) h w) := by
  refine concatenate_apply_piece (t := S8x1x256x256) 0
    ([⟨S1x1x256x256, x0⟩, ⟨S1x1x256x256, x1⟩, ⟨S1x1x256x256, x2⟩, ⟨S1x1x256x256, x3⟩, ⟨S1x1x256x256, x4⟩, ⟨S1x1x256x256, x5⟩, ⟨S1x1x256x256, x6⟩, ⟨S1x1x256x256, x7⟩] : List ((s : Shape) × (s.Idx → α)))
    hc (ix4 (⟨k, hk⟩ : Fin 8) (0 : Fin 1) h w) k hk S1x1x256x256 xk hxk rfl k ?hpre
    (ix4 (0 : Fin 1) (0 : Fin 1) h w) ?hi rfl
  case hpre =>
    match k, hk with
    | 0, _ => rfl
    | 1, _ => rfl
    | 2, _ => rfl
    | 3, _ => rfl
    | 4, _ => rfl
    | 5, _ => rfl
    | 6, _ => rfl
    | 7, _ => rfl
  case hi =>
    intro b hb
    match b with
    | ⟨0, _⟩ => exact absurd rfl hb
    | ⟨1, _⟩ => rfl
    | ⟨2, _⟩ => rfl
    | ⟨3, _⟩ => rfl

theorem stored_row0 (y : SArg.Idx → BitVec 32) (h w : Fin 256) :
    stored (F := Ideal) y (ix4 (0 : Fin 8) (0 : Fin 1) h w) = cost1 y 0 h w := by
  unfold stored k0_pay1
  refine (stack8_apply _ _ _ _ _ _ _ _ _ 0 (by decide) _ rfl h w).trans ?_
  unfold k0_pay13 k0_pay11 k0_pay12
  rw [shapeCast_abc_1abc_apply]
  simp only [minimumf_apply, addf_apply, broadcast_apply, sl0_apply, sl1_apply, sl2_apply, sl3_apply, sl4_apply, sl5_apply, sl6_apply, sl7_apply]
  exact minPlus_row 0 (fun j => cost0 y j h w)

theorem stored_row1 (y : SArg.Idx → BitVec 32) (h w : Fin 256) :
    stored (F := Ideal) y (ix4 (1 : Fin 8) (0 : Fin 1) h w) = cost1 y 1 h w := by
  unfold stored k0_pay1
  refine (stack8_apply _ _ _ _ _ _ _ _ _ 1 (by decide) _ rfl h w).trans ?_
  unfold k0_pay14
  rw [shapeCast_abc_1abc_apply]
  simp only [minimumf_apply, addf_apply, broadcast_apply, sl0_apply, sl1_apply, sl2_apply, sl3_apply, sl4_apply, sl5_apply, sl6_apply, sl7_apply]
  exact minPlus_row 1 (fun j => cost0 y j h w)

theorem stored_row2 (y : SArg.Idx → BitVec 32) (h w : Fin 256) :
    stored (F := Ideal) y (ix4 (2 : Fin 8) (0 : Fin 1) h w) = cost1 y 2 h w := by
  unfold stored k0_pay1
  refine (stack8_apply _ _ _ _ _ _ _ _ _ 2 (by decide) _ rfl h w).trans ?_
  unfold k0_pay17 k0_pay15 k0_pay16
  rw [shapeCast_abc_1abc_apply]
  simp only [minimumf_apply, addf_apply, broadcast_apply, sl0_apply, sl1_apply, sl2_apply, sl3_apply, sl4_apply, sl5_apply, sl6_apply, sl7_apply]
  exact minPlus_row 2 (fun j => cost0 y j h w)

theorem stored_row3 (y : SArg.Idx → BitVec 32) (h w : Fin 256) :
    stored (F := Ideal) y (ix4 (3 : Fin 8) (0 : Fin 1) h w) = cost1 y 3 h w := by
  unfold stored k0_pay1
  refine (stack8_apply _ _ _ _ _ _ _ _ _ 3 (by decide) _ rfl h w).trans ?_
  unfold k0_pay18
  rw [shapeCast_abc_1abc_apply]
  simp only [minimumf_apply, addf_apply, broadcast_apply, sl0_apply, sl1_apply, sl2_apply, sl3_apply, sl4_apply, sl5_apply, sl6_apply, sl7_apply]
  exact minPlus_row 3 (fun j => cost0 y j h w)

theorem stored_row4 (y : SArg.Idx → BitVec 32) (h w : Fin 256) :
    stored (F := Ideal) y (ix4 (4 : Fin 8) (0 : Fin 1) h w) = cost1 y 4 h w := by
  unfold stored k0_pay1
  refine (stack8_apply _ _ _ _ _ _ _ _ _ 4 (by decide) _ rfl h w).trans ?_
  unfold k0_pay21 k0_pay19 k0_pay20
  rw [shapeCast_abc_1abc_apply]
  simp only [minimumf_apply, addf_apply, broadcast_apply, sl0_apply, sl1_apply, sl2_apply, sl3_apply, sl4_apply, sl5_apply, sl6_apply, sl7_apply]
  exact minPlus_row 4 (fun j => cost0 y j h w)

theorem stored_row5 (y : SArg.Idx → BitVec 32) (h w : Fin 256) :
    stored (F := Ideal) y (ix4 (5 : Fin 8) (0 : Fin 1) h w) = cost1 y 5 h w := by
  unfold stored k0_pay1
  refine (stack8_apply _ _ _ _ _ _ _ _ _ 5 (by decide) _ rfl h w).trans ?_
  unfold k0_pay22
  rw [shapeCast_abc_1abc_apply]
  simp only [minimumf_apply, addf_apply, broadcast_apply, sl0_apply, sl1_apply, sl2_apply, sl3_apply, sl4_apply, sl5_apply, sl6_apply, sl7_apply]
  exact minPlus_row 5 (fun j => cost0 y j h w)

theorem stored_row6 (y : SArg.Idx → BitVec 32) (h w : Fin 256) :
    stored (F := Ideal) y (ix4 (6 : Fin 8) (0 : Fin 1) h w) = cost1 y 6 h w := by
  unfold stored k0_pay1
  refine (stack8_apply _ _ _ _ _ _ _ _ _ 6 (by decide) _ rfl h w).trans ?_
  unfold k0_pay23 k0_pay24
  rw [shapeCast_abc_1abc_apply]
  simp only [minimumf_apply, addf_apply, broadcast_apply, sl0_apply, sl1_apply, sl2_apply, sl3_apply, sl4_apply, sl5_apply, sl6_apply, sl7_apply]
  exact minPlus_row 6 (fun j => cost0 y j h w)

theorem stored_row7 (y : SArg.Idx → BitVec 32) (h w : Fin 256) :
    stored (F := Ideal) y (ix4 (7 : Fin 8) (0 : Fin 1) h w) = cost1 y 7 h w := by
  unfold stored k0_pay1
  refine (stack8_apply _ _ _ _ _ _ _ _ _ 7 (by decide) _ rfl h w).trans ?_

  rw [shapeCast_abc_1abc_apply]
  simp only [minimumf_apply, addf_apply, broadcast_apply, sl0_apply, sl1_apply, sl2_apply, sl3_apply, sl4_apply, sl5_apply, sl6_apply, sl7_apply]
  exact minPlus_row 7 (fun j => cost0 y j h w)

/-- The stored value at any position is the cost field after the pass along the batch axis. -/
theorem stored_apply (y : SArg.Idx → BitVec 32) (b : Fin 8) (h w : Fin 256) :
    stored (F := Ideal) y (ix4 b (0 : Fin 1) h w) = cost1 y b h w := by
  match b with
  | ⟨0, _⟩ => exact stored_row0 y h w
  | ⟨1, _⟩ => exact stored_row1 y h w
  | ⟨2, _⟩ => exact stored_row2 y h w
  | ⟨3, _⟩ => exact stored_row3 y h w
  | ⟨4, _⟩ => exact stored_row4 y h w
  | ⟨5, _⟩ => exact stored_row5 y h w
  | ⟨6, _⟩ => exact stored_row6 y h w
  | ⟨7, _⟩ => exact stored_row7 y h w

/-! ## From the one block to the array -/

section Array
variable {F : FTy → Type} [FloatOps F]
variable (V : (c : Dev nD) → (b : Ref sig .tc) → Buf (Elt F) ((c : Thread nD τ).loc b))

theorem hz4 : (![0, 0, 0, 0] : Fin 4 → Nat) = fun _ => 0 := funext fun a => by fin_cases a <;> rfl

/-- The one store through the whole-block rectangle leaves the stored value of the loaded block. -/
theorem out_eq (x0 : Vec F S8x1x256x256 .i32) : out x0 = stored x0 := by
  unfold out
  rw [View.canon_unit_zero hz4, View.ld_unit_zero (S := S8x1x256x256) hz4]

/-- The grid's one point's input block is the label array. -/
theorem iblk_in (c : Dev nD) : iblk V c 0 t0_0 = V c main_arg1 := by
  have hz' : (fun a => win0_0.index t0_0 a * main_arg1.ty.shape.size a) = fun _ => 0 := funext fun a => by fin_cases a <;> decide
  exact Memref.read_access_unit_zero (Elt F) main_arg1 hz' (fun a => by rw [congrFun hz' a]; simp) (V c main_arg1)

/-- The one write-back writes the stored value of the label array. -/
theorem flushed_eq (c : Dev nD) (t : Fin cfg0.N) (hf : (cfg0.win 1).flush t = true) :
    (dat V c).flushed 1 t = ((cfg0.win 1).blk t).view.read (Elt F) (stored (V c main_arg1)) := by
  obtain rfl : t = t0_0 := fin_N0 t
  show (cfg0.win 1).cut (grid0.coords t0_0) ((dat V c).after 1 t0_0) = _
  rw [after_1, out_eq, iblk_in]
  have hz' : (fun a => win0_1.index t0_0 a * main_v0.ty.shape.size a) = fun _ => 0 := funext fun a => by fin_cases a <;> decide
  exact (Memref.read_access_unit_zero (Elt F) main_v0 hz' (fun a => by rw [congrFun hz' a]; simp) (stored (V c main_arg1))).symm

/-- So the output array ends holding the stored value of the label array: the one block covers it. -/
theorem final (c : Dev nD) : (dat V c).arrAt 1 cfg0.N = stored (V c main_arg1) :=
  (dat V c).arrAt_eq_of_cover 1 (stored (V c main_arg1)) (flushed_eq V c) fun i =>
    ⟨t0_0, flush0_1 t0_0, by
      show i ∈ ((View.whole main_v0).slice (win0_1.rect t0_0)).set
      rw [View.set_slice_whole, Rect.mem_set_unit]
      intro a
      have h0 : (i 0 : Nat) < 8 := (i 0).isLt
      have h1 : (i 1 : Nat) < 1 := (i 1).isLt
      have h2 : (i 2 : Nat) < 256 := (i 2).isLt
      have h3 : (i 3 : Nat) < 256 := (i 3).isLt
      match a with
      | ⟨0, _⟩ => show win0_1.index t0_0 0 * win0_1.size 0 ≤ (i 0 : Nat) ∧ (i 0 : Nat) < win0_1.index t0_0 0 * win0_1.size 0 + win0_1.xsize (grid0.coords t0_0) 0
                  rw [show win0_1.index t0_0 0 * win0_1.size 0 = 0 from by decide +kernel, show win0_1.xsize (grid0.coords t0_0) 0 = 8 from by decide +kernel]; omega
      | ⟨1, _⟩ => show win0_1.index t0_0 1 * win0_1.size 1 ≤ (i 1 : Nat) ∧ (i 1 : Nat) < win0_1.index t0_0 1 * win0_1.size 1 + win0_1.xsize (grid0.coords t0_0) 1
                  rw [show win0_1.index t0_0 1 * win0_1.size 1 = 0 from by decide +kernel, show win0_1.xsize (grid0.coords t0_0) 1 = 1 from by decide +kernel]; omega
      | ⟨2, _⟩ => show win0_1.index t0_0 2 * win0_1.size 2 ≤ (i 2 : Nat) ∧ (i 2 : Nat) < win0_1.index t0_0 2 * win0_1.size 2 + win0_1.xsize (grid0.coords t0_0) 2
                  rw [show win0_1.index t0_0 2 * win0_1.size 2 = 0 from by decide +kernel, show win0_1.xsize (grid0.coords t0_0) 2 = 256 from by decide +kernel]; omega
      | ⟨3, _⟩ => show win0_1.index t0_0 3 * win0_1.size 3 ≤ (i 3 : Nat) ∧ (i 3 : Nat) < win0_1.index t0_0 3 * win0_1.size 3 + win0_1.xsize (grid0.coords t0_0) 3
                  rw [show win0_1.index t0_0 3 * win0_1.size 3 = 0 from by decide +kernel, show win0_1.xsize (grid0.coords t0_0) 3 = 256 from by decide +kernel]; omega⟩

end Array

/-- THE REGION'S VALUE: the output array after the region is the label array's cost field after the pass along
    the batch axis. -/
theorem value (V : (c : Dev nD) → (b : Ref sig .tc) → Buf (Elt Ideal) ((c : Thread nD τ).loc b)) (c : Dev nD) (b : Fin 8) (h w : Fin 256) :
    ((dat (F := Ideal) V c).arrAt 1 cfg0.N : SArg.Idx → EReal) (ix4 b (0 : Fin 1) h w) = cost1 (V c main_arg1) b h w := by
  rw [final]
  exact stored_apply (V c main_arg1) b h w

end Cert.KernelIdeal.Mix

end
-- ==== Proof.DistFinalIdeal.lean ====
/-
  The second region's result array and its input blocks.  The result window's one block is the whole [1, 128]
  array and is written back at the last point only, so the array ends holding the accumulator after the last
  point; an input window's block at point `b` is batch element `b` of its array.
-/
import proofs.«112355_j59322088292653_1_alg».proof.Proof.DistFrameIdeal
import Idealize.ShloMosaic.Lib.Pipeline.Value
import Idealize.ShloMosaic.Lib.ValueIdx

set_option maxRecDepth 16384

noncomputable section

namespace Cert.KernelIdeal.Dist

open Cert.KernelIdeal Cert.KernelIdeal.Gen
open Idealize.ShloMosaic Idealize.ShloMosaic.TcCoe Idealize.SL.Sem
open Idealize.ShloMosaic.ValueIdx
open Idealize.ShloMosaic.Pipeline (Dat)

variable {F : FTy → Type} [FloatOps F]
variable (V : (c : Dev nD) → (b : Ref sig .tc) → Buf (Elt F) ((c : Thread nD τ).loc b))

/-! ## The result array -/

/-- The only point that writes the result back is the last one. -/
theorem flush_last (t : Fin cfg1.N) (hf : (cfg1.win 3).flush t = true) : t = t1_7 := by
  have h := (flush1_3 t).mp hf
  have hN : t.val < 8 := lt_of_lt_of_eq t.isLt pts
  exact Fin.ext (show t.val = 7 by omega)

/-- What the last point writes back is the accumulator after it, as the one block of the result array. -/
theorem flushed_eq (c : Dev nD) (t : Fin cfg1.N) (hf : (cfg1.win 3).flush t = true) :
    (dat V c).flushed 3 t = ((cfg1.win 3).blk t).view.read (Elt F) (accAt V c 7) := by
  obtain rfl : t = t1_7 := flush_last t hf
  show (cfg1.win 3).cut (grid1.coords t1_7) ((dat V c).after 3 t1_7) = _
  rw [after_3]
  have hz' : (fun a => win1_3.index t1_7 a * main_v1.ty.shape.size a) = fun _ => 0 := funext fun a => by fin_cases a <;> decide
  exact (Memref.read_access_unit_zero (Elt F) main_v1 hz' (fun a => by rw [congrFun hz' a]; simp) (accAt V c 7)).symm

/-- So the result array ends holding the accumulator after the last point: the one block covers it. -/
theorem final (c : Dev nD) : (dat V c).arrAt 3 cfg1.N = accAt V c 7 :=
  (dat V c).arrAt_eq_of_cover 3 (accAt V c 7) (flushed_eq V c) fun i =>
    ⟨t1_7, (flush1_3 t1_7).mpr rfl, by
      show i ∈ ((View.whole main_v1).slice (win1_3.rect t1_7)).set
      rw [View.set_slice_whole, Rect.mem_set_unit]
      intro a
      have h0 : (i 0 : Nat) < 1 := (i 0).isLt
      have h1 : (i 1 : Nat) < 128 := (i 1).isLt
      match a with
      | ⟨0, _⟩ => show win1_3.index t1_7 0 * win1_3.size 0 ≤ (i 0 : Nat) ∧ (i 0 : Nat) < win1_3.index t1_7 0 * win1_3.size 0 + win1_3.xsize (grid1.coords t1_7) 0
                  rw [show win1_3.index t1_7 0 * win1_3.size 0 = 0 from by decide +kernel, show win1_3.xsize (grid1.coords t1_7) 0 = 1 from by decide +kernel]; omega
      | ⟨1, _⟩ => show win1_3.index t1_7 1 * win1_3.size 1 ≤ (i 1 : Nat) ∧ (i 1 : Nat) < win1_3.index t1_7 1 * win1_3.size 1 + win1_3.xsize (grid1.coords t1_7) 1
                  rw [show win1_3.index t1_7 1 * win1_3.size 1 = 0 from by decide +kernel, show win1_3.xsize (grid1.coords t1_7) 1 = 128 from by decide +kernel]; omega⟩

/-! ## The input blocks -/

/-- The three input windows' index maps, decided over the grid: point `t` takes batch element `t`, whole. -/
theorem idx_in : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)

theorem pt_fin (b : Fin 8) : (pt b.val).val = b.val := Nat.mod_eq_of_lt b.isLt

/-- The cost block of point `b` at `(0, 0, h, w)` is the first region's output at `(b, 0, h, w)`. -/
theorem blkP_apply (c : Dev nD) (b : Fin 8) (h w : Fin 256) :
    blkP V c b.val (ix4 (0 : Fin 1) (0 : Fin 1) h w)
      = (V c main_v0 : S8x1x256x256.Idx → Elt F .f32) (ix4 b (0 : Fin 1) h w) := by
  obtain ⟨e0, e1, e2, e3, -⟩ := idx_in (pt b.val)
  have hb := pt_fin b
  show V c main_v0 (((cfg1.win 0).blk (pt b.val)).view.emb (ix4 (0 : Fin 1) (0 : Fin 1) h w)) = _
  refine congrArg (V c main_v0) (funext fun a => Fin.ext ?_)
  match a with
  | ⟨0, _⟩ => show win1_0.index (pt b.val) (0 : Fin 4) * 1 + 1 * 0 = b.val; omega
  | ⟨1, _⟩ => show win1_0.index (pt b.val) (1 : Fin 4) * 1 + 1 * 0 = 0; omega
  | ⟨2, _⟩ => show win1_0.index (pt b.val) (2 : Fin 4) * 256 + 1 * h.val = h.val; omega
  | ⟨3, _⟩ => show win1_0.index (pt b.val) (3 : Fin 4) * 256 + 1 * w.val = w.val; omega

/-- The score block of point `b` at `(0, 0, h, w)` is the score array at `(b, 0, h, w)`. -/
theorem blkX_apply (c : Dev nD) (b : Fin 8) (h w : Fin 256) :
    blkX V c b.val (ix4 (0 : Fin 1) (0 : Fin 1) h w)
      = (V c main_arg0 : S8x1x256x256.Idx → Elt F .f32) (ix4 b (0 : Fin 1) h w) := by
  obtain ⟨-, -, -, -, e0, e1, e2, e3, -⟩ := idx_in (pt b.val)
  have hb := pt_fin b
  show V c main_arg0 (((cfg1.win 1).blk (pt b.val)).view.emb (ix4 (0 : Fin 1) (0 : Fin 1) h w)) = _
  refine congrArg (V c main_arg0) (funext fun a => Fin.ext ?_)
  match a with
  | ⟨0, _⟩ => show win1_1.index (pt b.val) (0 : Fin 4) * 1 + 1 * 0 = b.val; omega
  | ⟨1, _⟩ => show win1_1.index (pt b.val) (1 : Fin 4) * 1 + 1 * 0 = 0; omega
  | ⟨2, _⟩ => show win1_1.index (pt b.val) (2 : Fin 4) * 256 + 1 * h.val = h.val; omega
  | ⟨3, _⟩ => show win1_1.index (pt b.val) (3 : Fin 4) * 256 + 1 * w.val = w.val; omega

/-- The label block of point `b` at `(0, 0, h, w)` is the label array at `(b, 0, h, w)`. -/
theorem blkY_apply (c : Dev nD) (b : Fin 8) (h w : Fin 256) :
    blkY V c b.val (ix4 (0 : Fin 1) (0 : Fin 1) h w)
      = (V c main_arg1 : S8x1x256x256.Idx → Elt F .i32) (ix4 b (0 : Fin 1) h w) := by
  obtain ⟨-, -, -, -, -, -, -, -, e0, e1, e2, e3⟩ := idx_in (pt b.val)
  have hb := pt_fin b
  show V c main_arg1 (((cfg1.win 2).blk (pt b.val)).view.emb (ix4 (0 : Fin 1) (0 : Fin 1) h w)) = _
  refine congrArg (V c main_arg1) (funext fun a => Fin.ext ?_)
  match a with
  | ⟨0, _⟩ => show win1_2.index (pt b.val) (0 : Fin 4) * 1 + 1 * 0 = b.val; omega
  | ⟨1, _⟩ => show win1_2.index (pt b.val) (1 : Fin 4) * 1 + 1 * 0 = 0; omega
  | ⟨2, _⟩ => show win1_2.index (pt b.val) (2 : Fin 4) * 256 + 1 * h.val = h.val; omega
  | ⟨3, _⟩ => show win1_2.index (pt b.val) (3 : Fin 4) * 256 + 1 * w.val = w.val; omega

end Cert.KernelIdeal.Dist

end
-- ==== Proof.DistValGap.lean ====
/-
  The gap matrix at an index: the two coordinate ramps, their difference squared in 32-bit integers, read signed.
-/
import proofs.«112355_j59322088292653_1_alg».proof.Proof.DistDefsIdeal
import proofs.«112355_j59322088292653_1_alg».proof.Proof.Spec
import Idealize.ShloMosaic.Lib.ValueLayout
import Idealize.ShloMosaic.Lib.Pipeline.Value

noncomputable section

namespace Cert.KernelIdeal.DistValue

open Idealize.ShloMosaic Idealize.ShloMosaic.ValueIdx
open Cert.KernelIdeal Cert.KernelIdeal.Gen Cert.KernelIdeal.Dist

/-- The row ramp, spread over the columns, reads the row coordinate. -/
theorem rowRamp_apply (i j : Fin 256) :
    broadcastTo S256x256 (iota .tc S256x1 32 [0] iota_S256x1_d0_w32) broadcasts_S256x1_S256x256 (ix2 i j) = BitVec.ofNat 32 i.val := by
  refine (broadcastTo_apply _ _ (ix2 i j) (ix2 i (0 : Fin 1)) fun a => ?_).trans (iota_single_apply _ _ _ _ _ _)
  match a with
  | ⟨0, _⟩ => rfl
  | ⟨1, _⟩ => rfl

/-- The column ramp, spread over the rows, reads the column coordinate. -/
theorem colRamp_apply (i j : Fin 256) :
    broadcastTo S256x256 (iota .tc S1x256 32 [1] iota_S1x256_d1_w32) broadcasts_S1x256_S256x256 (ix2 i j) = BitVec.ofNat 32 j.val := by
  refine (broadcastTo_apply _ _ (ix2 i j) (ix2 (0 : Fin 1) j) fun a => ?_).trans (iota_single_apply _ _ _ _ _ _)
  match a with
  | ⟨0, _⟩ => rfl
  | ⟨1, _⟩ => rfl

/-- The gap matrix at `(i, j)` is the squared gap of the two positions. -/
theorem gapM_apply (i j : Fin 256) : gapM (F := Ideal) (ix2 i j) = Cert.EDT.gap2 i j := by
  unfold gapM k1_pay3
  simp only []
  rw [shapeCast_self, sitofp_apply]
  show FloatOps.sitofp (F := Ideal) .f32 (IntOp.muli (IntOp.subi (broadcastTo S256x256 (iota .tc S256x1 32 [0] iota_S256x1_d0_w32) broadcasts_S256x1_S256x256 (ix2 i j)) (broadcastTo S256x256 (iota .tc S1x256 32 [1] iota_S1x256_d1_w32) broadcasts_S1x256_S256x256 (ix2 i j))) (IntOp.subi (broadcastTo S256x256 (iota .tc S256x1 32 [0] iota_S256x1_d0_w32) broadcasts_S256x1_S256x256 (ix2 i j)) (broadcastTo S256x256 (iota .tc S1x256 32 [1] iota_S1x256_d1_w32) broadcasts_S1x256_S256x256 (ix2 i j)))) = _
  rw [rowRamp_apply, colRamp_apply]
  rfl

end Cert.KernelIdeal.DistValue

end
-- ==== Proof.DistValBand.lean ====
/-
  One eight-row band of a min-plus pass at an index: the minimum over the contracted position of the band's gap row
  plus the plane's entry.
-/
import proofs.«112355_j59322088292653_1_alg».proof.Proof.DistDefsIdeal
import Idealize.ShloMosaic.Lib.ValueLayout
import Idealize.ShloMosaic.Lib.Pipeline.Value
import Idealize.ShloMosaic.PureOps.Ideal.Laws

noncomputable section

namespace Cert.KernelIdeal.DistValue

open Idealize.ShloMosaic Idealize.ShloMosaic.ValueIdx
open Cert.KernelIdeal Cert.KernelIdeal.Gen Cert.KernelIdeal.Dist

/-- The word of the minimum's neutral element is the top of the extended reals. -/
theorem ofBits_posInf : Ideal.ofBits .f32 0x7F800000#32 = ⊤ := by simp [Ideal.ofBits, Ideal.ieee]

/-- A minimum over one axis, read at an index: the fold of `min` from the accumulator's value over that axis's coordinates. -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The band's minimum over its last axis at `(r, w)`: the infimum over the contracted position `k` of the source at `(r, w, k)`. -/
theorem minLast_apply (src : FVec Ideal S8x256x256 .f32) (r : Fin 8) (w : Fin 256) :
    multiReduction .minimumf [2] S8x256 src 0x7F800000#32 reduces_S8x256x256_S8x256 (.inl rfl) rfl (ix2 r w)
      = Finset.univ.inf fun k : Fin 256 => src (ix3 r w k) := by
  refine (multiReduction_minimumf_single src _ _ _ _ _).trans ?_
  rw [Ideal.ofBits_def, ofBits_posInf]
  show Finset.univ.inf _ = _
  refine Finset.inf_congr rfl fun k _ => ?_
  show src _ = src _
  congr 1
  funext c
  match c with
  | ⟨0, _⟩ => exact Fin.ext rfl
  | ⟨1, _⟩ => exact Fin.ext rfl
  | ⟨2, _⟩ => exact Fin.ext rfl

/-- The band's gap rows, given a unit middle axis and spread over the plane's columns, read the gap row at `(r, k)`. -/
theorem gapRows_apply (v : Vec Ideal S8x256 .f32) (r : Fin 8) (w k : Fin 256) :
    broadcastTo S8x256x256 (shapeCast S8x1x256 v shapeCasts_S8x256_S8x1x256) broadcasts_S8x1x256_S8x256x256 (ix3 r w k) = v (ix2 r k) := by
  refine (broadcastTo_apply _ _ (ix3 r w k) (ix3 r (0 : Fin 1) k) fun a => ?_).trans ?_
  · match a with
    | ⟨0, _⟩ => rfl
    | ⟨1, _⟩ => rfl
    | ⟨2, _⟩ => rfl
  · refine shapeCast_apply _ _ _ _ ?_
    rw [Shape.rowMajor_val_two, Shape.rowMajor_val_three]
    show r.val * 256 + k.val = (r.val * 1 + 0) * 256 + k.val
    omega

/-- A plane given a leading unit axis and spread over the band's eight rows reads the plane at `(w, k)`. -/
theorem planeRows_apply (q : Vec Ideal S256x256 .f32) (r : Fin 8) (w k : Fin 256) :
    broadcastTo S8x256x256 (shapeCast S1x256x256 q shapeCasts_S256x256_S1x256x256) broadcasts_S1x256x256_S8x256x256 (ix3 r w k) = q (ix2 w k) := by
  refine (broadcastTo_apply _ _ (ix3 r w k) (ix3 (0 : Fin 1) w k) fun a => ?_).trans (shapeCast_ab_1ab_apply _ _ _ _ _)
  match a with
  | ⟨0, _⟩ => rfl
  | ⟨1, _⟩ => rfl
  | ⟨2, _⟩ => rfl

/-- A `[1, 1, 256, 256]` block viewed as its plane reads, at `(h, w)`, the block at `(0, 0, h, w)`. -/
theorem plane_apply {α : Type} (x : S1x1x256x256.Idx → α) (h w : Fin 256) :
    shapeCast S256x256 x shapeCasts_S1x1x256x256_S256x256 (ix2 h w) = x (ix4 (0 : Fin 1) (0 : Fin 1) h w) := by
  refine shapeCast_apply _ _ _ _ ?_
  rw [Shape.rowMajor_val_two, Shape.rowMajor_val_four]
  show ((0 * 1 + 0) * 256 + h.val) * 256 + w.val = h.val * 256 + w.val
  omega

/-- A band of the height pass at `(r, w)`: the minimum over `k` of the band's gap row at `k` plus the cost plane at `(k, w)`. -/
theorem heightBand_apply (p : Vec Ideal S1x1x256x256 .f32) (v : Vec Ideal S8x256 .f32) (r : Fin 8) (w : Fin 256) :
    k1_pay6 (F := Ideal) p v (ix2 r w)
      = Finset.univ.inf fun k : Fin 256 => v (ix2 r k) + p (ix4 (0 : Fin 1) (0 : Fin 1) k w) := by
  unfold k1_pay6
  simp only []
  rw [shapeCast_self, minLast_apply]
  refine Finset.inf_congr rfl fun k _ => ?_
  rw [addf_apply, gapRows_apply, planeRows_apply, transpose_ix2_apply, plane_apply, shapeCast_self]

/-- A band of the width pass at `(r, w)`: the minimum over `k` of the band's gap row at `k` plus the plane at `(w, k)`. -/
theorem widthBand_apply (q : Vec Ideal S256x256 .f32) (v : Vec Ideal S8x256 .f32) (r : Fin 8) (w : Fin 256) :
    k1_pay7 (F := Ideal) q v (ix2 r w)
      = Finset.univ.inf fun k : Fin 256 => v (ix2 r k) + q (ix2 w k) := by
  unfold k1_pay7
  simp only []
  rw [shapeCast_self, minLast_apply]
  refine Finset.inf_congr rfl fun k _ => ?_
  rw [addf_apply, gapRows_apply, planeRows_apply, transpose_ix2_apply, transpose_ix2_apply]

end Cert.KernelIdeal.DistValue

end
-- ==== Proof.DistValPass.lean ====
/-
  The two min-plus passes as functions of the index: the thirty-two band stores of a pass leave, at every row,
  the minimum over the contracted position of the gap plus the plane.
-/
import proofs.«112355_j59322088292653_1_alg».proof.Proof.DistValGap
import proofs.«112355_j59322088292653_1_alg».proof.Proof.DistValBand

noncomputable section

namespace Cert.KernelIdeal.DistValue

open Idealize.ShloMosaic Idealize.ShloMosaic.ValueIdx
open Cert.KernelIdeal Cert.KernelIdeal.Gen Cert.KernelIdeal.Dist

/-- The height pass's loop makes thirty-two trips, and so does the width pass's. -/
theorem trips1 : k1_t1_loop.trips = 32 := by decide
theorem trips2 : k1_t2_loop.trips = 32 := by decide

/-- The height pass's value at `(h, w)` over a gap matrix `g` and a cost block `p`. -/
def heightMin (g : Vec Ideal S256x256 .f32) (p : Vec Ideal S1x1x256x256 .f32) (h w : Fin 256) : EReal :=
  Finset.univ.inf fun k : Fin 256 => g (ix2 h k) + p (ix4 (0 : Fin 1) (0 : Fin 1) k w)

/-- The width pass's value at `(w, h)` over a gap matrix `g` and a plane `q`. -/
def widthMin (g q : Vec Ideal S256x256 .f32) (w h : Fin 256) : EReal :=
  Finset.univ.inf fun k : Fin 256 => g (ix2 w k) + q (ix2 h k)

/-- Band `k`'s row `r`, column `c` sits at row `8 k + r`, column `c` of the matrix. -/
theorem band1_idx (k : Fin k1_t1_loop.trips) (r : Fin 8) (c : Fin 256) :
    (band1 k).idx (ix2 r c) = ix2 (⟨8 * k.val + r.val, by have hk := k.isLt; have e := trips1; omega⟩ : Fin 256) c := by
  funext a
  match a with
  | ⟨0, _⟩ =>
    refine Fin.ext ?_
    show k1_off1 k 0 + 1 * r.val = 8 * k.val + r.val
    rw [k1_off1_eq]; show 8 * k.val + 1 * r.val = _; omega
  | ⟨1, _⟩ =>
    refine Fin.ext ?_
    show k1_off1 k 1 + 1 * c.val = c.val
    rw [k1_off1_eq]; show 0 + 1 * c.val = _; omega

theorem band2_idx (k : Fin k1_t2_loop.trips) (r : Fin 8) (c : Fin 256) :
    (band2 k).idx (ix2 r c) = ix2 (⟨8 * k.val + r.val, by have hk := k.isLt; have e := trips2; omega⟩ : Fin 256) c := by
  funext a
  match a with
  | ⟨0, _⟩ =>
    refine Fin.ext ?_
    show k1_off2 k 0 + 1 * r.val = 8 * k.val + r.val
    rw [k1_off2_eq]; show 8 * k.val + 1 * r.val = _; omega
  | ⟨1, _⟩ =>
    refine Fin.ext ?_
    show k1_off2 k 1 + 1 * c.val = c.val
    rw [k1_off2_eq]; show 0 + 1 * c.val = _; omega

/-- One band store of the height pass is a block of the one function `heightMin g p`. -/
theorem band1_piece (g : Vec Ideal S256x256 .f32) (p : Vec Ideal S1x1x256x256 .f32) (k : Fin k1_t1_loop.trips)
    (x : (band1 k).shape.Idx) :
    k1_pay6 (F := Ideal) p (View.ld g (band1 k)) x = (fun y : S256x256.Idx => heightMin g p (y 0) (y 1)) ((band1 k).emb x) := by
  obtain ⟨r, c, rfl⟩ : ∃ (r : Fin 8) (c : Fin 256), x = ix2 r c := ⟨x 0, x 1, eq_ix2 x⟩
  show k1_pay6 (F := Ideal) p (View.ld g (band1 k)) (ix2 r c) = heightMin g p ((band1 k).idx (ix2 r c) 0) ((band1 k).idx (ix2 r c) 1)
  rw [heightBand_apply, band1_idx]
  refine Finset.inf_congr rfl fun j _ => ?_
  show g ((band1 k).idx (ix2 r j)) + _ = _
  rw [band1_idx]

/-- One band store of the width pass is a block of the one function `widthMin g q`. -/
theorem band2_piece (g q : Vec Ideal S256x256 .f32) (k : Fin k1_t2_loop.trips) (x : (band2 k).shape.Idx) :
    k1_pay7 (F := Ideal) q (View.ld g (band2 k)) x = (fun y : S256x256.Idx => widthMin g q (y 0) (y 1)) ((band2 k).emb x) := by
  obtain ⟨r, c, rfl⟩ : ∃ (r : Fin 8) (c : Fin 256), x = ix2 r c := ⟨x 0, x 1, eq_ix2 x⟩
  show k1_pay7 (F := Ideal) q (View.ld g (band2 k)) (ix2 r c) = widthMin g q ((band2 k).idx (ix2 r c) 0) ((band2 k).idx (ix2 r c) 1)
  rw [widthBand_apply, band2_idx]
  refine Finset.inf_congr rfl fun j _ => ?_
  show g ((band2 k).idx (ix2 r j)) + _ = _
  rw [band2_idx]

/-- A list of stores whose every member is a block of `G` stays so when one more block of `G` is stored. -/
theorem pieces_cons {S : Shape} {e : EltTy} (G : S.Idx → Elt Ideal e) (r : Rect S) (w : r.shape.Idx → Elt Ideal e)
    (L : List (View.Piece (Elt Ideal) S e)) (h1 : ∀ x, w x = G (r.emb x))
    (hL : ∀ q ∈ L, ∀ x : q.1.shape.Idx, q.2 x = G (q.1.emb x)) :
    ∀ q ∈ (⟨r, w⟩ : View.Piece (Elt Ideal) S e) :: L, ∀ x : q.1.shape.Idx, q.2 x = G (q.1.emb x) := by
  intro q hq
  rcases List.mem_cons.mp hq with rfl | hq'
  · exact h1
  · exact hL q hq'

theorem bands1_succ (g : Vec Ideal S256x256 .f32) (p : Vec Ideal S1x1x256x256 .f32) (n : ℕ) (hn : n < k1_t1_loop.trips) :
    bands1 (F := Ideal) g p (n + 1)
      = (⟨band1 ⟨n, hn⟩, k1_pay6 p (View.ld g (band1 ⟨n, hn⟩))⟩ : View.Piece (Elt Ideal) S256x256 .f32) :: bands1 g p n := by
  rw [bands1, dif_pos hn]

theorem bands1_succ_of_not (g : Vec Ideal S256x256 .f32) (p : Vec Ideal S1x1x256x256 .f32) (n : ℕ) (hn : ¬ n < k1_t1_loop.trips) :
    bands1 (F := Ideal) g p (n + 1) = bands1 g p n := by
  rw [bands1, dif_neg hn]

theorem bands2_succ (g q : Vec Ideal S256x256 .f32) (n : ℕ) (hn : n < k1_t2_loop.trips) :
    bands2 (F := Ideal) g q (n + 1)
      = (⟨band2 ⟨n, hn⟩, k1_pay7 q (View.ld g (band2 ⟨n, hn⟩))⟩ : View.Piece (Elt Ideal) S256x256 .f32) :: bands2 g q n := by
  rw [bands2, dif_pos hn]

theorem bands2_succ_of_not (g q : Vec Ideal S256x256 .f32) (n : ℕ) (hn : ¬ n < k1_t2_loop.trips) :
    bands2 (F := Ideal) g q (n + 1) = bands2 g q n := by
  rw [bands2, dif_neg hn]

/-- Every band store of the height pass is a block of the one function `heightMin g p`. -/
theorem bands1_pieces (g : Vec Ideal S256x256 .f32) (p : Vec Ideal S1x1x256x256 .f32) :
    ∀ n : ℕ, ∀ q ∈ bands1 (F := Ideal) g p n, ∀ x : q.1.shape.Idx,
      q.2 x = (fun y : S256x256.Idx => heightMin g p (y 0) (y 1)) (q.1.emb x)
  | 0 => fun q hq _ => absurd hq List.not_mem_nil
  | n + 1 => by
    by_cases hn : n < k1_t1_loop.trips
    · rw [bands1_succ g p n hn]
      exact pieces_cons (fun y : S256x256.Idx => heightMin g p (y 0) (y 1)) (band1 ⟨n, hn⟩) (k1_pay6 p (View.ld g (band1 ⟨n, hn⟩)))
        (bands1 g p n) (band1_piece g p ⟨n, hn⟩) (bands1_pieces g p n)
    · rw [bands1_succ_of_not g p n hn]
      exact bands1_pieces g p n

/-- Every band store of the width pass is a block of the one function `widthMin g q`. -/
theorem bands2_pieces (g q : Vec Ideal S256x256 .f32) :
    ∀ n : ℕ, ∀ s ∈ bands2 (F := Ideal) g q n, ∀ x : s.1.shape.Idx,
      s.2 x = (fun y : S256x256.Idx => widthMin g q (y 0) (y 1)) (s.1.emb x)
  | 0 => fun s hs _ => absurd hs List.not_mem_nil
  | n + 1 => by
    by_cases hn : n < k1_t2_loop.trips
    · rw [bands2_succ g q n hn]
      exact pieces_cons (fun y : S256x256.Idx => widthMin g q (y 0) (y 1)) (band2 ⟨n, hn⟩) (k1_pay7 q (View.ld g (band2 ⟨n, hn⟩)))
        (bands2 g q n) (band2_piece g q ⟨n, hn⟩) (bands2_pieces g q n)
    · rw [bands2_succ_of_not g q n hn]
      exact bands2_pieces g q n

/-- Band `k` is among the height pass's stores once `k` trips are past. -/
theorem band1_mem (g : Vec Ideal S256x256 .f32) (p : Vec Ideal S1x1x256x256 .f32) (k : Fin k1_t1_loop.trips) :
    ∀ n : ℕ, k.val < n → ∃ q ∈ bands1 (F := Ideal) g p n, q.1 = band1 k
  | 0, h => absurd h (Nat.not_lt_zero _)
  | n + 1, h => by
    by_cases hn : n < k1_t1_loop.trips
    · rw [bands1_succ g p n hn]
      by_cases hk : k.val = n
      · exact ⟨_, List.mem_cons_self, by subst hk; rfl⟩
      · obtain ⟨q, hq, e⟩ := band1_mem g p k n (by omega)
        exact ⟨q, List.mem_cons_of_mem _ hq, e⟩
    · rw [bands1_succ_of_not g p n hn]
      exact band1_mem g p k n (by have := k.isLt; omega)

theorem band2_mem (g q : Vec Ideal S256x256 .f32) (k : Fin k1_t2_loop.trips) :
    ∀ n : ℕ, k.val < n → ∃ s ∈ bands2 (F := Ideal) g q n, s.1 = band2 k
  | 0, h => absurd h (Nat.not_lt_zero _)
  | n + 1, h => by
    by_cases hn : n < k1_t2_loop.trips
    · rw [bands2_succ g q n hn]
      by_cases hk : k.val = n
      · exact ⟨_, List.mem_cons_self, by subst hk; rfl⟩
      · obtain ⟨s, hs, e⟩ := band2_mem g q k n (by omega)
        exact ⟨s, List.mem_cons_of_mem _ hs, e⟩
    · rw [bands2_succ_of_not g q n hn]
      exact band2_mem g q k n (by have := k.isLt; omega)

/-- Row `h` lies in band `h / 8`. -/
theorem mem_band1 (h w : Fin 256) : ix2 h w ∈ (band1 ⟨h.val / 8, by rw [trips1]; omega⟩).set := by
  refine Rect.mem_set_unit.mpr fun a => ?_
  rw [k1_off1_eq]
  match a with
  | ⟨0, _⟩ => show 8 * (h.val / 8) ≤ h.val ∧ h.val < 8 * (h.val / 8) + 8; omega
  | ⟨1, _⟩ => show 0 ≤ w.val ∧ w.val < 0 + 256; omega

theorem mem_band2 (h w : Fin 256) : ix2 h w ∈ (band2 ⟨h.val / 8, by rw [trips2]; omega⟩).set := by
  refine Rect.mem_set_unit.mpr fun a => ?_
  rw [k1_off2_eq]
  match a with
  | ⟨0, _⟩ => show 8 * (h.val / 8) ≤ h.val ∧ h.val < 8 * (h.val / 8) + 8; omega
  | ⟨1, _⟩ => show 0 ≤ w.val ∧ w.val < 0 + 256; omega

/-- The height pass over any gap matrix, at an index. -/
theorem canon_bands1 (g : Vec Ideal S256x256 .f32) (p : Vec Ideal S1x1x256x256 .f32) (h w : Fin 256) :
    View.canon (bands1 (F := Ideal) g p k1_t1_loop.trips) (ix2 h w) = heightMin g p h w := by
  refine View.canon_apply_of_pieces (Val := Elt Ideal) (S := S256x256) (e := .f32) (fun y : S256x256.Idx => heightMin g p (y 0) (y 1)) (bands1 (F := Ideal) g p k1_t1_loop.trips) (bands1_pieces g p _) (ix2 h w) ?_
  obtain ⟨q, hq, e⟩ := band1_mem g p ⟨h.val / 8, by rw [trips1]; omega⟩ k1_t1_loop.trips (by have e := trips1; show h.val / 8 < k1_t1_loop.trips; omega)
  exact ⟨q, hq, by rw [e]; exact mem_band1 h w⟩

/-- The width pass over any gap matrix, at an index. -/
theorem canon_bands2 (g q : Vec Ideal S256x256 .f32) (w h : Fin 256) :
    View.canon (bands2 (F := Ideal) g q k1_t2_loop.trips) (ix2 w h) = widthMin g q w h := by
  refine View.canon_apply_of_pieces (Val := Elt Ideal) (S := S256x256) (e := .f32) (fun y : S256x256.Idx => widthMin g q (y 0) (y 1)) (bands2 (F := Ideal) g q k1_t2_loop.trips) (bands2_pieces g q _) (ix2 w h) ?_
  obtain ⟨s, hs, e⟩ := band2_mem g q ⟨w.val / 8, by rw [trips2]; omega⟩ k1_t2_loop.trips (by have e := trips2; show w.val / 8 < k1_t2_loop.trips; omega)
  exact ⟨s, hs, by rw [e]; exact mem_band2 w h⟩

/-- The row scratch after the height pass: at `(h, w)` the minimum over `h'` of the squared gap plus the cost at `(h', w)`. -/
theorem pass1_apply (p : Vec Ideal S1x1x256x256 .f32) (h w : Fin 256) :
    pass1 (F := Ideal) p (ix2 h w)
      = Finset.univ.inf fun h' : Fin 256 => Cert.EDT.gap2 h h' + p (ix4 (0 : Fin 1) (0 : Fin 1) h' w) := by
  unfold pass1
  rw [canon_bands1]
  unfold heightMin
  refine Finset.inf_congr rfl fun k _ => ?_
  rw [gapM_apply]

/-- The row scratch after the width pass: at `(w, h)` the minimum over `w'` of the squared gap plus the height pass's result at `(h, w')`. -/
theorem pass2_apply (p : Vec Ideal S1x1x256x256 .f32) (w h : Fin 256) :
    pass2 (F := Ideal) p (ix2 w h)
      = Finset.univ.inf fun w' : Fin 256 => Cert.EDT.gap2 w w' + pass1 (F := Ideal) p (ix2 h w') := by
  unfold pass2
  rw [canon_bands2]
  unfold widthMin
  refine Finset.inf_congr rfl fun k _ => ?_
  rw [gapM_apply]

end Cert.KernelIdeal.DistValue

end
-- ==== Proof.DistValSum.lean ====
/-
  The sum of a whole plane as the body takes it: over the lanes of each row, then over the rows.
-/
import proofs.«112355_j59322088292653_1_alg».proof.Proof.DistDefsIdeal
import Idealize.ShloMosaic.Lib.ValueLayout
import Idealize.ShloMosaic.Lib.Pipeline.Value
import Idealize.ShloMosaic.PureOps.Ideal.Laws

noncomputable section

namespace Cert.KernelIdeal.DistValue

open Idealize.ShloMosaic Idealize.ShloMosaic.ValueIdx
open Cert.KernelIdeal Cert.KernelIdeal.Gen Cert.KernelIdeal.Dist

/-- The sum over the lanes at row `h`. -/
theorem sumLanes_apply (m : FVec Ideal S256x256 .f32) (h : Fin 256) :
    multiReduction .add [1] S256 m 0x00000000#32 reduces_S256x256_S256 (.inl rfl) rfl (ix1 h) = ∑ w : Fin 256, m (ix2 h w) := by
  refine (Ideal.multiReduction_add_single m _ _ _ _ _).trans ?_
  show (∑ w : Fin 256, m (reduces_S256x256_S256.lift (ix1 h) w)) = _
  refine Finset.sum_congr rfl fun w _ => ?_
  congr 1
  funext c
  match c with
  | ⟨0, _⟩ => exact Fin.ext rfl
  | ⟨1, _⟩ => exact Fin.ext rfl

/-- The sum over the rows of a one-lane column. -/
theorem sumRows_apply (m : FVec Ideal S256x1 .f32) :
    multiReduction .add [0] S1 m 0x00000000#32 reduces_S256x1_S1 (.inl rfl) rfl (ix1 (0 : Fin 1)) = ∑ h : Fin 256, m (ix2 h (0 : Fin 1)) := by
  refine (Ideal.multiReduction_add_single m _ _ _ _ _).trans ?_
  show (∑ h : Fin 256, m (reduces_S256x1_S1.lift (ix1 (0 : Fin 1)) h)) = _
  refine Finset.sum_congr rfl fun h _ => ?_
  congr 1
  funext c
  match c with
  | ⟨0, _⟩ => exact Fin.ext rfl
  | ⟨1, _⟩ => exact Fin.ext rfl

/-- A vector viewed as a one-lane column reads, at `(h, 0)`, the vector at `h`. -/
theorem column_apply (v : FVec Ideal S256 .f32) (h : Fin 256) :
    shapeCast S256x1 v shapeCasts_S256_S256x1 (ix2 h (0 : Fin 1)) = v (ix1 h) := by
  refine shapeCast_apply _ _ _ _ ?_
  rw [Shape.rowMajor_val_one, Shape.rowMajor_val_two]
  show h.val = h.val * 1 + 0
  omega

/-- The sum of a whole plane, as the one entry of a `[1, 1]` array. -/
theorem fullSum_apply (m : FVec Ideal S256x256 .f32) :
    shapeCast S1x1 (multiReduction .add [0] S1 (shapeCast S256x1 (multiReduction .add [1] S256 m 0x00000000#32
        reduces_S256x256_S256 (.inl rfl) rfl) shapeCasts_S256_S256x1) 0x00000000#32 reduces_S256x1_S1 (.inl rfl) rfl)
      shapeCasts_S1_S1x1 (ix2 (0 : Fin 1) (0 : Fin 1)) = ∑ h : Fin 256, ∑ w : Fin 256, m (ix2 h w) := by
  rw [shapeCast_a_1a_apply, sumRows_apply]
  refine Finset.sum_congr rfl fun h _ => ?_
  rw [column_apply, sumLanes_apply]

end Cert.KernelIdeal.DistValue

end
-- ==== Proof.DistValStep.lean ====
/-
  One grid point's step of the accumulator, lane by lane: the four live lanes gain the point's four sums over its plane,
  every other lane gains zero.
-/
import proofs.«112355_j59322088292653_1_alg».proof.Proof.DistValPass
import proofs.«112355_j59322088292653_1_alg».proof.Proof.DistValSum

noncomputable section

namespace Cert.KernelIdeal.DistValue

open Idealize.ShloMosaic Idealize.ShloMosaic.ValueIdx
open Cert.KernelIdeal Cert.KernelIdeal.Gen Cert.KernelIdeal.Dist

/-- The score's logistic at `(h, w)`. -/
abbrev sigAt (x : Vec Ideal S1x1x256x256 .f32) (h w : Fin 256) : EReal := Ideal.logistic (x (ix4 (0 : Fin 1) (0 : Fin 1) h w))
/-- The label as a number at `(h, w)`. -/
abbrev labAt (y : Vec Ideal S1x1x256x256 .i32) (h w : Fin 256) : EReal :=
  (((y (ix4 (0 : Fin 1) (0 : Fin 1) h w) : BitVec 32).toInt : ℝ) : EReal)
/-- The distance at `(h, w)`: the root of the width pass's result at `(w, h)`. -/
abbrev distAt (p : Vec Ideal S1x1x256x256 .f32) (h w : Fin 256) : EReal := Ideal.sqrt (pass2 (F := Ideal) p (ix2 w h))

/-- The score plane's logistic at an index. -/
theorem sigPlane_apply (x : Vec Ideal S1x1x256x256 .f32) (h w : Fin 256) :
    (logistic (k1_pay4 (F := Ideal) x) : FVec Ideal S256x256 .f32) (ix2 h w) = sigAt x h w := by
  show Ideal.logistic (k1_pay4 (F := Ideal) x (ix2 h w)) = _
  unfold k1_pay4
  rw [plane_apply]

/-- The label plane as numbers at an index. -/
theorem labPlane_apply (y : Vec Ideal S1x1x256x256 .i32) (h w : Fin 256) :
    (sitofp .f32 (k1_pay5 (F := Ideal) y) : FVec Ideal S256x256 .f32) (ix2 h w) = labAt y h w := by
  rw [sitofp_apply]
  unfold k1_pay5
  rw [plane_apply]
  rfl

/-- The distance plane at an index. -/
theorem distPlane_apply (p : Vec Ideal S1x1x256x256 .f32) (h w : Fin 256) :
    (sqrt (transpose S256x256 [1, 0] (pass2 (F := Ideal) p) transposes_S256x256_p1_0_S256x256) : FVec Ideal S256x256 .f32) (ix2 h w)
      = distAt p h w := by
  show Ideal.sqrt (transpose S256x256 [1, 0] (pass2 (F := Ideal) p) transposes_S256x256_p1_0_S256x256 (ix2 h w)) = _
  rw [transpose_ix2_apply]

/-- The sum of a whole plane as the body takes it, a `[1, 1]` array. -/
def planeSum (m : FVec Ideal S256x256 .f32) : FVec Ideal S1x1 .f32 :=
  shapeCast S1x1 (multiReduction .add [0] S1 (shapeCast S256x1 (multiReduction .add [1] S256 m 0x00000000#32
      reduces_S256x256_S256 (.inl rfl) rfl) shapeCasts_S256_S256x1) 0x00000000#32 reduces_S256x1_S1 (.inl rfl) rfl)
    shapeCasts_S1_S1x1

theorem planeSum_apply (m : FVec Ideal S256x256 .f32) :
    planeSum m (ix2 (0 : Fin 1) (0 : Fin 1)) = ∑ h : Fin 256, ∑ w : Fin 256, m (ix2 h w) := fullSum_apply m

/-- What a point adds to the accumulator: its four sums in lanes 0 to 3, zero in the other lanes. -/
def increment (p x : Vec Ideal S1x1x256x256 .f32) (y : Vec Ideal S1x1x256x256 .i32) : FVec Ideal S1x128 .f32 :=
  concatenate S1x128 1
    [⟨S1x1, planeSum (mulf (logistic (k1_pay4 (F := Ideal) x)) (sitofp .f32 (k1_pay5 (F := Ideal) y)))⟩,
     ⟨S1x1, planeSum (logistic (k1_pay4 (F := Ideal) x))⟩,
     ⟨S1x1, planeSum (sitofp .f32 (k1_pay5 (F := Ideal) y))⟩,
     ⟨S1x1, planeSum (mulf (logistic (k1_pay4 (F := Ideal) x))
        (sqrt (transpose S256x256 [1, 0] (pass2 (F := Ideal) p) transposes_S256x256_p1_0_S256x256)))⟩,
     ⟨S1x124, broadcast S1x124 (Scalar.ofBits (F := Ideal) .f32 0x00000000#32)⟩]
    concatenates_S1x1_S1x1_S1x1_S1x1_S1x124_S1x128_d1

/-- The step adds the increment to the accumulator it found, lane by lane. -/
theorem accStep_apply (p x : Vec Ideal S1x1x256x256 .f32) (y : Vec Ideal S1x1x256x256 .i32) (a : Vec Ideal S1x128 .f32)
    (j : Fin 128) :
    accStep (F := Ideal) p x y a (ix2 (0 : Fin 1) j) = a (ix2 (0 : Fin 1) j) + increment p x y (ix2 (0 : Fin 1) j) := by
  unfold accStep k1_pay1
  simp only []
  rw [shapeCast_self, addf_apply]
  rfl

end Cert.KernelIdeal.DistValue

end
-- ==== Proof.DistValLanes.lean ====
/-
  The increment and the step, lane by lane.
-/
import proofs.«112355_j59322088292653_1_alg».proof.Proof.DistValStep

noncomputable section

namespace Cert.KernelIdeal.DistValue

open Idealize.ShloMosaic Idealize.ShloMosaic.ValueIdx
open Cert.KernelIdeal Cert.KernelIdeal.Gen Cert.KernelIdeal.Dist

/-- Lane 0 of the increment: the sum of score times label. -/
theorem increment_lane0 (p x : Vec Ideal S1x1x256x256 .f32) (y : Vec Ideal S1x1x256x256 .i32) :
    increment p x y (ix2 (0 : Fin 1) (0 : Fin 128)) = ∑ h : Fin 256, ∑ w : Fin 256, sigAt x h w * labAt y h w := by
  unfold increment
  refine Eq.trans (concatenate_apply_piece (1 : Fin 2) _ _ (ix2 (0 : Fin 1) (0 : Fin 128)) 0 ?hk S1x1 _ rfl rfl 0 rfl
    (ix2 (0 : Fin 1) (0 : Fin 1)) (fun b hb => ?_) rfl) ?_
  case hk => show 0 < 5; omega
  · match b with
    | ⟨0, _⟩ => rfl
    | ⟨1, _⟩ => exact absurd rfl hb
  · rw [planeSum_apply]
    refine Finset.sum_congr rfl fun h _ => Finset.sum_congr rfl fun w _ => ?_
    rw [mulf_apply, sigPlane_apply, labPlane_apply]

/-- Lane 1 of the increment: the sum of the scores. -/
theorem increment_lane1 (p x : Vec Ideal S1x1x256x256 .f32) (y : Vec Ideal S1x1x256x256 .i32) :
    increment p x y (ix2 (0 : Fin 1) (1 : Fin 128)) = ∑ h : Fin 256, ∑ w : Fin 256, sigAt x h w := by
  unfold increment
  refine Eq.trans (concatenate_apply_piece (1 : Fin 2) _ _ (ix2 (0 : Fin 1) (1 : Fin 128)) 1 ?hk S1x1 _ rfl rfl 1 rfl
    (ix2 (0 : Fin 1) (0 : Fin 1)) (fun b hb => ?_) rfl) ?_
  case hk => show 1 < 5; omega
  · match b with
    | ⟨0, _⟩ => rfl
    | ⟨1, _⟩ => exact absurd rfl hb
  · rw [planeSum_apply]
    refine Finset.sum_congr rfl fun h _ => Finset.sum_congr rfl fun w _ => ?_
    rw [sigPlane_apply]

/-- Lane 2 of the increment: the sum of the labels. -/
theorem increment_lane2 (p x : Vec Ideal S1x1x256x256 .f32) (y : Vec Ideal S1x1x256x256 .i32) :
    increment p x y (ix2 (0 : Fin 1) (2 : Fin 128)) = ∑ h : Fin 256, ∑ w : Fin 256, labAt y h w := by
  unfold increment
  refine Eq.trans (concatenate_apply_piece (1 : Fin 2) _ _ (ix2 (0 : Fin 1) (2 : Fin 128)) 2 ?hk S1x1 _ rfl rfl 2 rfl
    (ix2 (0 : Fin 1) (0 : Fin 1)) (fun b hb => ?_) rfl) ?_
  case hk => show 2 < 5; omega
  · match b with
    | ⟨0, _⟩ => rfl
    | ⟨1, _⟩ => exact absurd rfl hb
  · rw [planeSum_apply]
    refine Finset.sum_congr rfl fun h _ => Finset.sum_congr rfl fun w _ => ?_
    rw [labPlane_apply]

/-- Lane 3 of the increment: the sum of score times distance. -/
theorem increment_lane3 (p x : Vec Ideal S1x1x256x256 .f32) (y : Vec Ideal S1x1x256x256 .i32) :
    increment p x y (ix2 (0 : Fin 1) (3 : Fin 128)) = ∑ h : Fin 256, ∑ w : Fin 256, sigAt x h w * distAt p h w := by
  unfold increment
  refine Eq.trans (concatenate_apply_piece (1 : Fin 2) _ _ (ix2 (0 : Fin 1) (3 : Fin 128)) 3 ?hk S1x1 _ rfl rfl 3 rfl
    (ix2 (0 : Fin 1) (0 : Fin 1)) (fun b hb => ?_) rfl) ?_
  case hk => show 3 < 5; omega
  · match b with
    | ⟨0, _⟩ => rfl
    | ⟨1, _⟩ => exact absurd rfl hb
  · rw [planeSum_apply]
    refine Finset.sum_congr rfl fun h _ => Finset.sum_congr rfl fun w _ => ?_
    rw [mulf_apply, sigPlane_apply, distPlane_apply]

/-- Every other lane of the increment is zero. -/
theorem increment_rest (p x : Vec Ideal S1x1x256x256 .f32) (y : Vec Ideal S1x1x256x256 .i32) (j : Fin 128) (hj : 4 ≤ j.val) :
    increment p x y (ix2 (0 : Fin 1) j) = 0 := by
  unfold increment
  refine Eq.trans (concatenate_apply_piece (1 : Fin 2) _ _ (ix2 (0 : Fin 1) j) 4 ?hk S1x124 _ rfl rfl 4 rfl
    (ix2 (0 : Fin 1) (⟨j.val - 4, by omega⟩ : Fin 124)) (fun b hb => ?_) ?ha) ?_
  case hk => show 4 < 5; omega
  case ha => show 4 + (j.val - 4) = j.val; omega
  · match b with
    | ⟨0, _⟩ => rfl
    | ⟨1, _⟩ => exact absurd rfl hb
  · rw [broadcast_apply]
    exact Ideal.ofBits_zero_f32

/-- The four live lanes of the step, and the rest. -/
theorem accStep_lane0 (p x : Vec Ideal S1x1x256x256 .f32) (y : Vec Ideal S1x1x256x256 .i32) (a : Vec Ideal S1x128 .f32) :
    accStep (F := Ideal) p x y a (ix2 (0 : Fin 1) (0 : Fin 128))
      = a (ix2 (0 : Fin 1) (0 : Fin 128)) + ∑ h : Fin 256, ∑ w : Fin 256, sigAt x h w * labAt y h w := by
  rw [accStep_apply, increment_lane0]
theorem accStep_lane1 (p x : Vec Ideal S1x1x256x256 .f32) (y : Vec Ideal S1x1x256x256 .i32) (a : Vec Ideal S1x128 .f32) :
    accStep (F := Ideal) p x y a (ix2 (0 : Fin 1) (1 : Fin 128))
      = a (ix2 (0 : Fin 1) (1 : Fin 128)) + ∑ h : Fin 256, ∑ w : Fin 256, sigAt x h w := by
  rw [accStep_apply, increment_lane1]
theorem accStep_lane2 (p x : Vec Ideal S1x1x256x256 .f32) (y : Vec Ideal S1x1x256x256 .i32) (a : Vec Ideal S1x128 .f32) :
    accStep (F := Ideal) p x y a (ix2 (0 : Fin 1) (2 : Fin 128))
      = a (ix2 (0 : Fin 1) (2 : Fin 128)) + ∑ h : Fin 256, ∑ w : Fin 256, labAt y h w := by
  rw [accStep_apply, increment_lane2]
theorem accStep_lane3 (p x : Vec Ideal S1x1x256x256 .f32) (y : Vec Ideal S1x1x256x256 .i32) (a : Vec Ideal S1x128 .f32) :
    accStep (F := Ideal) p x y a (ix2 (0 : Fin 1) (3 : Fin 128))
      = a (ix2 (0 : Fin 1) (3 : Fin 128)) + ∑ h : Fin 256, ∑ w : Fin 256, sigAt x h w * distAt p h w := by
  rw [accStep_apply, increment_lane3]
theorem accStep_rest (p x : Vec Ideal S1x1x256x256 .f32) (y : Vec Ideal S1x1x256x256 .i32) (a : Vec Ideal S1x128 .f32)
    (j : Fin 128) (hj : 4 ≤ j.val) :
    accStep (F := Ideal) p x y a (ix2 (0 : Fin 1) j) = a (ix2 (0 : Fin 1) j) + 0 := by
  rw [accStep_apply, increment_rest p x y j hj]

end Cert.KernelIdeal.DistValue

end
-- ==== Proof.DistValue.lean ====
/-
  The accumulator after the eight points: its four live lanes are the four totals of the specification.
-/
import proofs.«112355_j59322088292653_1_alg».proof.Proof.DistValLanes

noncomputable section

namespace Cert.KernelIdeal.DistValue

open Idealize.ShloMosaic Idealize.ShloMosaic.ValueIdx
open Cert.KernelIdeal Cert.KernelIdeal.Gen Cert.KernelIdeal.Dist

/-- The accumulator the first point starts from is zero in every lane. -/
theorem accZero_apply (j : Fin 128) : accZero (F := Ideal) (ix2 (0 : Fin 1) j) = 0 := by
  unfold accZero k1_pay2
  rw [shapeCast_self, broadcast_apply]
  exact Ideal.ofBits_zero_f32

/-- A lane that gains `s n` at point `n`, whatever it held, holds after point `n` the sum of the gains so far. -/
theorem accSeq_lane (P Xb : ℕ → Vec Ideal S1x1x256x256 .f32) (Yb : ℕ → Vec Ideal S1x1x256x256 .i32) (j : Fin 128)
    (s : ℕ → EReal)
    (hs : ∀ (n : ℕ) (a : Vec Ideal S1x128 .f32),
      accStep (F := Ideal) (P n) (Xb n) (Yb n) a (ix2 (0 : Fin 1) j) = a (ix2 (0 : Fin 1) j) + s n) :
    ∀ n : ℕ, accSeq (F := Ideal) P Xb Yb n (ix2 (0 : Fin 1) j) = ∑ i ∈ Finset.range (n + 1), s i
  | 0 => by
    rw [accSeq, hs, accZero_apply, zero_add, Finset.sum_range_one]
  | n + 1 => by
    rw [accSeq, hs, accSeq_lane P Xb Yb j s hs n, Finset.sum_range_succ _ (n + 1)]

/-- After the eighth point the lane holds the sum over the eight batch elements. -/
theorem accSeq_lane_seven (P Xb : ℕ → Vec Ideal S1x1x256x256 .f32) (Yb : ℕ → Vec Ideal S1x1x256x256 .i32) (j : Fin 128)
    (s : ℕ → EReal)
    (hs : ∀ (n : ℕ) (a : Vec Ideal S1x128 .f32),
      accStep (F := Ideal) (P n) (Xb n) (Yb n) a (ix2 (0 : Fin 1) j) = a (ix2 (0 : Fin 1) j) + s n) :
    accSeq (F := Ideal) P Xb Yb 7 (ix2 (0 : Fin 1) j) = ∑ b : Fin 8, s b.val := by
  rw [accSeq_lane P Xb Yb j s hs 7, Fin.sum_univ_eq_sum_range]

/-- The height pass over the batch pass's cost is the specification's second pass. -/
theorem pass1_eq_cost2 (Y : Cert.EDT.SArg.Idx → BitVec 32) (p : Vec Ideal S1x1x256x256 .f32) (b : Fin 8)
    (hp : ∀ h w : Fin 256, p (ix4 (0 : Fin 1) (0 : Fin 1) h w) = Cert.EDT.cost1 Y b h w) (h w : Fin 256) :
    pass1 (F := Ideal) p (ix2 h w) = Cert.EDT.cost2 Y b h w := by
  rw [pass1_apply]
  unfold Cert.EDT.cost2
  refine Finset.inf_congr rfl fun h' _ => ?_
  rw [hp, add_comm]

/-- The width pass after it is the third: the squared distance. -/
theorem pass2_eq_cost3 (Y : Cert.EDT.SArg.Idx → BitVec 32) (p : Vec Ideal S1x1x256x256 .f32) (b : Fin 8)
    (hp : ∀ h w : Fin 256, p (ix4 (0 : Fin 1) (0 : Fin 1) h w) = Cert.EDT.cost1 Y b h w) (w h : Fin 256) :
    pass2 (F := Ideal) p (ix2 w h) = Cert.EDT.cost3 Y b h w := by
  rw [pass2_apply]
  unfold Cert.EDT.cost3
  refine Finset.inf_congr rfl fun w' _ => ?_
  rw [pass1_eq_cost2 Y p b hp, add_comm]

/-- THE EIGHT POINTS TOGETHER: the accumulator's four live lanes after the last point are the four totals. -/
theorem accSeq_totals (X : Cert.EDT.SArg.Idx → EReal) (Y : Cert.EDT.SArg.Idx → BitVec 32)
    (P Xb : ℕ → Vec Ideal S1x1x256x256 .f32) (Yb : ℕ → Vec Ideal S1x1x256x256 .i32)
    (hP : ∀ (b : Fin 8) (h w : Fin 256), P b.val (ix4 (0 : Fin 1) (0 : Fin 1) h w) = Cert.EDT.cost1 Y b h w)
    (hX : ∀ (b : Fin 8) (h w : Fin 256), Xb b.val (ix4 (0 : Fin 1) (0 : Fin 1) h w) = X (ix4 b (0 : Fin 1) h w))
    (hY : ∀ (b : Fin 8) (h w : Fin 256), Yb b.val (ix4 (0 : Fin 1) (0 : Fin 1) h w) = Y (ix4 b (0 : Fin 1) h w)) :
    accSeq (F := Ideal) P Xb Yb 7 (ix2 (0 : Fin 1) (0 : Fin 128)) = Cert.EDT.tot1 X Y
    ∧ accSeq (F := Ideal) P Xb Yb 7 (ix2 (0 : Fin 1) (1 : Fin 128)) = Cert.EDT.tot2 X
    ∧ accSeq (F := Ideal) P Xb Yb 7 (ix2 (0 : Fin 1) (2 : Fin 128)) = Cert.EDT.tot3 Y
    ∧ accSeq (F := Ideal) P Xb Yb 7 (ix2 (0 : Fin 1) (3 : Fin 128)) = Cert.EDT.tot4 X Y := by
  have hsig : ∀ (b : Fin 8) (h w : Fin 256), sigAt (Xb b.val) h w = Cert.EDT.sig X b h w := fun b h w => by
    show Ideal.logistic (Xb b.val (ix4 (0 : Fin 1) (0 : Fin 1) h w)) = Ideal.logistic (X (ix4 b (0 : Fin 1) h w))
    rw [hX]
  have hlab : ∀ (b : Fin 8) (h w : Fin 256), labAt (Yb b.val) h w = Cert.EDT.lab Y b h w := fun b h w => by
    show (((Yb b.val (ix4 (0 : Fin 1) (0 : Fin 1) h w) : BitVec 32).toInt : ℝ) : EReal) = (((Y (ix4 b (0 : Fin 1) h w)).toInt : ℝ) : EReal)
    rw [hY]
  have hdist : ∀ (b : Fin 8) (h w : Fin 256), distAt (P b.val) h w = Cert.EDT.dist Y b h w := fun b h w => by
    show Ideal.sqrt (pass2 (F := Ideal) (P b.val) (ix2 w h)) = Ideal.sqrt (Cert.EDT.cost3 Y b h w)
    rw [pass2_eq_cost3 Y (P b.val) b (hP b)]
  refine ⟨?_, ?_, ?_, ?_⟩
  · rw [accSeq_lane_seven P Xb Yb 0 _ fun n a => accStep_lane0 (P n) (Xb n) (Yb n) a]
    unfold Cert.EDT.tot1 Cert.EDT.total
    refine Finset.sum_congr rfl fun b _ => Finset.sum_congr rfl fun h _ => Finset.sum_congr rfl fun w _ => ?_
    rw [hsig, hlab]
  · rw [accSeq_lane_seven P Xb Yb 1 _ fun n a => accStep_lane1 (P n) (Xb n) (Yb n) a]
    unfold Cert.EDT.tot2 Cert.EDT.total
    refine Finset.sum_congr rfl fun b _ => Finset.sum_congr rfl fun h _ => Finset.sum_congr rfl fun w _ => ?_
    rw [hsig]
  · rw [accSeq_lane_seven P Xb Yb 2 _ fun n a => accStep_lane2 (P n) (Xb n) (Yb n) a]
    unfold Cert.EDT.tot3 Cert.EDT.total
    refine Finset.sum_congr rfl fun b _ => Finset.sum_congr rfl fun h _ => Finset.sum_congr rfl fun w _ => ?_
    rw [hlab]
  · rw [accSeq_lane_seven P Xb Yb 3 _ fun n a => accStep_lane3 (P n) (Xb n) (Yb n) a]
    unfold Cert.EDT.tot4 Cert.EDT.total
    refine Finset.sum_congr rfl fun b _ => Finset.sum_congr rfl fun h _ => Finset.sum_congr rfl fun w _ => ?_
    rw [hsig, hdist]

end Cert.KernelIdeal.DistValue

end
-- ==== Proof.DistTotalIdeal.lean ====
/-
  The second region's four totals.  After the last point the accumulator's first four lanes hold the totals of the
  specification, given that the first region's output is the cost field after the pass along the batch axis: the
  point blocks are the batch elements of the three arrays, and the accumulator sequence over such blocks sums them.
-/
import proofs.«112355_j59322088292653_1_alg».proof.Proof.DistFinalIdeal
import proofs.«112355_j59322088292653_1_alg».proof.Proof.Spec
import proofs.«112355_j59322088292653_1_alg».proof.Proof.DistValue

set_option maxRecDepth 16384

noncomputable section

namespace Cert.KernelIdeal.Dist

open Cert.KernelIdeal Cert.KernelIdeal.Gen
open Idealize.ShloMosaic Idealize.ShloMosaic.TcCoe Idealize.SL.Sem
open Idealize.ShloMosaic.ValueIdx
open Cert.EDT

variable (V : (c : Dev nD) → (b : Ref sig .tc) → Buf (Elt Ideal) ((c : Thread nD τ).loc b))

/-- What the accumulator sequence over blocks `P`, `Xb`, `Yb` holds in its first four lanes after the eighth point,
    when the blocks are the batch elements of the cost field after the batch pass, of the scores `X` and of the
    labels `Y`: the four totals. -/
abbrev SumsTotals (X : SArg.Idx → EReal) (Y : SArg.Idx → BitVec 32) (P Xb : ℕ → Vec Ideal S1x1x256x256 .f32)
    (Yb : ℕ → Vec Ideal S1x1x256x256 .i32) : Prop :=
  (∀ (b : Fin 8) (h w : Fin 256), P b.val (ix4 (0 : Fin 1) (0 : Fin 1) h w) = cost1 Y b h w) →
  (∀ (b : Fin 8) (h w : Fin 256), Xb b.val (ix4 (0 : Fin 1) (0 : Fin 1) h w) = X (ix4 b (0 : Fin 1) h w)) →
  (∀ (b : Fin 8) (h w : Fin 256), Yb b.val (ix4 (0 : Fin 1) (0 : Fin 1) h w) = Y (ix4 b (0 : Fin 1) h w)) →
    accSeq (F := Ideal) P Xb Yb 7 (ix2 (0 : Fin 1) (0 : Fin 128)) = tot1 X Y
    ∧ accSeq (F := Ideal) P Xb Yb 7 (ix2 (0 : Fin 1) (1 : Fin 128)) = tot2 X
    ∧ accSeq (F := Ideal) P Xb Yb 7 (ix2 (0 : Fin 1) (2 : Fin 128)) = tot3 Y
    ∧ accSeq (F := Ideal) P Xb Yb 7 (ix2 (0 : Fin 1) (3 : Fin 128)) = tot4 X Y

/-- The accumulator after the last point holds the four totals of the score and label arrays, once the first region's
    output is the cost field after the batch pass (`hv0`) and the accumulator sequence sums its blocks (`hseq`). -/
theorem totals_of (c : Dev nD)
    (hv0 : ∀ (b : Fin 8) (h w : Fin 256),
      (V c main_v0 : SArg.Idx → EReal) (ix4 b (0 : Fin 1) h w) = cost1 (V c main_arg1) b h w)
    (hseq : SumsTotals (V c main_arg0) (V c main_arg1) (blkP V c) (blkX V c) (blkY V c)) :
    accAt (F := Ideal) V c 7 (ix2 (0 : Fin 1) (0 : Fin 128)) = tot1 (V c main_arg0) (V c main_arg1)
    ∧ accAt (F := Ideal) V c 7 (ix2 (0 : Fin 1) (1 : Fin 128)) = tot2 (V c main_arg0)
    ∧ accAt (F := Ideal) V c 7 (ix2 (0 : Fin 1) (2 : Fin 128)) = tot3 (V c main_arg1)
    ∧ accAt (F := Ideal) V c 7 (ix2 (0 : Fin 1) (3 : Fin 128)) = tot4 (V c main_arg0) (V c main_arg1) :=
  hseq (fun b h w => (blkP_apply V c b h w).trans (hv0 b h w)) (blkX_apply V c) (blkY_apply V c)

/-- THE SECOND REGION'S VALUE: after the last point the accumulator's first four lanes are the four totals of the score
    and label arrays, given that the first region's output is the cost field after the batch pass. -/
theorem totals (c : Dev nD)
    (hv0 : ∀ (b : Fin 8) (h w : Fin 256),
      (V c main_v0 : SArg.Idx → EReal) (ix4 b (0 : Fin 1) h w) = cost1 (V c main_arg1) b h w) :
    accAt (F := Ideal) V c 7 (ix2 (0 : Fin 1) (0 : Fin 128)) = tot1 (V c main_arg0) (V c main_arg1)
    ∧ accAt (F := Ideal) V c 7 (ix2 (0 : Fin 1) (1 : Fin 128)) = tot2 (V c main_arg0)
    ∧ accAt (F := Ideal) V c 7 (ix2 (0 : Fin 1) (2 : Fin 128)) = tot3 (V c main_arg1)
    ∧ accAt (F := Ideal) V c 7 (ix2 (0 : Fin 1) (3 : Fin 128)) = tot4 (V c main_arg0) (V c main_arg1) :=
  totals_of V c hv0
    (Cert.KernelIdeal.DistValue.accSeq_totals (V c main_arg0) (V c main_arg1) (blkP V c) (blkX V c) (blkY V c))

end Cert.KernelIdeal.Dist

end
-- ==== Proof.KernelValue.lean ====
/-
  The kernel program's result is the loss of `Spec.lean`.

  After the first region the mixed cost array holds the batch-axis pass of the cost field; the second region leaves the
  accumulator of its last point in the result row, whose first four lanes are the four totals; the host operations that
  follow read those four lanes and apply the closing scalar formula.
-/
import proofs.«112355_j59322088292653_1_alg».proof.Proof.WholeIdeal
import proofs.«112355_j59322088292653_1_alg».proof.Proof.MixValue
import proofs.«112355_j59322088292653_1_alg».proof.Proof.DistTotalIdeal
import proofs.«112355_j59322088292653_1_alg».proof.Proof.Spec

noncomputable section

namespace Cert.KernelIdeal.Whole

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The first region leaves the arguments as launched. -/
theorem U1_arg0 (c : Dev nD) : U1 m c main_arg0 = m ((c : Thread nD τ).loc main_arg0) :=
  E1_of_ne m c main_arg0 (by decide)
theorem U1_arg1 (c : Dev nD) : U1 m c main_arg1 = m ((c : Thread nD τ).loc main_arg1) :=
  (E1_arr m c 0).trans (((Cert.KernelIdeal.Mix.dat (U0 m) c).arrAt_in 0 rfl _).trans (Cert.KernelIdeal.Mix.dat_A (U0 m) c 0))

/-- The mixed cost array the second region finds is the batch-axis pass of the cost field. -/
theorem U1_cost (c : Dev nD) (b : Fin 8) (h w : Fin 256) :
    (U1 m c main_v0 : Cert.EDT.SArg.Idx → EReal) (ix4 b (0 : Fin 1) h w) = Cert.EDT.cost1 (U1 m c main_arg1) b h w := by
  rw [U1_arg1]
  show (E1 m c (Proc.devRef .tc main_v0) : Cert.EDT.SArg.Idx → EReal) (ix4 b (0 : Fin 1) h w) = _
  rw [mid_v0]
  exact Cert.KernelIdeal.Mix.value (U0 m) c b h w

/-- The program's result buffer ends holding the loss of the argument arrays. -/
theorem kernel_loss (c : Dev nD) :
    E3 m c (Proc.devRef .tc main_v19) = Cert.EDT.loss (m ((c : Thread nD τ).loc main_arg0)) (m ((c : Thread nD τ).loc main_arg1)) := by
  rw [end_out, tail_ideal, mid_v1, Cert.KernelIdeal.Dist.final]
  obtain ⟨h1, h2, h3, h4⟩ := Cert.KernelIdeal.Dist.totals (U1 m) c (U1_cost m c)
  rw [h1, h2, h3, h4, U1_arg0, U1_arg1]
  rfl

end Cert.KernelIdeal.Whole

end
-- ==== Proof.RefMin.lean ====
/-
  The minimum over the last axis of a rank-5 array, as the host's reduce computes it from +∞, is the infimum over
  that axis's positions; and the two constants the passes use.
-/
import Idealize.ShloMosaic.PureOps
import Idealize.ShloMosaic.PureOps.Reduce
import Idealize.ShloMosaic.PureOps.Ideal
import Idealize.ShloMosaic.PureOps.Ideal.Laws
import Idealize.ShloMosaic.Lib.ValueIdx

noncomputable section

namespace Cert.RefValue

open Idealize.ShloMosaic Idealize.ShloMosaic.ValueIdx

/-- The f32 word of +∞ is the top of the extended reals. -/
theorem ofBits_inf_f32 : Ideal.ofBits .f32 0x7F800000#32 = (⊤ : EReal) := by
  simp [Ideal.ofBits, Ideal.ieee]

/-- A fold by `min` from the top is the infimum. -/
theorem fold_min_top {ι : Type} [DecidableEq ι] (s : Finset ι) (f : ι → EReal) :
    s.fold min (⊤ : EReal) f = s.inf f := by
  induction s using Finset.induction_on with
  | empty => rw [Finset.fold_empty, Finset.inf_empty]
  | insert a s ha ih => rw [Finset.fold_insert ha, Finset.inf_insert, ih]

/-- The rank-4 index `(a, b, c, d)` with position `k` put back on the last axis is `(a, b, c, d, k)`. -/
theorem lift_ix5 {n0 n1 n2 n3 n4 : Nat}
    (h : (⟨5, ![n0, n1, n2, n3, n4]⟩ : Shape).Reduces [4] (⟨4, ![n0, n1, n2, n3]⟩ : Shape))
    (a : Fin n0) (b : Fin n1) (c : Fin n2) (d : Fin n3)
    (k : Fin ((⟨5, ![n0, n1, n2, n3, n4]⟩ : Shape).size 4)) :
    h.lift (ix4 a b c d) k = ix5 a b c d (⟨k.val, k.isLt⟩ : Fin n4) := by
  funext e; apply Fin.ext
  fin_cases e <;> rfl

/-- From +∞ the host's reduce with a minimum body over the last of five axes is, at `(a, b, c, d)`, the infimum
    of the operand over the last axis's positions. -/
theorem hostReduce_min_last {n0 n1 n2 n3 n4 : Nat} (x : FVec Ideal ⟨5, ![n0, n1, n2, n3, n4]⟩ .f32)
    (h' : (⟨5, ![n0, n1, n2, n3, n4]⟩ : Shape).ReducesTo [4] (⟨4, ![n0, n1, n2, n3]⟩ : Shape))
    (h : (⟨5, ![n0, n1, n2, n3, n4]⟩ : Shape).Reduces [4] (⟨4, ![n0, n1, n2, n3]⟩ : Shape))
    (hu : 0 < (⟨0, ![]⟩ : Shape).numel) (a : Fin n0) (b : Fin n1) (c : Fin n2) (d : Fin n3) :
    Host.reduce FloatOps.minimumf x (constant (⟨0, ![]⟩ : Shape) .f32 0x7F800000#32) h' hu (ix4 a b c d)
      = Finset.univ.inf fun k : Fin n4 => x (ix5 a b c d k) := by
  rw [Host.reduce_eq_fold_single FloatOps.minimumf x _ h' h hu]
  have e := fold_min_top (Finset.univ : Finset (Fin n4)) (fun k : Fin n4 => x (ix5 a b c d k))
  refine Eq.trans ?_ e
  have hf : (x ∘ h.lift (ix4 a b c d)) = fun k : Fin n4 => x (ix5 a b c d k) :=
    funext fun k => congrArg x (lift_ix5 h a b c d k)
  have ht : (constant (F := Ideal) (⟨0, ![]⟩ : Shape) .f32 0x7F800000#32) (Shape.Idx.first hu) = (⊤ : EReal) := ofBits_inf_f32
  rw [ht]
  exact congrArg (fun f => Finset.fold min (⊤ : EReal) f (Finset.univ : Finset (Fin n4))) hf

end Cert.RefValue

end
-- ==== Proof.RefGap.lean ====
/-
  The reference's tables of squared gaps and its cost field, read at an index.
-/
import proofs.«112355_j59322088292653_1_alg».proof.Proof.Gen.ReferenceIdeal.Read
import proofs.«112355_j59322088292653_1_alg».proof.Proof.Spec

noncomputable section

namespace Cert.RefValue

open Cert.ReferenceIdeal Cert.ReferenceIdeal.Read Idealize.ShloMosaic Idealize.ShloMosaic.ValueIdx Cert.EDT

/-- The batch axis's table: entry `(i, j)` is the squared gap of `i` and `j`. -/
theorem gapTable_batch (i j : Fin 8) : val_main_v29 (F := Ideal) (ix2 i j) = gap2 i j := by
  simp only [val_main_v29_apply, val_main_v28_apply, val_main_v27_apply, val_main_v25_apply, val_main_v26_apply,
    val_main_v23_apply, val_main_v24_apply, val_main_v22_apply]
  rfl

/-- The unit axis's table: its one entry is the squared gap of position `0` and itself. -/
theorem gapTable_unit : val_main_v43 (F := Ideal) (ix2 (0 : Fin 1) (0 : Fin 1)) = gap2 (0 : Fin 1) (0 : Fin 1) := by
  simp only [val_main_v43_apply, val_main_v42_apply, val_main_v41_apply, val_main_v39_apply, val_main_v40_apply,
    val_main_v38_apply]
  rfl

/-- The height axis's table. -/
theorem gapTable_height (i j : Fin 256) : val_main_v58 (F := Ideal) (ix2 i j) = gap2 i j := by
  simp only [val_main_v58_apply, val_main_v57_apply, val_main_v56_apply, val_main_v54_apply, val_main_v55_apply,
    val_main_v52_apply, val_main_v53_apply, val_main_v51_apply]
  rfl

/-- The width axis's table. -/
theorem gapTable_width (i j : Fin 256) : val_main_v73 (F := Ideal) (ix2 i j) = gap2 i j := by
  simp only [val_main_v73_apply, val_main_v72_apply, val_main_v71_apply, val_main_v69_apply, val_main_v70_apply,
    val_main_v67_apply, val_main_v68_apply, val_main_v66_apply]
  rfl

/-- A position's squared gap to itself on the unit axis is zero. -/
theorem gap2_unit : gap2 (0 : Fin 1) (0 : Fin 1) = 0 := by
  unfold gap2
  simp [IntOp.subi, IntOp.muli]

/-- The cost field the passes start from, at `(b, 0, h, w)`. -/
theorem field_apply (x1 : (⟨S8x1x256x256, .i32⟩ : BufTy).Contents (Elt Ideal)) (b : Fin 8) (h w : Fin 256) :
    val_main_v20 (F := Ideal) x1 (ix4 b (0 : Fin 1) h w) = cost0 x1 b h w := by
  simp only [val_main_v20_apply, val_main_v19_apply, val_main_v18_apply, val_main_v17_apply, val_main_c_apply,
    val_main_call0_v0_apply, val_main_call0_v1_apply, val_main_cst_8_apply, val_main_cst_9_apply]
  rfl

end Cert.RefValue

end
-- ==== Proof.RefPass.lean ====
/-
  The reference's four min-plus passes, read at an index: after the passes along the batch, unit, height and width
  axes the cost field is the specification's `cost1`, `cost1` again, `cost2` and `cost3`.
-/
import proofs.«112355_j59322088292653_1_alg».proof.Proof.RefMin
import proofs.«112355_j59322088292653_1_alg».proof.Proof.RefGap

noncomputable section

namespace Cert.RefValue

open Cert.ReferenceIdeal Cert.ReferenceIdeal.Gen Cert.ReferenceIdeal.Read Idealize.ShloMosaic Idealize.ShloMosaic.ValueIdx Cert.EDT

variable (x1 : (⟨S8x1x256x256, .i32⟩ : BufTy).Contents (Elt Ideal))

/-! ## The pass along the batch axis -/

/-- The batch pass's summand at `(0, h, w, i, j)`: the field at batch position `j` plus the squared gap of `i` and `j`. -/
theorem batch_summand (h w : Fin 256) (i j : Fin 8) :
    val_main_v34 (F := Ideal) x1 (ix5 (0 : Fin 1) h w i j) = cost0 x1 j h w + gap2 i j := by
  rw [val_main_v34_apply, val_main_v32_apply, val_main_v30_apply, val_main_v21_apply, val_main_v33_apply, val_main_v31_apply]
  have e1 : idx_main_v21 (idx_main_v30 (idx_main_v32 (ix5 (0 : Fin 1) h w i j))) = ix4 j (0 : Fin 1) h w :=
    funext fun a => Fin.ext (by match a with | ⟨0, _⟩ => rfl | ⟨1, _⟩ => rfl | ⟨2, _⟩ => rfl | ⟨3, _⟩ => rfl)
  have e2 : idx_main_v31 (idx_main_v33 (ix5 (0 : Fin 1) h w i j)) = ix2 i j :=
    funext fun a => Fin.ext (by match a with | ⟨0, _⟩ => rfl | ⟨1, _⟩ => rfl)
  rw [e1, e2, field_apply, gapTable_batch]
  rfl

/-- After the batch pass, in the pass's own layout. -/
theorem batch_min (h w : Fin 256) (i : Fin 8) :
    val_main_v35 (F := Ideal) x1 (ix4 (0 : Fin 1) h w i) = cost1 x1 i h w := by
  unfold val_main_v35 val_main_cst_10
  rw [hostReduce_min_last (val_main_v34 (F := Ideal) x1) reducesTo_S1x256x256x8x8_S1x256x256x8_d4 (by decide) h_S_ (0 : Fin 1) h w i]
  unfold cost1
  exact congrArg (Finset.univ.inf) (funext fun j => batch_summand x1 h w i j)

/-- After the batch pass, at `(b, 0, h, w)`. -/
theorem batch_pass (b : Fin 8) (h w : Fin 256) :
    val_main_v36 (F := Ideal) x1 (ix4 b (0 : Fin 1) h w) = cost1 x1 b h w := by
  rw [val_main_v36_apply]
  have e : idx_main_v36 (ix4 b (0 : Fin 1) h w) = ix4 (0 : Fin 1) h w b :=
    funext fun a => Fin.ext (by match a with | ⟨0, _⟩ => rfl | ⟨1, _⟩ => rfl | ⟨2, _⟩ => rfl | ⟨3, _⟩ => rfl)
  rw [e, batch_min]

/-! ## The pass along the unit axis: one position, gap zero, so nothing changes -/

/-- The unit pass's summand: the field plus the squared gap of position `0` and itself. -/
theorem unit_summand (b : Fin 8) (h w : Fin 256) (k : Fin 1) :
    val_main_v47 (F := Ideal) x1 (ix5 b h w (0 : Fin 1) k) = cost1 x1 b h w + gap2 (0 : Fin 1) (0 : Fin 1) := by
  rw [val_main_v47_apply, val_main_v44_apply, val_main_v37_apply, val_main_v46_apply, val_main_v45_apply]
  have e1 : idx_main_v37 (idx_main_v44 (ix5 b h w (0 : Fin 1) k)) = ix4 b (0 : Fin 1) h w :=
    funext fun a => Fin.ext (by match a with | ⟨0, _⟩ => rfl | ⟨1, _⟩ => rfl | ⟨2, _⟩ => rfl | ⟨3, _⟩ => rfl)
  have e2 : idx_main_v45 (idx_main_v46 (ix5 b h w (0 : Fin 1) k)) = ix2 (0 : Fin 1) (0 : Fin 1) :=
    funext fun a => Fin.ext (by match a with | ⟨0, _⟩ => rfl | ⟨1, _⟩ => rfl)
  rw [e1, e2, batch_pass, gapTable_unit]
  rfl

/-- After the unit pass, in the pass's own layout. -/
theorem unit_min (b : Fin 8) (h w : Fin 256) :
    val_main_v48 (F := Ideal) x1 (ix4 b h w (0 : Fin 1)) = cost1 x1 b h w := by
  unfold val_main_v48 val_main_cst_11
  rw [hostReduce_min_last (val_main_v47 (F := Ideal) x1) reducesTo_S8x256x256x1x1_S8x256x256x1_d4 (by decide) h_S_ b h w (0 : Fin 1)]
  rw [Finset.univ_unique, Finset.inf_singleton, unit_summand, gap2_unit, add_zero]

/-- After the unit pass, at `(b, 0, h, w)`. -/
theorem unit_pass (b : Fin 8) (h w : Fin 256) :
    val_main_v49 (F := Ideal) x1 (ix4 b (0 : Fin 1) h w) = cost1 x1 b h w := by
  rw [val_main_v49_apply]
  have e : idx_main_v49 (ix4 b (0 : Fin 1) h w) = ix4 b h w (0 : Fin 1) :=
    funext fun a => Fin.ext (by match a with | ⟨0, _⟩ => rfl | ⟨1, _⟩ => rfl | ⟨2, _⟩ => rfl | ⟨3, _⟩ => rfl)
  rw [e, unit_min]

/-! ## The pass along the height axis -/

/-- The height pass reads the field with its last two axes exchanged. -/
theorem height_operand (b : Fin 8) (w h : Fin 256) :
    val_main_v50 (F := Ideal) x1 (ix4 b (0 : Fin 1) w h) = cost1 x1 b h w := by
  rw [val_main_v50_apply]
  have e : idx_main_v50 (ix4 b (0 : Fin 1) w h) = ix4 b (0 : Fin 1) h w :=
    funext fun a => Fin.ext (by match a with | ⟨0, _⟩ => rfl | ⟨1, _⟩ => rfl | ⟨2, _⟩ => rfl | ⟨3, _⟩ => rfl)
  rw [e, unit_pass]

/-- The height pass's summand at `(b, 0, w, h, h')`. -/
theorem height_summand (b : Fin 8) (w h h' : Fin 256) :
    val_main_v63 (F := Ideal) x1 (ix5 b (0 : Fin 1) w h h') = cost1 x1 b h' w + gap2 h h' := by
  rw [val_main_v63_apply, val_main_v61_apply, val_main_v59_apply, val_main_v62_apply, val_main_v60_apply]
  have e1 : idx_main_v59 (idx_main_v61 (ix5 b (0 : Fin 1) w h h')) = ix4 b (0 : Fin 1) w h' :=
    funext fun a => Fin.ext (by match a with | ⟨0, _⟩ => rfl | ⟨1, _⟩ => rfl | ⟨2, _⟩ => rfl | ⟨3, _⟩ => rfl)
  have e2 : idx_main_v60 (idx_main_v62 (ix5 b (0 : Fin 1) w h h')) = ix2 h h' :=
    funext fun a => Fin.ext (by match a with | ⟨0, _⟩ => rfl | ⟨1, _⟩ => rfl)
  rw [e1, e2, height_operand, gapTable_height]
  rfl

/-- After the height pass, in the pass's own layout. -/
theorem height_min (b : Fin 8) (w h : Fin 256) :
    val_main_v64 (F := Ideal) x1 (ix4 b (0 : Fin 1) w h) = cost2 x1 b h w := by
  unfold val_main_v64 val_main_cst_12
  rw [hostReduce_min_last (val_main_v63 (F := Ideal) x1) reducesTo_S8x1x256x256x256_S8x1x256x256_d4 (by decide) h_S_ b (0 : Fin 1) w h]
  unfold cost2
  exact congrArg (Finset.univ.inf) (funext fun h' => height_summand x1 b w h h')

/-- After the height pass, at `(b, 0, h, w)`. -/
theorem height_pass (b : Fin 8) (h w : Fin 256) :
    val_main_v65 (F := Ideal) x1 (ix4 b (0 : Fin 1) h w) = cost2 x1 b h w := by
  rw [val_main_v65_apply]
  have e : idx_main_v65 (ix4 b (0 : Fin 1) h w) = ix4 b (0 : Fin 1) w h :=
    funext fun a => Fin.ext (by match a with | ⟨0, _⟩ => rfl | ⟨1, _⟩ => rfl | ⟨2, _⟩ => rfl | ⟨3, _⟩ => rfl)
  rw [e, height_min]

/-! ## The pass along the width axis -/

/-- The width pass's summand at `(b, 0, h, w, w')`. -/
theorem width_summand (b : Fin 8) (h w w' : Fin 256) :
    val_main_v78 (F := Ideal) x1 (ix5 b (0 : Fin 1) h w w') = cost2 x1 b h w' + gap2 w w' := by
  rw [val_main_v78_apply, val_main_v76_apply, val_main_v74_apply, val_main_v77_apply, val_main_v75_apply]
  have e1 : idx_main_v74 (idx_main_v76 (ix5 b (0 : Fin 1) h w w')) = ix4 b (0 : Fin 1) h w' :=
    funext fun a => Fin.ext (by match a with | ⟨0, _⟩ => rfl | ⟨1, _⟩ => rfl | ⟨2, _⟩ => rfl | ⟨3, _⟩ => rfl)
  have e2 : idx_main_v75 (idx_main_v77 (ix5 b (0 : Fin 1) h w w')) = ix2 w w' :=
    funext fun a => Fin.ext (by match a with | ⟨0, _⟩ => rfl | ⟨1, _⟩ => rfl)
  rw [e1, e2, height_pass, gapTable_width]
  rfl

/-- After the width pass: the squared distance to the nearest marked position, at `(b, 0, h, w)`. -/
theorem width_pass (b : Fin 8) (h w : Fin 256) :
    val_main_v79 (F := Ideal) x1 (ix4 b (0 : Fin 1) h w) = cost3 x1 b h w := by
  unfold val_main_v79 val_main_cst_13
  rw [hostReduce_min_last (val_main_v78 (F := Ideal) x1) reducesTo_S8x1x256x256x256_S8x1x256x256_d4 (by decide) h_S_ b (0 : Fin 1) h w]
  unfold cost3
  exact congrArg (Finset.univ.inf) (funext fun w' => width_summand x1 b h w w')

end Cert.RefValue

end
-- ==== Proof.RefSum.lean ====
/-
  A sum over every index of a `[n0, 1, n2, n3]` array is the triple sum over the three axes that have positions to
  range over; the unit axis contributes its one position.
-/
import Idealize.ShloMosaic.PureOps
import Idealize.ShloMosaic.Lib.ValueIdx

noncomputable section

namespace Cert.RefValue

open Idealize.ShloMosaic Idealize.ShloMosaic.ValueIdx

/-- A `[n0, 1, n2, n3]` index set is the product of its three coordinate ranges … -/
def idxEquiv4Unit {n0 n2 n3 : Nat} : (⟨4, ![n0, 1, n2, n3]⟩ : Shape).Idx ≃ Fin n0 × Fin n2 × Fin n3 where
  toFun i := (i 0, i 2, i 3)
  invFun p := ix4 p.1 (0 : Fin 1) p.2.1 p.2.2
  left_inv i := by
    have h1 : i 1 = (0 : Fin 1) := @Subsingleton.elim (Fin 1) _ (i 1) (0 : Fin 1)
    have e := eq_ix4 i
    rw [h1] at e
    exact e.symm
  right_inv _ := rfl

/-- … so a sum over it is the triple sum over the coordinates. -/
theorem sum_idx4_unit {M : Type*} [AddCommMonoid M] {n0 n2 n3 : Nat} (f : (⟨4, ![n0, 1, n2, n3]⟩ : Shape).Idx → M) :
    ∑ i, f i = ∑ a : Fin n0, ∑ c : Fin n2, ∑ d : Fin n3, f (ix4 a (0 : Fin 1) c d) := by
  rw [← Equiv.sum_comp (idxEquiv4Unit (n0 := n0) (n2 := n2) (n3 := n3)).symm f, Fintype.sum_prod_type]
  refine Finset.sum_congr rfl fun a _ => ?_
  rw [Fintype.sum_prod_type]
  rfl

end Cert.RefValue

end
-- ==== Proof.RefValue.lean ====
/-
  The reference's value: its run's result is the loss of `Spec.lean`.

  The four min-plus passes are read in RefPass.lean; here the pointwise fields (the logistic of the score, the label as
  a number, the distance), the four totals regrouped over batch, height and width, and the closing scalar formula.
-/
import proofs.«112355_j59322088292653_1_alg».proof.Proof.Gen.ReferenceIdeal.Run
import proofs.«112355_j59322088292653_1_alg».proof.Proof.Gen.ReferenceIdeal.Read
import proofs.«112355_j59322088292653_1_alg».proof.Proof.Spec
import proofs.«112355_j59322088292653_1_alg».proof.Proof.RefPass
import proofs.«112355_j59322088292653_1_alg».proof.Proof.RefSum
import Idealize.ShloMosaic.Lib.IdealHost

noncomputable section

namespace Cert.RefValue

open Cert.ReferenceIdeal Cert.ReferenceIdeal.Gen Cert.ReferenceIdeal.Read Idealize.ShloMosaic Idealize.ShloMosaic.ValueIdx Cert.EDT

variable (x0 : (⟨S8x1x256x256, .f32⟩ : BufTy).Contents (Elt Ideal))
  (x1 : (⟨S8x1x256x256, .i32⟩ : BufTy).Contents (Elt Ideal))

/-! ## The pointwise fields -/

/-- `1 / (1 + exp (-x))` is the logistic function of the score. -/
theorem sig_apply (b : Fin 8) (h w : Fin 256) :
    val_main_v5 (F := Ideal) x0 (ix4 b (0 : Fin 1) h w) = sig x0 b h w := by
  rw [val_main_v5_apply, val_main_v4_apply, val_main_cst_0_apply, val_main_v3_apply, val_main_v2_apply,
    val_main_cst_apply, val_main_v1_apply, val_main_v0_apply]
  simp only [Ideal.ofBits_def, Ideal.ofBits_one_f32]
  rfl

/-- The label converted to a float is the label as a number. -/
theorem lab_apply (b : Fin 8) (h w : Fin 256) :
    val_main_v6 (F := Ideal) x1 (ix4 b (0 : Fin 1) h w) = lab x1 b h w := rfl

/-- The square root of the squared distance is the distance. -/
theorem dist_apply (b : Fin 8) (h w : Fin 256) :
    val_main_v80 (F := Ideal) x1 (ix4 b (0 : Fin 1) h w) = dist x1 b h w := by
  rw [val_main_v80_apply, width_pass]
  rfl

/-! ## The four totals -/

/-- `Σ σ·y`. -/
theorem total1 (i : S_.Idx) : val_main_v8 (F := Ideal) x0 x1 i = tot1 x0 x1 := by
  rw [val_main_v8_apply, val_main_cst_1_apply, Ideal.ofBits_def, Ideal.ofBits_zero_f32, zero_add, sum_idx4_unit]
  unfold tot1 total
  refine Finset.sum_congr rfl fun b _ => Finset.sum_congr rfl fun h _ => Finset.sum_congr rfl fun w _ => ?_
  rw [val_main_v7_apply, sig_apply, lab_apply]
  rfl

/-- `Σ σ`. -/
theorem total2 (i : S_.Idx) : val_main_v9 (F := Ideal) x0 i = tot2 x0 := by
  rw [val_main_v9_apply, val_main_cst_2_apply, Ideal.ofBits_def, Ideal.ofBits_zero_f32, zero_add, sum_idx4_unit]
  unfold tot2 total
  exact Finset.sum_congr rfl fun b _ => Finset.sum_congr rfl fun h _ => Finset.sum_congr rfl fun w _ => sig_apply x0 b h w

/-- `Σ y`. -/
theorem total3 (i : S_.Idx) : val_main_v10 (F := Ideal) x1 i = tot3 x1 := by
  rw [val_main_v10_apply, val_main_cst_3_apply, Ideal.ofBits_def, Ideal.ofBits_zero_f32, zero_add, sum_idx4_unit]
  unfold tot3 total
  exact Finset.sum_congr rfl fun b _ => Finset.sum_congr rfl fun h _ => Finset.sum_congr rfl fun w _ => lab_apply x1 b h w

/-- `Σ σ·dist`. -/
theorem total4 (i : S_.Idx) : val_main_v82 (F := Ideal) x0 x1 i = tot4 x0 x1 := by
  rw [val_main_v82_apply, val_main_cst_14_apply, Ideal.ofBits_def, Ideal.ofBits_zero_f32, zero_add, sum_idx4_unit]
  unfold tot4 total
  refine Finset.sum_congr rfl fun b _ => Finset.sum_congr rfl fun h _ => Finset.sum_congr rfl fun w _ => ?_
  rw [val_main_v81_apply, sig_apply, dist_apply]
  rfl

/-! ## The closing formula -/

/-- The reference's result is the loss. -/
theorem ref_loss
    (x0 : (⟨Cert.ReferenceIdeal.S8x1x256x256, .f32⟩ : BufTy).Contents (Elt Ideal))
    (x1 : (⟨Cert.ReferenceIdeal.S8x1x256x256, .i32⟩ : BufTy).Contents (Elt Ideal)) :
    Cert.ReferenceIdeal.Read.val_main_v86 (F := Ideal) x0 x1 = Cert.EDT.loss x0 x1 := by
  have h8 : val_main_v8 (F := Ideal) x0 x1 = fun _ => tot1 x0 x1 := funext fun i => total1 x0 x1 i
  have h9 : val_main_v9 (F := Ideal) x0 = fun _ => tot2 x0 := funext fun i => total2 x0 i
  have h10 : val_main_v10 (F := Ideal) x1 = fun _ => tot3 x1 := funext fun i => total3 x1 i
  have h82 : val_main_v82 (F := Ideal) x0 x1 = fun _ => tot4 x0 x1 := funext fun i => total4 x0 x1 i
  unfold val_main_v86 val_main_v84 val_main_v85 val_main_v83 val_main_v16 val_main_v15 val_main_v13 val_main_v14
    val_main_v12 val_main_v11
  rw [h8, h9, h10, h82]
  rfl

end Cert.RefValue

end
-- ==== Proof.lean ====
/-
  The certificate.  The kernel program is two regions and a closing stretch of host operations; the reference is
  host operations only.  Both compute the loss stated in `Proof/Spec.lean`: a three-pass squared distance transform
  of the label array, the logistic of the score array, four totals over all positions and one scalar formula.

  The kernel program's frame, at the word level and at the ideal instance, is its whole run over the regions
  (`Proof/WholeBits.lean`, `Proof/WholeIdeal.lean`); the reference's frame is its generated run.  No operation was
  rewritten by the idealization, so that conjunct is trivial.  For the last conjunct the kernel program's run ends with
  its result at the loss of its arguments (`Proof/KernelValue.lean`), and so does the reference's
  (`Proof/RefValue.lean`), at arguments that agree.
-/
import proofs.«112355_j59322088292653_1_alg».proof.Defs
import proofs.«112355_j59322088292653_1_alg».proof.Proof.Gen.Kernel
import proofs.«112355_j59322088292653_1_alg».proof.Proof.Gen.KernelIdeal
import proofs.«112355_j59322088292653_1_alg».proof.Proof.Gen.ReferenceIdeal
import proofs.«112355_j59322088292653_1_alg».proof.Proof.Gen.Pre_finite_inputs
import proofs.«112355_j59322088292653_1_alg».proof.Proof.Gen.ReferenceIdeal.Run
import proofs.«112355_j59322088292653_1_alg».proof.Proof.Gen.ReferenceIdeal.Read
import proofs.«112355_j59322088292653_1_alg».proof.Proof.WholeBits
import proofs.«112355_j59322088292653_1_alg».proof.Proof.WholeIdeal
import proofs.«112355_j59322088292653_1_alg».proof.Proof.KernelValue
import proofs.«112355_j59322088292653_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Whole.frame m ρ

theorem frame_kernelIdeal : @Cert.frame_KernelIdeal Cert.KernelIdeal.Gen.facts Cert.Pre_finite_inputs.Gen.facts :=
  fun m ρ _ => Cert.KernelIdeal.Whole.frame m ρ

theorem frame_reference : @Cert.frame_ReferenceIdeal Cert.ReferenceIdeal.Gen.facts Cert.Pre_finite_inputs.Gen.facts :=
  fun m ρ _ =>
    (θ_run Cert.ReferenceIdeal.defs _ _).mono (fun _ h c => (h c).2) (Cert.ReferenceIdeal.Value.run (F := Ideal) m ρ)

/-- From arguments that agree both runs end with the loss of the arguments as their result. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.EDT.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun r h c => ⟨?_, ?_, ?_⟩) (Cert.KernelIdeal.Whole.run_all (F := Ideal) m ρ)
    · exact (h c _ (Cert.KernelIdeal.Whole.mem_uc Cert.KernelIdeal.main_v19 (by decide))).trans (Cert.KernelIdeal.Whole.kernel_loss m c)
    · exact (h c _ (Cert.KernelIdeal.Whole.mem_uc Cert.KernelIdeal.main_arg0 (by decide))).trans (Cert.KernelIdeal.Whole.end_arg0 m c)
    · exact (h c _ (Cert.KernelIdeal.Whole.mem_uc Cert.KernelIdeal.main_arg1 (by decide))).trans (Cert.KernelIdeal.Whole.end_arg1 m c)
  · refine (θ_run Cert.ReferenceIdeal.defs _ _).mono (fun _ h c => ⟨?_, (h c).2⟩) (Cert.ReferenceIdeal.Value.run (F := Ideal) m' ρ')
    rw [(h c).1, Cert.ReferenceIdeal.Read.val_main_v86_eq, Cert.RefValue.ref_loss, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
